-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024x1024 .f32) (main_arg5 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S4x2048x1024 : Shape := ⟨3, ![4, 2048, 1024]⟩
abbrev S1024x1024 : Shape := ⟨2, ![1024, 1024]⟩
abbrev S8192x1024 : Shape := ⟨2, ![8192, 1024]⟩
abbrev S1x8192x1024 : Shape := ⟨3, ![1, 8192, 1024]⟩
abbrev S2x8192x1024 : Shape := ⟨3, ![2, 8192, 1024]⟩
abbrev S1x1024x1024 : Shape := ⟨3, ![1, 1024, 1024]⟩
abbrev S2x1024x1024 : Shape := ⟨3, ![2, 1024, 1024]⟩
abbrev S1x2048x1024 : Shape := ⟨3, ![1, 2048, 1024]⟩
abbrev S2048x1024 : Shape := ⟨2, ![2048, 1024]⟩
abbrev S_ : Shape := ⟨0, ![]⟩
abbrev S1x512x1024 : Shape := ⟨3, ![1, 512, 1024]⟩
abbrev S512x1 : Shape := ⟨2, ![512, 1]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩

abbrev nBuf : Space → Nat
  | .hbm => 28
  | .vmem => 19
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1x8192x1024, .f32⟩
  | .hbm, ⟨9, _⟩ => ⟨S1x8192x1024, .f32⟩
  | .hbm, ⟨10, _⟩ => ⟨S2x8192x1024, .f32⟩
  | .hbm, ⟨11, _⟩ => ⟨S1024x1024, .f32⟩
  | .hbm, ⟨12, _⟩ => ⟨S1024x1024, .f32⟩
  | .hbm, ⟨13, _⟩ => ⟨S1x1024x1024, .f32⟩
  | .hbm, ⟨14, _⟩ => ⟨S1x1024x1024, .f32⟩
  | .hbm, ⟨15, _⟩ => ⟨S2x1024x1024, .f32⟩
  | .hbm, ⟨16, _⟩ => ⟨S2x8192x1024, .bf16⟩
  | .hbm, ⟨17, _⟩ => ⟨S1x8192x1024, .bf16⟩
  | .hbm, ⟨18, _⟩ => ⟨S8192x1024, .bf16⟩
  | .hbm, ⟨19, _⟩ => ⟨S4x2048x1024, .bf16⟩
  | .hbm, ⟨20, _⟩ => ⟨S1x8192x1024, .bf16⟩
  | .hbm, ⟨21, _⟩ => ⟨S8192x1024, .bf16⟩
  | .hbm, ⟨22, _⟩ => ⟨S4x2048x1024, .bf16⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S4x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x2048x1024, .bf16⟩
  | .local _ .vmem, ⟨5, _⟩ => ⟨S1x2048x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1024x1024, .f32⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .f32⟩
  | .local _ .vmem, ⟨14, _⟩ => ⟨S1x512x1024, .f32⟩
  | .local _ .vmem, ⟨15, _⟩ => ⟨S512x1, .f32⟩
  | .local _ .vmem, ⟨16, _⟩ => ⟨S512x1, .f32⟩
  | .local _ .vmem, ⟨17, _⟩ => ⟨S512x1024, .f32⟩
  | .local _ .vmem, ⟨18, _⟩ => ⟨S512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc1_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v40 : BitVec 1 := Scalar.cmpi .eq arg2 c3_i32
  let v41 : BitVec 32 := Scalar.extui v40
  let c0_i32_25 : BitVec 32 := 0#32
  let v42 : BitVec 1 := Scalar.cmpi .ne v41 c0_i32_25
  v42

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  shapeCasts_S4x2048x1024_S8192x1024 : S4x2048x1024.ShapeCasts S8192x1024
  bcast_S8192x1024_S1x8192x1024_1_2 : S8192x1024.BroadcastsInDim S1x8192x1024 (![1, 2] : Fin 2 → Fin S1x8192x1024.rank)
  concatenates_S1x8192x1024_S1x8192x1024_S2x8192x1024_d0 : Shape.Concatenates [S1x8192x1024, S1x8192x1024] S2x8192x1024 0
  transposes_S1024x1024_S1024x1024_1_0 : S1024x1024.Transposes [1, 0] S1024x1024
  bcast_S1024x1024_S1x1024x1024_1_2 : S1024x1024.BroadcastsInDim S1x1024x1024 (![1, 2] : Fin 2 → Fin S1x1024x1024.rank)
  concatenates_S1x1024x1024_S1x1024x1024_S2x1024x1024_d0 : Shape.Concatenates [S1x1024x1024, S1x1024x1024] S2x1024x1024 0
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S2048x1024_S1x2048x1024 : S2048x1024.ShapeCasts S1x2048x1024
  packedbf16_S1x2048x1024_S1x2048x1024_0_0_0 : (Rect.unit (s := S1x2048x1024) ![0, 0, 0] S1x2048x1024.size inb_S1x2048x1024_S1x2048x1024_0_0_0).PackedRows (EltTy.packing .bf16)
  slices_S2x8192x1024_S1x8192x1024_0_0_0 : S2x8192x1024.Slices ![0, 0, 0] S1x8192x1024
  shapeCasts_S1x8192x1024_S8192x1024 : S1x8192x1024.ShapeCasts S8192x1024
  shapeCasts_S8192x1024_S4x2048x1024 : S8192x1024.ShapeCasts S4x2048x1024
  slices_S2x8192x1024_S1x8192x1024_1_0_0 : S2x8192x1024.Slices ![1, 0, 0] S1x8192x1024
  bcast_S_S1024x1024 : S_.BroadcastsInDim S1024x1024 (![] : Fin 0 → Fin S1024x1024.rank)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  packedbf16_S512x1024_S512x1024_0_0 : (Rect.unit (s := S512x1024) ![0, 0] S512x1024.size inb_S512x1024_S512x1024_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  transposes_S512x1024_p1_0_S1024x512 : S512x1024.Transposes [1, 0] S1024x512
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  shapeCasts_S512x1024_S1x512x1024 : S512x1024.ShapeCasts S1x512x1024
  dot_S2048x1024_S1024x1024_S2048x1024_1_0_0_1_n_n_wf : DotDims.WF S2048x1024 S1024x1024 S2048x1024 [1] [0] [0] [1] [] []
  dot_S512x1024_S1024x1024_S512x1024_1_0_0_1_n_n_wf : DotDims.WF S512x1024 S1024x1024 S512x1024 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S2x8192x1024.size a
  hwx0_0 : ∀ i : grid0.Coords, EltTy.bits .f32 = 32 ∨ (Rect.block (s := S2x8192x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S2x1024x1024.size a
  hwx0_1 : ∀ i : grid0.Coords, EltTy.bits .f32 = 32 ∨ (Rect.block (s := S2x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S2x8192x1024.size a
  hwx0_2 : ∀ i : grid0.Coords, EltTy.bits .bf16 = 32 ∨ (Rect.block (s := S2x8192x1024) S1x2048x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .f32 = 32 ∨ (Rect.block (s := S4x2048x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x1024.size a
  hwx1_2 : ∀ i : grid1.Coords, EltTy.bits .bf16 = 32 ∨ (Rect.block (s := S4x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .bf16 = 32 ∨ (Rect.block (s := S4x2048x1024) S1x512x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S4x2048x1024.size a
  hwx1_4 : ∀ i : grid1.Coords, EltTy.bits .f32 = 32 ∨ (Rect.block (s := S4x2048x1024) S1x512x1024.size (cc1_transform_4 i) (hinb1_4 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v4) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KRegion0.lean ====
/-
  The first kernel region (the K and V projections), at a parameter `V`: the contents of the
  TensorCore's buffers when the region is entered.

  The grid is 2 × 4. At point (p, i) the body multiplies rows [2048·i, 2048·(i+1)) of input p
  (p = 0: the keys' rows, p = 1: the values' rows, each as an 8192 × 1024 matrix) by the 1024 × 1024
  matrix p of the transposed weights and stores the 2048 × 1024 product, whole, into the output
  window's buffer. Nothing is kept between points, so what the output buffer holds after the body is a
  function of the two input blocks alone.
-/
import proofs.«178921_j33646773797609_2_alg».proof.Proof.Gen.Kernel.Launch
import proofs.«178921_j33646773797609_2_alg».proof.Proof.Gen.Kernel.Skeleton
import proofs.«178921_j33646773797609_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' window: its current buffer holds its block at every point, whether fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' window (its block index moves only with the first grid coordinate): the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S1x2048x1024 := Rect.unit (s := S1x2048x1024) ![0, 0, 0] S1x2048x1024.size inb_S1x2048x1024_S1x2048x1024_0_0_0
abbrev r0_w : Rect S1x1024x1024 := Rect.unit (s := S1x1024x1024) ![0, 0, 0] S1x1024x1024.size inb_S1x1024x1024_S1x1024x1024_0_0_0

/-- What the body leaves in the output window's buffer: its one store, of the product of the two
    loaded blocks. -/
def out0_2 (x0 : Vec F S1x2048x1024 .f32) (x1 : Vec F S1x1024x1024 .f32) : Vec F S1x2048x1024 .bf16 :=
  View.canon [⟨r0_x, k0_pay1 (View.ld x0 r0_x) (View.ld x1 r0_w)⟩]

/-- The one store covers the buffer. -/
theorem cover0_2 (p0 : Vec F S1x2048x1024 .bf16) (y : S1x2048x1024.Idx) :
    ∃ pc ∈ ([⟨r0_x, p0⟩] : List (View.Piece (Elt F) S1x2048x1024 .bf16)), y ∈ pc.1.set :=
  View.cover_of_tiled [⟨r0_x, p0⟩] S1x2048x1024.size (by rfl) y

/-! ## The body's triple -/

set_option maxHeartbeats 4000000 in
/-- On whole buffers — the inputs' at contents `x0`, `x1`, the output's at anything — the body runs to
    its continuation with the inputs' buffers as they were and the output's at `out0_2 x0 x1`. -/
theorem sound_kernel0 (c : Dev nD) (E : Set ℕ) (i : grid0.Coords)
    (arg2 : Memref sig .tc .vmem S1x2048x1024 .f32) (harg2 : arg2.IsWhole)
    (arg3 : Memref sig .tc .vmem S1x1024x1024 .f32) (harg3 : arg3.IsWhole)
    (arg4 : Memref sig .tc .vmem S1x2048x1024 .bf16) (harg4 : arg4.IsWhole)
    (x0 : Vec F S1x2048x1024 .f32) (x1 : Vec F S1x1024x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__kv_proj_kernel i arg2 harg2 arg3 harg3 arg4 harg4) K := by
  simp only [cc0__kv_proj_kernel_eq_skeleton]; unfold cc0__kv_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The arrays as the region finds them; after the body at point `t` each input's buffer at its block and
    the output's at `out0_2` of the two input blocks; the invariant is the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KShared1.lean ====
/-
  The second kernel region (attention with a running maximum), what its three control cases share.

  The grid is 4 × 4 × 4: batch b, block qi of 512 queries, block ki of 512 keys, ki innermost. Four
  scratch buffers live across the four points of a row (b, qi, ·): the projected queries, the running
  row maximum, the running sum of exponentials, the running weighted sum of value rows. The body
  branches on ki alone: at ki = 0 it first projects the query block and resets the three running
  quantities; at every point it folds the point's block of keys and values into them; at ki = 3 it
  also divides and stores the output block, which is written back at those points only.
-/
import proofs.«178921_j33646773797609_2_alg».proof.Proof.Gen.Kernel.Launch
import proofs.«178921_j33646773797609_2_alg».proof.Proof.Gen.Kernel.Skeleton
import proofs.«178921_j33646773797609_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: its current buffer holds its block at every point, whether fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: its current buffer holds its block at every point, whether fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: its current buffer holds its block at every point, whether fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: its current buffer holds its block at every point, whether fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- "This is the first key block of the row": the third grid coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last key block of the row": the third grid coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from a row's last point the output window is idle and is not written back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
/-- At a row's last point it is live. -/
theorem liveAt1_4_C : ∀ t : Fin cfg1.N, ¬cond1_0 (grid1.coords t) → cond1_1 (grid1.coords t) → cfg1.idle 4 (grid1.coords t) = false := by decide +kernel

/-! ## The buffers the body is called on -/

/-- One buffer of the output window, through which its contents are stated. -/
abbrev VO1_4 : View sig .tc .vmem S1x512x1024 .f32 := (Memref.whole cc1_stg4_0 : Memref sig .tc .vmem S1x512x1024 .f32).view
abbrev ms1_0 (t : Fin cfg1.N) : Memref sig .tc .vmem S1x512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x1024 .f32 := win1_4.stage (cfg1.slots t 4)
abbrev hs1_4 (t : Fin cfg1.N) : (ms1_4 t).IsWhole := hstage1_4 ((cfg1.slots t 4).cast nbuf1_4)
/-- The four scratch buffers: the running maximum, the running sum, the running weighted sum, the projected queries. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev scM1_3 : Memref sig .tc .vmem S512x1024 .bf16 := Memref.whole cc1_scratch3
abbrev VS1_0 : View sig .tc .vmem S512x1 .f32 := scM1_0.view
abbrev VS1_1 : View sig .tc .vmem S512x1 .f32 := scM1_1.view
abbrev VS1_2 : View sig .tc .vmem S512x1024 .f32 := scM1_2.view
abbrev VS1_3 : View sig .tc .vmem S512x1024 .bf16 := scM1_3.view

/-- The first region's six staging buffers: scoped, untouched here, at some contents. -/
def stgRest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- What the region's invariant is before anything is known of the scratch buffers: those six, the four
    scratch buffers each at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.Kernel.Hand

end
-- ==== Proof.KRun1A.lean ====
/-
  The second kernel region's body, run whole, at the first key block of a row (the queries are projected and the running quantities reset before the block is folded in).
-/
import proofs.«178921_j33646773797609_2_alg».proof.Proof.KShared1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces each scratch buffer ends with, with the proof that on whole buffers — the inputs' at their
    contents, the idle output's at contents handed back untouched, the four scratch buffers at anything — the
    body runs to its continuation holding the inputs' as they were and each scratch buffer with its pieces
    written. -/
noncomputable def kernelRun1_A (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : cond1_0 i) (hc1 : ¬cond1_1 i)
    (x0 : Vec F S1x512x1024 .f32) (x1 : Vec F S1024x1024 .f32) (x2 : Vec F S1x512x1024 .bf16) (x3 : Vec F S1x512x1024 .bf16) :
    Σ' (LS0 : List (View.Piece (Elt F) S512x1 .f32)) (LS1 : List (View.Piece (Elt F) S512x1 .f32)) (LS2 : List (View.Piece (Elt F) S512x1024 .f32)), { LS3 : List (View.Piece (Elt F) S512x1024 .bf16) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, ?_, ?_, fun xi4 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.Kernel.Hand

end
-- ==== Proof.KRun1B.lean ====
/-
  The second kernel region's body, run whole, at a middle key block of a row (the block is folded into the running quantities; the projected queries are only read).
-/
import proofs.«178921_j33646773797609_2_alg».proof.Proof.KRun1A

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the three running quantities' buffers end with, with the proof that on whole buffers — the
    inputs' at their contents, the idle output's and the projected queries' at contents handed back untouched,
    the three running quantities' at what the point before left — the body runs to its continuation. -/
noncomputable def kernelRun1_B (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : ¬cond1_1 i)
    (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) :
    Σ' (LS0 : List (View.Piece (Elt F) S512x1 .f32)) (LS1 : List (View.Piece (Elt F) S512x1 .f32)), { LS2 : List (View.Piece (Elt F) S512x1024 .f32) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, ?_, fun xi4 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; isplitr; · ipureintro; exact harg11.read_unread _
    iexact HS3

end Cert.Kernel.Hand

end
-- ==== Proof.KRun1C.lean ====
/-
  The second kernel region's body, run whole, at the last key block of a row (the block is folded in, then the weighted sum is divided by the sum and stored into the output window's buffer).
-/
import proofs.«178921_j33646773797609_2_alg».proof.Proof.KRun1B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the output buffer and the three running quantities' buffers end with, with the proof that on
    whole buffers — the inputs' at their contents, the output's at anything, the projected queries' at contents
    handed back untouched, the three running quantities' at what the point before left — the body runs to its
    continuation. -/
noncomputable def kernelRun1_C (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : cond1_1 i)
    (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) :
    Σ' (L4 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    isplitl [HS2]; · iexists _; iexact HS2
    iexists _; isplitr; · ipureintro; exact harg11.read_unread _
    iexact HS3

end Cert.Kernel.Hand

end
-- ==== Proof.KFrame1.lean ====
/-
  The second kernel region: what its buffers hold point by point, its invariant, its proof data and its
  body obligation, at a parameter `V` (the buffers' contents when the region is entered).

  After the body at grid point n the tuple `outsAt1 n` is (the output window's buffer, the running maximum,
  the running sum, the running weighted sum, the projected queries). At the first key block of a row the
  tuple is a function of the point's input blocks alone; at the other points it is a function of the input
  blocks and of the tuple the point before left, and the projected queries are carried unchanged. The
  region's invariant before point n + 1 holds the four scratch buffers at the last four components of
  `outsAt1 n`.
-/
import proofs.«178921_j33646773797609_2_alg».proof.Proof.KRun1C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A: the pieces stored into scratch buffer 0 cover it. -/
theorem scover1_A_0 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : cond1_0 i) (hc1 : ¬cond1_1 i) (x0 : Vec F S1x512x1024 .f32) (x1 : Vec F S1024x1024 .f32) (x2 : Vec F S1x512x1024 .bf16) (x3 : Vec F S1x512x1024 .bf16) (y : S512x1.Idx) :
    ∃ pc ∈ (kernelRun1_A c i arg3 harg3 arg4 harg4 arg5 harg5 arg6 harg6 arg7 harg7 arg8 harg8 arg9 harg9 arg10 harg10 arg11 harg11 hc0 hc1 x0 x1 x2 x3).1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).1 S512x1.size (by sl_kernel_rfl) y

/-- Case A: what scratch buffer 0 holds after the body. -/
def sout1_A_0 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : cond1_0 i) (hc1 : ¬cond1_1 i) (x0 : Vec F S1x512x1024 .f32) (x1 : Vec F S1024x1024 .f32) (x2 : Vec F S1x512x1024 .bf16) (x3 : Vec F S1x512x1024 .bf16) : Vec F S512x1 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 x0 x1 x2 x3).1)

/-- Case A: the pieces stored into scratch buffer 1 cover it. -/
theorem scover1_A_1 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : cond1_0 i) (hc1 : ¬cond1_1 i) (x0 : Vec F S1x512x1024 .f32) (x1 : Vec F S1024x1024 .f32) (x2 : Vec F S1x512x1024 .bf16) (x3 : Vec F S1x512x1024 .bf16) (y : S512x1.Idx) :
    ∃ pc ∈ (kernelRun1_A c i arg3 harg3 arg4 harg4 arg5 harg5 arg6 harg6 arg7 harg7 arg8 harg8 arg9 harg9 arg10 harg10 arg11 harg11 hc0 hc1 x0 x1 x2 x3).2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.1 S512x1.size (by sl_kernel_rfl) y

/-- Case A: what scratch buffer 1 holds after the body. -/
def sout1_A_1 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : cond1_0 i) (hc1 : ¬cond1_1 i) (x0 : Vec F S1x512x1024 .f32) (x1 : Vec F S1024x1024 .f32) (x2 : Vec F S1x512x1024 .bf16) (x3 : Vec F S1x512x1024 .bf16) : Vec F S512x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 hc0 hc1 x0 x1 x2 x3).2.1)

/-- Case A: the pieces stored into scratch buffer 2 cover it. -/
theorem scover1_A_2 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : cond1_0 i) (hc1 : ¬cond1_1 i) (x0 : Vec F S1x512x1024 .f32) (x1 : Vec F S1024x1024 .f32) (x2 : Vec F S1x512x1024 .bf16) (x3 : Vec F S1x512x1024 .bf16) (y : S512x1024.Idx) :
    ∃ pc ∈ (kernelRun1_A c i arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.2.1 S512x1024.size (by sl_kernel_rfl) y

/-- Case A: what scratch buffer 2 holds after the body. -/
def sout1_A_2 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : cond1_0 i) (hc1 : ¬cond1_1 i) (x0 : Vec F S1x512x1024 .f32) (x1 : Vec F S1024x1024 .f32) (x2 : Vec F S1x512x1024 .bf16) (x3 : Vec F S1x512x1024 .bf16) : Vec F S512x1024 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 hc0 hc1 x0 x1 x2 x3).2.2.1)

/-- Case A: the pieces stored into scratch buffer 3 cover it. -/
theorem scover1_A_3 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : cond1_0 i) (hc1 : ¬cond1_1 i) (x0 : Vec F S1x512x1024 .f32) (x1 : Vec F S1024x1024 .f32) (x2 : Vec F S1x512x1024 .bf16) (x3 : Vec F S1x512x1024 .bf16) (y : S512x1024.Idx) :
    ∃ pc ∈ (kernelRun1_A c i arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.2.2.1 S512x1024.size (by sl_kernel_rfl) y

/-- Case A: what scratch buffer 3 holds after the body. -/
def sout1_A_3 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : cond1_0 i) (hc1 : ¬cond1_1 i) (x0 : Vec F S1x512x1024 .f32) (x1 : Vec F S1024x1024 .f32) (x2 : Vec F S1x512x1024 .bf16) (x3 : Vec F S1x512x1024 .bf16) : Vec F S512x1024 .bf16 :=
  VS1_3.read (Elt F) (VS1_3.writes (Elt F) VS1_3.junk (kernelRun1_A c i arg3 harg3 arg4 harg4 arg5 harg5 arg6 harg6 arg7 harg7 arg8 harg8 arg9 harg9 arg10 harg10 arg11 harg11 hc0 hc1 x0 x1 x2 x3).2.2.2.1)

/-- Case B: the pieces stored into scratch buffer 0 cover it. -/
theorem scover1_B_0 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : ¬cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) (y : S512x1.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).1 S512x1.size (by sl_kernel_rfl) y

/-- Case B: what scratch buffer 0 holds after the body. -/
def sout1_B_0 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : ¬cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) : Vec F S512x1 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 hc0 hc1 x0 x1 x2 x3 xs0 xs1 xs2 xs3).1)

/-- Case B: the pieces stored into scratch buffer 1 cover it. -/
theorem scover1_B_1 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : ¬cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) (y : S512x1.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).2.1 S512x1.size (by sl_kernel_rfl) y

/-- Case B: what scratch buffer 1 holds after the body. -/
def sout1_B_1 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : ¬cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) : Vec F S512x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 hc0 hc1 x0 x1 x2 x3 xs0 xs1 xs2 xs3).2.1)

/-- Case B: the pieces stored into scratch buffer 2 cover it. -/
theorem scover1_B_2 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : ¬cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) (y : S512x1024.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).2.2.1 S512x1024.size (by sl_kernel_rfl) y

/-- Case B: what scratch buffer 2 holds after the body. -/
def sout1_B_2 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : ¬cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) : Vec F S512x1024 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 hc0 hc1 x0 x1 x2 x3 xs0 xs1 xs2 xs3).2.2.1)

/-- Case C: the pieces stored into scratch buffer 0 cover it. -/
theorem scover1_C_0 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) (y : S512x1.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1 xs2 xs3).2.1 S512x1.size (by sl_kernel_rfl) y

/-- Case C: what scratch buffer 0 holds after the body. -/
def sout1_C_0 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) : Vec F S512x1 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 hc0 hc1 x0 x1 x2 x3 xs0 xs1 xs2 xs3).2.1)

/-- Case C: the pieces stored into scratch buffer 1 cover it. -/
theorem scover1_C_1 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) (y : S512x1.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1 xs2 xs3).2.2.1 S512x1.size (by sl_kernel_rfl) y

/-- Case C: what scratch buffer 1 holds after the body. -/
def sout1_C_1 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) : Vec F S512x1 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 hc0 hc1 x0 x1 x2 x3 xs0 xs1 xs2 xs3).2.2.1)

/-- Case C: the pieces stored into scratch buffer 2 cover it. -/
theorem scover1_C_2 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) (y : S512x1024.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1 xs2 xs3).2.2.2.1 S512x1024.size (by sl_kernel_rfl) y

/-- Case C: what scratch buffer 2 holds after the body. -/
def sout1_C_2 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) : Vec F S512x1024 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 hc0 hc1 x0 x1 x2 x3 xs0 xs1 xs2 xs3).2.2.2.1)

/-- Case C: the pieces stored into the output window's buffer cover it. -/
theorem cover1_C_4 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) (y : S1x512x1024.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1 xs2 xs3).1 S1x512x1024.size (by sl_kernel_rfl) y

/-- Case C: what the output window's buffer holds after the body. -/
def out1_C_4 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) : Vec F S1x512x1024 .f32 :=
  VO1_4.read (Elt F) (VO1_4.writes (Elt F) VO1_4.junk (kernelRun1_C c i arg3 harg3 arg4 harg4 arg5 harg5 arg6 harg6 arg7 harg7 arg8 harg8 arg9 harg9 arg10 harg10 arg11 harg11 hc0 hc1 x0 x1 x2 x3 xs0 xs1 xs2 xs3).1)

/-- Where a case stores nothing into the output window (it is idle there and not written back): a
    placeholder that nothing consults. -/
def outIdle : Vec F S1x512x1024 .f32 := VO1_4.read (Elt F) (VO1_4.writes (Elt F) VO1_4.junk [])

/-! ## The tuple after each point -/

abbrev St (F : FTy → Type) [FloatOps F] : Type := (Vec F S1x512x1024 .f32 × Vec F S512x1 .f32 × Vec F S512x1 .f32 × Vec F S512x1024 .f32 × Vec F S512x1024 .bf16)

/-- The first key block of a row: from the point's input blocks alone. -/
def stepA (c : Dev nD) (t : Fin cfg1.N) (h0 : t.val % 4 = 0) (h1 : ¬t.val % 4 = 3) : St F :=
  (outIdle,
   sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t),
   sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t),
   sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t),
   sout1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t))

/-- A middle key block: from the input blocks and the tuple the point before left. -/
def stepB (c : Dev nD) (t : Fin cfg1.N) (h0 : ¬t.val % 4 = 0) (h1 : ¬t.val % 4 = 3) (p : St F) : St F :=
  (outIdle,
   sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2,
   sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2,
   sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2,
   p.2.2.2.2)

/-- The last key block: the same, and the output window's buffer stored. -/
def stepC (c : Dev nD) (t : Fin cfg1.N) (h0 : ¬t.val % 4 = 0) (h1 : t.val % 4 = 3) (p : St F) : St F :=
  (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2,
   sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2,
   sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2,
   sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2,
   p.2.2.2.2)

/-- The tuple after the body at position `n`, by recursion on the position. -/
def outsAt1 (c : Dev nD) : (n : ℕ) → n < cfg1.N → St F
  | 0, hn => stepA V c ⟨0, hn⟩ (Nat.zero_mod _) (by show ¬(0 : ℕ) % 4 = 3; decide)
  | n + 1, hn =>
    if h0 : (n + 1) % 4 = 0 then stepA V c ⟨n + 1, hn⟩ h0 (by show ¬(n + 1) % 4 = 3; omega)
    else if h1 : (n + 1) % 4 = 3 then stepC V c ⟨n + 1, hn⟩ h0 h1 (outsAt1 c n (Nat.lt_of_succ_lt hn))
    else stepB V c ⟨n + 1, hn⟩ h0 h1 (outsAt1 c n (Nat.lt_of_succ_lt hn))

theorem outsAt1_A (c : Dev nD) (t : Fin cfg1.N) (h0 : t.val % 4 = 0) (h1 : ¬t.val % 4 = 3) :
    outsAt1 V c t.val t.isLt = stepA V c t h0 h1 := by
  obtain ⟨n, hn⟩ := t
  cases n with
  | zero => rfl
  | succ n => exact (dif_pos h0).trans rfl

theorem outsAt1_B (c : Dev nD) (t : Fin cfg1.N) (h0 : ¬t.val % 4 = 0) (h1 : ¬t.val % 4 = 3) :
    outsAt1 V c t.val t.isLt = stepB V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = stepC V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The invariant -/

/-- Before position 0 nothing is known of the scratch buffers; before position n + 1 they hold the last four
    components of `outsAt1 n`. The first region's staging buffers and the generator register ride along. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2.1 ∗ owns (c : Thread nD τ) scM1_3 fullShare (outsAt1 V c (n - 1) (by omega)).2.2.2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Cert.Kernel.Hand

end
-- ==== Proof.KBody1.lean ====
/-
  The second kernel region's body obligation: at every grid point the body, handed the invariant and the
  windows' current buffers at what the proof data say they hold before it, leaves them at what the proof data
  say they hold after it. The point's position modulo 4 decides which of the three cases it is in.
-/
import proofs.«178921_j33646773797609_2_alg».proof.Proof.KFrame1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 4 = 0
  · have h1 : ¬t.val % 4 = 3 := by omega
    rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
    rw [outsAt1_A V c t h0 h1]
    unfold stepA sout1_A_0 sout1_A_1 sout1_A_2 sout1_A_3; (try dsimp only)
    by_cases hz : t.val = 0
    ·
      rw [PhiS_castSucc V c t, PhiS_zero V c _ _ hz, PhiA1_eq]
      iintro ⟨⟨⟨Hg1, Hg2, Hg3, Hg4, Hg5, Hg6, HS0, HS1, HS2, HS3⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [Hg1 Hg2 Hg3 Hg4 Hg5 Hg6 HS0 HS1 HS2 HS3 Hg]
      · isplitl [Hg1 Hg2 Hg3 Hg4 Hg5 Hg6 HS0 HS1 HS2 HS3]
        swap; · iexact Hg
        isplitl [Hg1]; · iexact Hg1
        isplitl [Hg2]; · iexact Hg2
        isplitl [Hg3]; · iexact Hg3
        isplitl [Hg4]; · iexact Hg4
        isplitl [Hg5]; · iexact Hg5
        isplitl [Hg6]; · iexact Hg6
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _ _ _ _ _ _)
        unfold owns; iexists _; isplitr
        swap; · iexact HS3
        ipureintro; exact View.read_writes_of_cover _ _ _ _ _ (scover1_A_3 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
    ·
      rw [PhiS_castSucc V c t, PhiS_pos V c _ _ hz]
      iintro ⟨⟨⟨Hg1, Hg2, Hg3, Hg4, Hg5, Hg6, HS0, HS1, HS2, HS3⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%es0, HS0⟩, ⟨%es1, HS1⟩, ⟨%es2, HS2⟩, ⟨%es3, HS3⟩⟩
      isplitl [Hg1 Hg2 Hg3 Hg4 Hg5 Hg6 HS0 HS1 HS2 HS3 Hg]
      · isplitl [Hg1 Hg2 Hg3 Hg4 Hg5 Hg6 HS0 HS1 HS2 HS3]
        swap; · iexact Hg
        isplitl [Hg1]; · iexact Hg1
        isplitl [Hg2]; · iexact Hg2
        isplitl [Hg3]; · iexact Hg3
        isplitl [Hg4]; · iexact Hg4
        isplitl [Hg5]; · iexact Hg5
        isplitl [Hg6]; · iexact Hg6
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _ _ _ _ _ _)
        unfold owns; iexists _; isplitr
        swap; · iexact HS3
        ipureintro; exact View.read_writes_of_cover _ _ _ _ _ (scover1_A_3 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 4 = 3
    · rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold stepC out1_C_4 sout1_C_0 sout1_C_1 sout1_C_2; (try dsimp only)
      rw [PhiS_castSucc V c t, PhiS_pos V c _ _ hz]
      iintro ⟨⟨⟨Hg1, Hg2, Hg3, Hg4, Hg5, Hg6, HS0, HS1, HS2, HS3⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%es0, HS0⟩, ⟨%es1, HS1⟩, ⟨%es2, HS2⟩, HS3⟩
      isplitl [Hg1 Hg2 Hg3 Hg4 Hg5 Hg6 HS0 HS1 HS2 HS3 Hg]
      · isplitl [Hg1 Hg2 Hg3 Hg4 Hg5 Hg6 HS0 HS1 HS2 HS3]
        swap; · iexact Hg
        isplitl [Hg1]; · iexact Hg1
        isplitl [Hg2]; · iexact Hg2
        isplitl [Hg3]; · iexact Hg3
        isplitl [Hg4]; · iexact Hg4
        isplitl [Hg5]; · iexact Hg5
        isplitl [Hg6]; · iexact Hg6
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _ _ _ _ _ _ _)
        iexact HS3
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _ _ _ _ _ _ _ _ _ _)
    · rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold stepB sout1_B_0 sout1_B_1 sout1_B_2; (try dsimp only)
      rw [PhiS_castSucc V c t, PhiS_pos V c _ _ hz]
      iintro ⟨⟨⟨Hg1, Hg2, Hg3, Hg4, Hg5, Hg6, HS0, HS1, HS2, HS3⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, HS3⟩
      isplitl [Hg1 Hg2 Hg3 Hg4 Hg5 Hg6 HS0 HS1 HS2 HS3 Hg]
      · isplitl [Hg1 Hg2 Hg3 Hg4 Hg5 Hg6 HS0 HS1 HS2 HS3]
        swap; · iexact Hg
        isplitl [Hg1]; · iexact Hg1
        isplitl [Hg2]; · iexact Hg2
        isplitl [Hg3]; · iexact Hg3
        isplitl [Hg4]; · iexact Hg4
        isplitl [Hg5]; · iexact Hg5
        isplitl [Hg6]; · iexact Hg6
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _ _ _ _ _ _ _)
        iexact HS3
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives that back: the scratch buffers' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨Hg1, Hg2, Hg3, Hg4, Hg5, Hg6, HS0, HS1, HS2, HS3⟩, Hg⟩
  isplitl [Hg1 Hg2 Hg3 Hg4 Hg5 Hg6 HS0 HS1 HS2 HS3]
  swap; · iexact Hg
  isplitl [Hg1]; · iexact Hg1
  isplitl [Hg2]; · iexact Hg2
  isplitl [Hg3]; · iexact Hg3
  isplitl [Hg4]; · iexact Hg4
  isplitl [Hg5]; · iexact Hg5
  isplitl [Hg6]; · iexact Hg6
  isplitl [HS0]; · iexists _; iexact HS0
  isplitl [HS1]; · iexists _; iexact HS1
  isplitl [HS2]; · iexists _; iexact HS2
  iexists _; iexact HS3

end Cert.Kernel.Hand

end
-- ==== Proof.KRun.lean ====
/-
  The whole run of @main: host operations, the projection region, host operations, the attention region.

  Between two segments every unscoped buffer is held at a named valuation: the launch memory; then what the
  first stretch of host operations computes from it; then the same with the projection region's three arrays
  at what its write-backs leave; then what the second stretch computes from that; then the same with the
  attention region's five arrays at what its write-backs leave. The last valuation is read against the final
  memory, so every unscoped buffer's final contents are named.
-/
import proofs.«178921_j33646773797609_2_alg».proof.Proof.KRegion0
import proofs.«178921_j33646773797609_2_alg».proof.Proof.KBody1
import proofs.«178921_j33646773797609_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev Wa0 : Dev nD → Valuation τ sig (Elt F) := fun c b => m (c, b)
abbrev Wa1 : Dev nD → Valuation τ sig (Elt F) := fun c => StableHlo.after hostOps0 (Wa0 m c)
abbrev Va1 : (c : Dev nD) → (b : Ref sig .tc) → Buf (Elt F) ((c : Thread nD τ).loc b) := fun c b => Wa1 m c b
def Wa2 (c : Dev nD) : Valuation τ sig (Elt F) :=
  Pipeline.withArrays spec0 c (Wa1 m c) fun w => (dat0 (Va1 m) c).arrAt w cfg0.N
theorem Wa2_arr (c : Dev nD) (w : Fin cfg0.W) :
    Wa2 m c (Proc.devRef .tc (Pipeline.arrRef spec0 w)) = (dat0 (Va1 m) c).arrAt w cfg0.N := by
  unfold Wa2; exact Pipeline.withArrays_arr spec0 launch0.win.arr_inj c _ _ w
theorem Wa2_of_ne (c : Dev nD) (b : Ref sig .tc) (hb : ∀ w, Pipeline.arrRef spec0 w ≠ b) :
    Wa2 m c (Proc.devRef .tc b) = Wa1 m c (Proc.devRef .tc b) := by
  unfold Wa2; exact Pipeline.withArrays_of_ne spec0 c _ _ b hb
abbrev Va2 : (c : Dev nD) → (b : Ref sig .tc) → Buf (Elt F) ((c : Thread nD τ).loc b) := fun c b => Wa2 m c b
theorem hF0 (c : Dev nD) (w : Fin cfg0.W) : (dat0 (Va1 m) c).arrAt w cfg0.N = Va2 m c (Pipeline.arrRef spec0 w) :=
  (Wa2_arr m c w).symm
theorem hrest0 (c : Dev nD) : ∀ b, b ∉ Finset.univ.image (Pipeline.arrRef spec0) → Va2 m c b = Va1 m c b :=
  fun b hb => Wa2_of_ne m c b fun w e => hb (Finset.mem_image.mpr ⟨w, Finset.mem_univ _, e⟩)

abbrev Wa3 : Dev nD → Valuation τ sig (Elt F) := fun c => StableHlo.after hostOps1 (Wa2 m c)
abbrev Va3 : (c : Dev nD) → (b : Ref sig .tc) → Buf (Elt F) ((c : Thread nD τ).loc b) := fun c b => Wa3 m c b
def Wa4 (c : Dev nD) : Valuation τ sig (Elt F) :=
  Pipeline.withArrays spec1 c (Wa3 m c) fun w => (dat1 (Va3 m) c).arrAt w cfg1.N
theorem Wa4_arr (c : Dev nD) (w : Fin cfg1.W) :
    Wa4 m c (Proc.devRef .tc (Pipeline.arrRef spec1 w)) = (dat1 (Va3 m) c).arrAt w cfg1.N := by
  unfold Wa4; exact Pipeline.withArrays_arr spec1 launch1.win.arr_inj c _ _ w
theorem Wa4_of_ne (c : Dev nD) (b : Ref sig .tc) (hb : ∀ w, Pipeline.arrRef spec1 w ≠ b) :
    Wa4 m c (Proc.devRef .tc b) = Wa3 m c (Proc.devRef .tc b) := by
  unfold Wa4; exact Pipeline.withArrays_of_ne spec1 c _ _ b hb
abbrev Va4 : (c : Dev nD) → (b : Ref sig .tc) → Buf (Elt F) ((c : Thread nD τ).loc b) := fun c b => Wa4 m c b
theorem hF1 (c : Dev nD) (w : Fin cfg1.W) : (dat1 (Va3 m) c).arrAt w cfg1.N = Va4 m c (Pipeline.arrRef spec1 w) :=
  (Wa4_arr m c w).symm
theorem hrest1 (c : Dev nD) : ∀ b, b ∉ Finset.univ.image (Pipeline.arrRef spec1) → Va4 m c b = Va3 m c b :=
  fun b hb => Wa4_of_ne m c b fun w e => hb (Finset.mem_image.mpr ⟨w, Finset.mem_univ _, e⟩)

/-! ## No segment writes an argument array -/

theorem Wa4_main_arg0 (c : Dev nD) : Wa4 m c (Proc.devRef .tc main_arg0) = m ((c : Thread nD τ).loc main_arg0) :=
  calc Wa4 m c (Proc.devRef .tc main_arg0)
    _ = Wa3 m c (Proc.devRef .tc main_arg0) := (Wa4_arr m c 0).trans (((dat1 (Va3 m) c).arrAt_in 0 rfl _).trans (A_eq1 (Va3 m) c 0))
    _ = Wa2 m c (Proc.devRef .tc main_arg0) := StableHlo.after_of_writes_sub hostOps1 _ hostOps1_writes (by decide)
    _ = Wa1 m c (Proc.devRef .tc main_arg0) := Wa2_of_ne m c main_arg0 (by decide)
    _ = Wa0 m c (Proc.devRef .tc main_arg0) := StableHlo.after_of_writes_sub hostOps0 _ hostOps0_writes (by decide)
    _ = m ((c : Thread nD τ).loc main_arg0) := rfl
theorem Wa4_main_arg1 (c : Dev nD) : Wa4 m c (Proc.devRef .tc main_arg1) = m ((c : Thread nD τ).loc main_arg1) :=
  calc Wa4 m c (Proc.devRef .tc main_arg1)
    _ = Wa3 m c (Proc.devRef .tc main_arg1) := Wa4_of_ne m c main_arg1 (by decide)
    _ = Wa2 m c (Proc.devRef .tc main_arg1) := StableHlo.after_of_writes_sub hostOps1 _ hostOps1_writes (by decide)
    _ = Wa1 m c (Proc.devRef .tc main_arg1) := Wa2_of_ne m c main_arg1 (by decide)
    _ = Wa0 m c (Proc.devRef .tc main_arg1) := StableHlo.after_of_writes_sub hostOps0 _ hostOps0_writes (by decide)
    _ = m ((c : Thread nD τ).loc main_arg1) := rfl
theorem Wa4_main_arg2 (c : Dev nD) : Wa4 m c (Proc.devRef .tc main_arg2) = m ((c : Thread nD τ).loc main_arg2) :=
  calc Wa4 m c (Proc.devRef .tc main_arg2)
    _ = Wa3 m c (Proc.devRef .tc main_arg2) := Wa4_of_ne m c main_arg2 (by decide)
    _ = Wa2 m c (Proc.devRef .tc main_arg2) := StableHlo.after_of_writes_sub hostOps1 _ hostOps1_writes (by decide)
    _ = Wa1 m c (Proc.devRef .tc main_arg2) := Wa2_of_ne m c main_arg2 (by decide)
    _ = Wa0 m c (Proc.devRef .tc main_arg2) := StableHlo.after_of_writes_sub hostOps0 _ hostOps0_writes (by decide)
    _ = m ((c : Thread nD τ).loc main_arg2) := rfl
theorem Wa4_main_arg3 (c : Dev nD) : Wa4 m c (Proc.devRef .tc main_arg3) = m ((c : Thread nD τ).loc main_arg3) :=
  calc Wa4 m c (Proc.devRef .tc main_arg3)
    _ = Wa3 m c (Proc.devRef .tc main_arg3) := Wa4_of_ne m c main_arg3 (by decide)
    _ = Wa2 m c (Proc.devRef .tc main_arg3) := StableHlo.after_of_writes_sub hostOps1 _ hostOps1_writes (by decide)
    _ = Wa1 m c (Proc.devRef .tc main_arg3) := Wa2_of_ne m c main_arg3 (by decide)
    _ = Wa0 m c (Proc.devRef .tc main_arg3) := StableHlo.after_of_writes_sub hostOps0 _ hostOps0_writes (by decide)
    _ = m ((c : Thread nD τ).loc main_arg3) := rfl
theorem Wa4_main_arg4 (c : Dev nD) : Wa4 m c (Proc.devRef .tc main_arg4) = m ((c : Thread nD τ).loc main_arg4) :=
  calc Wa4 m c (Proc.devRef .tc main_arg4)
    _ = Wa3 m c (Proc.devRef .tc main_arg4) := Wa4_of_ne m c main_arg4 (by decide)
    _ = Wa2 m c (Proc.devRef .tc main_arg4) := StableHlo.after_of_writes_sub hostOps1 _ hostOps1_writes (by decide)
    _ = Wa1 m c (Proc.devRef .tc main_arg4) := Wa2_of_ne m c main_arg4 (by decide)
    _ = Wa0 m c (Proc.devRef .tc main_arg4) := StableHlo.after_of_writes_sub hostOps0 _ hostOps0_writes (by decide)
    _ = m ((c : Thread nD τ).loc main_arg4) := rfl
theorem Wa4_main_arg5 (c : Dev nD) : Wa4 m c (Proc.devRef .tc main_arg5) = m ((c : Thread nD τ).loc main_arg5) :=
  calc Wa4 m c (Proc.devRef .tc main_arg5)
    _ = Wa3 m c (Proc.devRef .tc main_arg5) := Wa4_of_ne m c main_arg5 (by decide)
    _ = Wa2 m c (Proc.devRef .tc main_arg5) := StableHlo.after_of_writes_sub hostOps1 _ hostOps1_writes (by decide)
    _ = Wa1 m c (Proc.devRef .tc main_arg5) := Wa2_of_ne m c main_arg5 (by decide)
    _ = Wa0 m c (Proc.devRef .tc main_arg5) := StableHlo.after_of_writes_sub hostOps0 _ hostOps0_writes (by decide)
    _ = m ((c : Thread nD τ).loc main_arg5) := rfl

/-! ## The proof data family and the thread state -/

def pdatsH : (p : Fin 2) → (c : Dev nD) → Dat τ (Elt F) Unit ℕ (UR sig nD τ) ℕ (Pipeline.pin (pcfgs (F := F)) adm p) c
  | ⟨0, _⟩ => fun c => dat0 (Va1 m) c
  | ⟨1, _⟩ => fun c => dat1 (Va3 m) c
abbrev Vn : Variants := Variants.none
abbrev Lz : GSem nD τ sig → Finset Unit := fun _ => ∅
abbrev lvz : GSem nD τ sig → Unit → ℕ := fun _ _ => 0
/-- Beside the buffers: the generator register at some state, and the core owing nothing. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Vn Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (Wa4 m c) ∗ ∃ r, prngReg c r)

/-! ## The two regions as segments -/

set_option backward.isDefEq.respectTransparency.types false in
def reg0 : Pipeline.RegionSeg (pcfgs (F := F)) adm (pdatsH m) () defs₀ Vn Lz lvz 0 where
  win := launch0.win.to₀
  block_pos := launch0.block_pos
  stage_whole := launch0.stage_whole
  K := PEmpty
  osem k := k.elim
  ho := Pipeline.OwnSemFacts.none _
  hbody c := (body_obligation0 (Va1 m) c).loose
  hwaits := Pipeline.hwaits_of_owed_zero _ _ _ _ Lz lvz 0 fun _ _ => rfl
  pre c := iprop(StableHlo.held (c : Thread nD τ) (Pipeline.ucRefs τ sig) (Wa1 m c) ∗ Rr c)
  post c := iprop(StableHlo.held (c : Thread nD τ) (Pipeline.ucRefs τ sig) (Wa2 m c) ∗ Rr c)
  X c := iprop(∃ r, prngReg c r)
  Y c := iprop(∃ r, prngReg c r)
  Z c := Pipeline.unscopedRest (Ix := Unit) (Name := ℕ) (U := UR sig nD τ) (Lvl := ℕ) spec0 c (Va1 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (Va1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (Va1 m c) (Va2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdatsH m) () defs₀ Vn Lz lvz 1 where
  win := launch1.win.to₀
  block_pos := launch1.block_pos
  stage_whole := launch1.stage_whole
  K := PEmpty
  osem k := k.elim
  ho := Pipeline.OwnSemFacts.none _
  hbody c := (body_obligation1 (Va3 m) c).loose
  hwaits := Pipeline.hwaits_of_owed_zero _ _ _ _ Lz lvz 1 fun _ _ => rfl
  pre c := iprop(StableHlo.held (c : Thread nD τ) (Pipeline.ucRefs τ sig) (Wa3 m c) ∗ Rr c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Va3 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (Va3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h2 : (Pipeline.ΦA spec1 c : sProp 𝕄) ⊢ iprop((∃ r, prngReg c r) ∗ emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (Va3 m) c).trans h2
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (Va3 m c) (Va4 m c) ((pdatsH m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) adm (pdatsH m) () defs₀ Vn Lz lvz) :=
  [ .host (hseg hostOps0 hostOps0_sub hostOps0_fresh (Wa0 m)),
    .region (reg0 m),
    .host (hseg hostOps1 hostOps1_sub hostOps1_fresh (Wa2 m)),
    .region (reg1 m) ]
theorem main_run (c : Dev nD) : main (F := F) c = Pipeline.Seg.run (segsH m) := (main_chain c).trans (by chain_rfl)

set_option backward.isDefEq.respectTransparency.types false in
/-- From any memory with zero counters every weakly fair execution of @main terminates without a fault, and
    every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wa4 m c b) :=
  Pipeline.θ_run_regions_kit (pcfgs (F := F)) adm (pdatsH m) () cellOf_inj emb₁ defs₀ Vn Lz lvz m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa0 m c) ∗ Rr c)) (Tₙ := Tend m)
    (hch := ⟨fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (Wa0 m c)
        from Pipeline.unscopedBufs_held c (Wa0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wa4 m c b)
    (hfin := fun c s' => by
      iintro ⟨⟨Hh, -⟩, HSI⟩
      unfold StableHlo.held
      imodintro
      iapply (pointsTo_read_all (Pipeline.ucRefs τ sig) (fun b => (((c : Thread nD τ)).1, b)) (Wa4 m c) s')
      isplitl [Hh] <;> iassumption)
    (hQ := fun s h => h)

/-- The frame: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (Wa4_main_arg0 m c),
     (h c _ (mem_uc main_arg1 (by decide))).trans (Wa4_main_arg1 m c),
     (h c _ (mem_uc main_arg2 (by decide))).trans (Wa4_main_arg2 m c),
     (h c _ (mem_uc main_arg3 (by decide))).trans (Wa4_main_arg3 m c),
     (h c _ (mem_uc main_arg4 (by decide))).trans (Wa4_main_arg4 m c),
     (h c _ (mem_uc main_arg5 (by decide))).trans (Wa4_main_arg5 m c)⟩) (run_all m ρ)

end Cert.Kernel.Hand

end
-- ==== Proof.KIShared1.lean ====
/-
  The second kernel region (attention with a running maximum), what its three control cases share.

  The grid is 4 × 4 × 4: batch b, block qi of 512 queries, block ki of 512 keys, ki innermost. Four
  scratch buffers live across the four points of a row (b, qi, ·): the projected queries, the running
  row maximum, the running sum of exponentials, the running weighted sum of value rows. The body
  branches on ki alone: at ki = 0 it first projects the query block and resets the three running
  quantities; at every point it folds the point's block of keys and values into them; at ki = 3 it
  also divides and stores the output block, which is written back at those points only.
-/
import proofs.«178921_j33646773797609_2_alg».proof.Proof.Gen.KernelIdeal.Launch
import proofs.«178921_j33646773797609_2_alg».proof.Proof.Gen.KernelIdeal.Skeleton
import proofs.«178921_j33646773797609_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: its current buffer holds its block at every point, whether fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: its current buffer holds its block at every point, whether fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: its current buffer holds its block at every point, whether fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: its current buffer holds its block at every point, whether fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- "This is the first key block of the row": the third grid coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last key block of the row": the third grid coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from a row's last point the output window is idle and is not written back. -/
theorem idleAt1_4_A : ∀ t : Fin cfg1.N, cond1_0 (grid1.coords t) → ¬cond1_1 (grid1.coords t) → cfg1.idle 4 (grid1.coords t) = true := by decide +kernel
theorem noFlush1_4_A : ∀ t : Fin cfg1.N, cond1_0 (grid1.coords t) → ¬cond1_1 (grid1.coords t) → (cfg1.win 4).flush t = false := by decide +kernel
theorem idleAt1_4_B : ∀ t : Fin cfg1.N, ¬cond1_0 (grid1.coords t) → ¬cond1_1 (grid1.coords t) → cfg1.idle 4 (grid1.coords t) = true := by decide +kernel
theorem noFlush1_4_B : ∀ t : Fin cfg1.N, ¬cond1_0 (grid1.coords t) → ¬cond1_1 (grid1.coords t) → (cfg1.win 4).flush t = false := by decide +kernel
/-- At a row's last point it is live. -/
theorem liveAt1_4_C : ∀ t : Fin cfg1.N, ¬cond1_0 (grid1.coords t) → cond1_1 (grid1.coords t) → cfg1.idle 4 (grid1.coords t) = false := by decide +kernel

/-! ## The buffers the body is called on -/

/-- One buffer of the output window, through which its contents are stated. -/
abbrev VO1_4 : View sig .tc .vmem S1x512x1024 .f32 := (Memref.whole cc1_stg4_0 : Memref sig .tc .vmem S1x512x1024 .f32).view
abbrev ms1_0 (t : Fin cfg1.N) : Memref sig .tc .vmem S1x512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x1024 .f32 := win1_4.stage (cfg1.slots t 4)
abbrev hs1_4 (t : Fin cfg1.N) : (ms1_4 t).IsWhole := hstage1_4 ((cfg1.slots t 4).cast nbuf1_4)
/-- The four scratch buffers: the running maximum, the running sum, the running weighted sum, the projected queries. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev scM1_3 : Memref sig .tc .vmem S512x1024 .bf16 := Memref.whole cc1_scratch3
abbrev VS1_0 : View sig .tc .vmem S512x1 .f32 := scM1_0.view
abbrev VS1_1 : View sig .tc .vmem S512x1 .f32 := scM1_1.view
abbrev VS1_2 : View sig .tc .vmem S512x1024 .f32 := scM1_2.view
abbrev VS1_3 : View sig .tc .vmem S512x1024 .bf16 := scM1_3.view

/-- The first region's six staging buffers: scoped, untouched here, at some contents. -/
def stgRest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- What the region's invariant is before anything is known of the scratch buffers: those six, the four
    scratch buffers each at some contents, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.KernelIdeal.Hand

end
-- ==== Proof.KIRun1A.lean ====
/-
  The second kernel region's body, run whole, at the first key block of a row (the queries are projected and the running quantities reset before the block is folded in).
-/
import proofs.«178921_j33646773797609_2_alg».proof.Proof.KIShared1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces each scratch buffer ends with, with the proof that on whole buffers — the inputs' at their
    contents, the idle output's at contents handed back untouched, the four scratch buffers at anything — the
    body runs to its continuation holding the inputs' as they were and each scratch buffer with its pieces
    written. -/
noncomputable def kernelRun1_A (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : cond1_0 i) (hc1 : ¬cond1_1 i)
    (x0 : Vec F S1x512x1024 .f32) (x1 : Vec F S1024x1024 .f32) (x2 : Vec F S1x512x1024 .bf16) (x3 : Vec F S1x512x1024 .bf16) :
    Σ' (LS0 : List (View.Piece (Elt F) S512x1 .f32)) (LS1 : List (View.Piece (Elt F) S512x1 .f32)) (LS2 : List (View.Piece (Elt F) S512x1024 .f32)), { LS3 : List (View.Piece (Elt F) S512x1024 .bf16) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, ?_, ?_, fun xi4 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.KernelIdeal.Hand

end
-- ==== Proof.KIRun1B.lean ====
/-
  The second kernel region's body, run whole, at a middle key block of a row (the block is folded into the running quantities; the projected queries are only read).
-/
import proofs.«178921_j33646773797609_2_alg».proof.Proof.KIRun1A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the three running quantities' buffers end with, with the proof that on whole buffers — the
    inputs' at their contents, the idle output's and the projected queries' at contents handed back untouched,
    the three running quantities' at what the point before left — the body runs to its continuation. -/
noncomputable def kernelRun1_B (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : ¬cond1_1 i)
    (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) :
    Σ' (LS0 : List (View.Piece (Elt F) S512x1 .f32)) (LS1 : List (View.Piece (Elt F) S512x1 .f32)), { LS2 : List (View.Piece (Elt F) S512x1024 .f32) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, ?_, fun xi4 E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; isplitr; · ipureintro; exact harg11.read_unread _
    iexact HS3

end Cert.KernelIdeal.Hand

end
-- ==== Proof.KIRun1C.lean ====
/-
  The second kernel region's body, run whole, at the last key block of a row (the block is folded in, then the weighted sum is divided by the sum and stored into the output window's buffer).
-/
import proofs.«178921_j33646773797609_2_alg».proof.Proof.KIRun1B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the output buffer and the three running quantities' buffers end with, with the proof that on
    whole buffers — the inputs' at their contents, the output's at anything, the projected queries' at contents
    handed back untouched, the three running quantities' at what the point before left — the body runs to its
    continuation. -/
noncomputable def kernelRun1_C (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : cond1_1 i)
    (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) :
    Σ' (L4 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__attn_kernel_eq_skeleton]; unfold cc1__attn_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    isplitl [HS2]; · iexists _; iexact HS2
    iexists _; isplitr; · ipureintro; exact harg11.read_unread _
    iexact HS3

end Cert.KernelIdeal.Hand

end
-- ==== Proof.KIFrame1.lean ====
/-
  The second kernel region: what its buffers hold point by point, its invariant, its proof data and its
  body obligation, at a parameter `V` (the buffers' contents when the region is entered).

  After the body at grid point n the tuple `outsAt1 n` is (the output window's buffer, the running maximum,
  the running sum, the running weighted sum, the projected queries). At the first key block of a row the
  tuple is a function of the point's input blocks alone; at the other points it is a function of the input
  blocks and of the tuple the point before left, and the projected queries are carried unchanged. The
  region's invariant before point n + 1 holds the four scratch buffers at the last four components of
  `outsAt1 n`.
-/
import proofs.«178921_j33646773797609_2_alg».proof.Proof.KIRun1C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A: the pieces stored into scratch buffer 0 cover it. -/
theorem scover1_A_0 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : cond1_0 i) (hc1 : ¬cond1_1 i) (x0 : Vec F S1x512x1024 .f32) (x1 : Vec F S1024x1024 .f32) (x2 : Vec F S1x512x1024 .bf16) (x3 : Vec F S1x512x1024 .bf16) (y : S512x1.Idx) :
    ∃ pc ∈ (kernelRun1_A c i arg3 harg3 arg4 harg4 arg5 harg5 arg6 harg6 arg7 harg7 arg8 harg8 arg9 harg9 arg10 harg10 arg11 harg11 hc0 hc1 x0 x1 x2 x3).1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).1 S512x1.size (by sl_kernel_rfl) y

/-- Case A: what scratch buffer 0 holds after the body. -/
def sout1_A_0 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : cond1_0 i) (hc1 : ¬cond1_1 i) (x0 : Vec F S1x512x1024 .f32) (x1 : Vec F S1024x1024 .f32) (x2 : Vec F S1x512x1024 .bf16) (x3 : Vec F S1x512x1024 .bf16) : Vec F S512x1 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 x0 x1 x2 x3).1)

/-- Case A: the pieces stored into scratch buffer 1 cover it. -/
theorem scover1_A_1 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : cond1_0 i) (hc1 : ¬cond1_1 i) (x0 : Vec F S1x512x1024 .f32) (x1 : Vec F S1024x1024 .f32) (x2 : Vec F S1x512x1024 .bf16) (x3 : Vec F S1x512x1024 .bf16) (y : S512x1.Idx) :
    ∃ pc ∈ (kernelRun1_A c i arg3 harg3 arg4 harg4 arg5 harg5 arg6 harg6 arg7 harg7 arg8 harg8 arg9 harg9 arg10 harg10 arg11 harg11 hc0 hc1 x0 x1 x2 x3).2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.1 S512x1.size (by sl_kernel_rfl) y

/-- Case A: what scratch buffer 1 holds after the body. -/
def sout1_A_1 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : cond1_0 i) (hc1 : ¬cond1_1 i) (x0 : Vec F S1x512x1024 .f32) (x1 : Vec F S1024x1024 .f32) (x2 : Vec F S1x512x1024 .bf16) (x3 : Vec F S1x512x1024 .bf16) : Vec F S512x1 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 hc0 hc1 x0 x1 x2 x3).2.1)

/-- Case A: the pieces stored into scratch buffer 2 cover it. -/
theorem scover1_A_2 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : cond1_0 i) (hc1 : ¬cond1_1 i) (x0 : Vec F S1x512x1024 .f32) (x1 : Vec F S1024x1024 .f32) (x2 : Vec F S1x512x1024 .bf16) (x3 : Vec F S1x512x1024 .bf16) (y : S512x1024.Idx) :
    ∃ pc ∈ (kernelRun1_A c i arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.2.1 S512x1024.size (by sl_kernel_rfl) y

/-- Case A: what scratch buffer 2 holds after the body. -/
def sout1_A_2 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : cond1_0 i) (hc1 : ¬cond1_1 i) (x0 : Vec F S1x512x1024 .f32) (x1 : Vec F S1024x1024 .f32) (x2 : Vec F S1x512x1024 .bf16) (x3 : Vec F S1x512x1024 .bf16) : Vec F S512x1024 .f32 :=
  VS1_2.read (Elt F) (VS1_2.writes (Elt F) VS1_2.junk (kernelRun1_A c i arg3 harg3 arg4 harg4 arg5 harg5 arg6 harg6 arg7 harg7 arg8 harg8 arg9 harg9 arg10 harg10 arg11 harg11 hc0 hc1 x0 x1 x2 x3).2.2.1)

/-- Case A: the pieces stored into scratch buffer 3 cover it. -/
theorem scover1_A_3 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : cond1_0 i) (hc1 : ¬cond1_1 i) (x0 : Vec F S1x512x1024 .f32) (x1 : Vec F S1024x1024 .f32) (x2 : Vec F S1x512x1024 .bf16) (x3 : Vec F S1x512x1024 .bf16) (y : S512x1024.Idx) :
    ∃ pc ∈ (kernelRun1_A c i arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.2.2.1 S512x1024.size (by sl_kernel_rfl) y

/-- Case A: what scratch buffer 3 holds after the body. -/
def sout1_A_3 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : cond1_0 i) (hc1 : ¬cond1_1 i) (x0 : Vec F S1x512x1024 .f32) (x1 : Vec F S1024x1024 .f32) (x2 : Vec F S1x512x1024 .bf16) (x3 : Vec F S1x512x1024 .bf16) : Vec F S512x1024 .bf16 :=
  VS1_3.read (Elt F) (VS1_3.writes (Elt F) VS1_3.junk (kernelRun1_A c i arg3 harg3 arg4 harg4 arg5 harg5 arg6 harg6 arg7 harg7 arg8 harg8 arg9 harg9 arg10 harg10 arg11 harg11 hc0 hc1 x0 x1 x2 x3).2.2.2.1)

/-- Case B: the pieces stored into scratch buffer 0 cover it. -/
theorem scover1_B_0 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : ¬cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) (y : S512x1.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).1 S512x1.size (by sl_kernel_rfl) y

/-- Case B: what scratch buffer 0 holds after the body. -/
def sout1_B_0 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : ¬cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) : Vec F S512x1 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 hc0 hc1 x0 x1 x2 x3 xs0 xs1 xs2 xs3).1)

/-- Case B: the pieces stored into scratch buffer 1 cover it. -/
theorem scover1_B_1 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : ¬cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) (y : S512x1.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).2.1 S512x1.size (by sl_kernel_rfl) y

/-- Case B: what scratch buffer 1 holds after the body. -/
def sout1_B_1 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : ¬cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) : Vec F S512x1 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 hc0 hc1 x0 x1 x2 x3 xs0 xs1 xs2 xs3).2.1)

/-- Case B: the pieces stored into scratch buffer 2 cover it. -/
theorem scover1_B_2 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : ¬cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) (y : S512x1024.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1 xs2 xs3).2.2.1 S512x1024.size (by sl_kernel_rfl) y

/-- Case B: what scratch buffer 2 holds after the body. -/
def sout1_B_2 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : ¬cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) : Vec F S512x1024 .f32 :=
  VS1_2.read (Elt F) (VS1_2.writes (Elt F) VS1_2.junk (kernelRun1_B c i arg3 harg3 arg4 harg4 arg5 harg5 arg6 harg6 arg7 harg7 arg8 harg8 arg9 harg9 arg10 harg10 arg11 harg11 hc0 hc1 x0 x1 x2 x3 xs0 xs1 xs2 xs3).2.2.1)

/-- Case C: the pieces stored into scratch buffer 0 cover it. -/
theorem scover1_C_0 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) (y : S512x1.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1 xs2 xs3).2.1 S512x1.size (by sl_kernel_rfl) y

/-- Case C: what scratch buffer 0 holds after the body. -/
def sout1_C_0 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) : Vec F S512x1 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 hc0 hc1 x0 x1 x2 x3 xs0 xs1 xs2 xs3).2.1)

/-- Case C: the pieces stored into scratch buffer 1 cover it. -/
theorem scover1_C_1 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) (y : S512x1.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1 xs2 xs3).2.2.1 S512x1.size (by sl_kernel_rfl) y

/-- Case C: what scratch buffer 1 holds after the body. -/
def sout1_C_1 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) : Vec F S512x1 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 hc0 hc1 x0 x1 x2 x3 xs0 xs1 xs2 xs3).2.2.1)

/-- Case C: the pieces stored into scratch buffer 2 cover it. -/
theorem scover1_C_2 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) (y : S512x1024.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1 xs2 xs3).2.2.2.1 S512x1024.size (by sl_kernel_rfl) y

/-- Case C: what scratch buffer 2 holds after the body. -/
def sout1_C_2 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) : Vec F S512x1024 .f32 :=
  VS1_2.read (Elt F) (VS1_2.writes (Elt F) VS1_2.junk (kernelRun1_C c i arg3 harg3 arg4 harg4 arg5 harg5 arg6 harg6 arg7 harg7 arg8 harg8 arg9 harg9 arg10 harg10 arg11 harg11 hc0 hc1 x0 x1 x2 x3 xs0 xs1 xs2 xs3).2.2.2.1)

/-- Case C: the pieces stored into the output window's buffer cover it. -/
theorem cover1_C_4 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) (y : S1x512x1024.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1 xs2 xs3).1 S1x512x1024.size (by sl_kernel_rfl) y

/-- Case C: what the output window's buffer holds after the body. -/
def out1_C_4 (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) : Vec F S1x512x1024 .f32 :=
  VO1_4.read (Elt F) (VO1_4.writes (Elt F) VO1_4.junk (kernelRun1_C c i arg3 harg3 arg4 harg4 arg5 harg5 arg6 harg6 arg7 harg7 arg8 harg8 arg9 harg9 arg10 harg10 arg11 harg11 hc0 hc1 x0 x1 x2 x3 xs0 xs1 xs2 xs3).1)

/-- Where a case stores nothing into the output window (it is idle there and not written back): a
    placeholder that nothing consults. -/
def outIdle : Vec F S1x512x1024 .f32 := VO1_4.read (Elt F) (VO1_4.writes (Elt F) VO1_4.junk [])

/-! ## The tuple after each point -/

abbrev St (F : FTy → Type) [FloatOps F] : Type := (Vec F S1x512x1024 .f32 × Vec F S512x1 .f32 × Vec F S512x1 .f32 × Vec F S512x1024 .f32 × Vec F S512x1024 .bf16)

/-- The first key block of a row: from the point's input blocks alone. -/
def stepA (c : Dev nD) (t : Fin cfg1.N) (h0 : t.val % 4 = 0) (h1 : ¬t.val % 4 = 3) : St F :=
  (outIdle,
   sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t),
   sout1_A_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t),
   sout1_A_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t),
   sout1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t))

/-- A middle key block: from the input blocks and the tuple the point before left. -/
def stepB (c : Dev nD) (t : Fin cfg1.N) (h0 : ¬t.val % 4 = 0) (h1 : ¬t.val % 4 = 3) (p : St F) : St F :=
  (outIdle,
   sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2,
   sout1_B_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2,
   sout1_B_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) p.2.1 p.2.2.1 p.2.2.2.1 p.2.2.2.2,
   p.2.2.2.2)

/-- The last key block: the same, and the output window's buffer stored. -/
def stepC (c : Dev nD) (t : Fin cfg1.N) (h0 : ¬t.val % 4 = 0) (h1 : t.val % 4 = 3) (p : St F) : St F :=
  (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2,
   sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2,
   sout1_C_1 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2,
   sout1_C_2 c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) p.2.1 p.2.2.1 p.2.2.2.1 p.2.2.2.2,
   p.2.2.2.2)

/-- The tuple after the body at position `n`, by recursion on the position. -/
def outsAt1 (c : Dev nD) : (n : ℕ) → n < cfg1.N → St F
  | 0, hn => stepA V c ⟨0, hn⟩ (Nat.zero_mod _) (by show ¬(0 : ℕ) % 4 = 3; decide)
  | n + 1, hn =>
    if h0 : (n + 1) % 4 = 0 then stepA V c ⟨n + 1, hn⟩ h0 (by show ¬(n + 1) % 4 = 3; omega)
    else if h1 : (n + 1) % 4 = 3 then stepC V c ⟨n + 1, hn⟩ h0 h1 (outsAt1 c n (Nat.lt_of_succ_lt hn))
    else stepB V c ⟨n + 1, hn⟩ h0 h1 (outsAt1 c n (Nat.lt_of_succ_lt hn))

theorem outsAt1_A (c : Dev nD) (t : Fin cfg1.N) (h0 : t.val % 4 = 0) (h1 : ¬t.val % 4 = 3) :
    outsAt1 V c t.val t.isLt = stepA V c t h0 h1 := by
  obtain ⟨n, hn⟩ := t
  cases n with
  | zero => rfl
  | succ n => exact (dif_pos h0).trans rfl

theorem outsAt1_B (c : Dev nD) (t : Fin cfg1.N) (h0 : ¬t.val % 4 = 0) (h1 : ¬t.val % 4 = 3) :
    outsAt1 V c t.val t.isLt = stepB V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = stepC V c t h0 h1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-! ## The invariant -/

/-- Before position 0 nothing is known of the scratch buffers; before position n + 1 they hold the last four
    components of `outsAt1 n`. The first region's staging buffers and the generator register ride along. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
      ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2.1 ∗ owns (c : Thread nD τ) scM1_3 fullShare (outsAt1 V c (n - 1) (by omega)).2.2.2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Cert.KernelIdeal.Hand

end
-- ==== Proof.KIPieces.lean ====
/-
  What each case of the attention body leaves in its buffers, as explicit terms.

  One step of the running computation, from the projected queries `qp`, a block of projected keys `kb`, a
  block of projected values `vb` and the running maximum `mo`, sum `lo` and weighted sum `ao`:
    mNext qp kb mo        the new maximum: max of `mo` and the row maxima of the scores qp · kbᵀ
    lNext qp kb mo lo     exp (mo − new maximum) · lo + the row sums of exp (scores − new maximum)
    aNext qp kb vb mo ao  exp (mo − new maximum) · ao + exp (scores − new maximum) · vb
  The first case projects the queries and starts from the reset values (−∞, 0, 0); the other two start
  from what the point before left; the last case also stores `outOf a l`, the weighted sum divided by the sum.
  In every case the last store into a buffer covers it whole, and a load after a store reads what was stored.
-/
import proofs.«178921_j33646773797609_2_alg».proof.Proof.KIFrame1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The projected (and pre-scaled) block of queries. -/
abbrev qpOf (x0 : Vec F S1x512x1024 .f32) (x1 : Vec F S1024x1024 .f32) : Vec F S512x1024 .bf16 := k1_pay4 x0 x1
abbrev mNext (qp : Vec F S512x1024 .bf16) (kb : Vec F S1x512x1024 .bf16) (mo : Vec F S512x1 .f32) : Vec F S512x1 .f32 :=
  k1_pay2 (k1_pay10 qp kb mo)
abbrev lNext (qp : Vec F S512x1024 .bf16) (kb : Vec F S1x512x1024 .bf16) (mo lo : Vec F S512x1 .f32) : Vec F S512x1 .f32 :=
  k1_pay13 qp kb mo mo lo
abbrev aNext (qp : Vec F S512x1024 .bf16) (kb vb : Vec F S1x512x1024 .bf16) (mo : Vec F S512x1 .f32) (ao : Vec F S512x1024 .f32) : Vec F S512x1024 .f32 :=
  k1_pay1 (k1_pay8 vb) (k1_pay14 qp kb mo mo ao) (k1_pay15 qp kb mo)
abbrev outOf (a : Vec F S512x1024 .f32) (l : Vec F S512x1 .f32) : Vec F S1x512x1024 .f32 := k1_pay3 a l

/-! ## The first key block of a row -/

theorem sout1_A_3_eq (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : cond1_0 i) (hc1 : ¬cond1_1 i) (x0 : Vec F S1x512x1024 .f32) (x1 : Vec F S1024x1024 .f32) (x2 : Vec F S1x512x1024 .bf16) (x3 : Vec F S1x512x1024 .bf16) :
    sout1_A_3 c i arg3 harg3 arg4 harg4 arg5 harg5 arg6 harg6 arg7 harg7 arg8 harg8 arg9 harg9 arg10 harg10 arg11 harg11 hc0 hc1 x0 x1 x2 x3 = qpOf x0 x1 := by
  unfold sout1_A_3
  rw [View.read_writes_eq_canon _ _ _ (scover1_A_3 c i arg3 harg3 arg4 harg4 arg5 harg5 arg6 harg6 arg7 harg7 arg8 harg8 arg9 harg9 arg10 harg10 arg11 harg11 hc0 hc1 x0 x1 x2 x3)]
  unfold kernelRun1_A
  dsimp only
  sl_unfold_words
  rw [View.canon_cons_unit_zero (S := S512x1024) hz2]
  simp only [View.readCov_unit_zero (S := S512x1024) _ hz2, View.readCov_unit_zero (S := S512x1) _ hz2,
    View.readAt_eq_ld, harg3.read_unread, harg4.read_unread, harg5.read_unread, harg6.read_unread,
    View.ld_unit_zero (S := S1x512x1024) hz3, View.ld_unit_zero (S := S1024x1024) hz2, View.ld_unit_zero (S := S512x1024) hz2,
    View.ld_unit_zero (S := S512x1) hz2]

theorem sout1_A_0_eq (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : cond1_0 i) (hc1 : ¬cond1_1 i) (x0 : Vec F S1x512x1024 .f32) (x1 : Vec F S1024x1024 .f32) (x2 : Vec F S1x512x1024 .bf16) (x3 : Vec F S1x512x1024 .bf16) :
    sout1_A_0 c i arg3 harg3 arg4 harg4 arg5 harg5 arg6 harg6 arg7 harg7 arg8 harg8 arg9 harg9 arg10 harg10 arg11 harg11 hc0 hc1 x0 x1 x2 x3 = mNext (qpOf x0 x1) x2 k1_pay5 := by
  unfold sout1_A_0
  rw [View.read_writes_eq_canon _ _ _ (scover1_A_0 c i arg3 harg3 arg4 harg4 arg5 harg5 arg6 harg6 arg7 harg7 arg8 harg8 arg9 harg9 arg10 harg10 arg11 harg11 hc0 hc1 x0 x1 x2 x3)]
  unfold kernelRun1_A
  dsimp only
  sl_unfold_words
  rw [View.canon_cons_unit_zero (S := S512x1) hz2]
  simp only [View.readCov_unit_zero (S := S512x1024) _ hz2, View.readCov_unit_zero (S := S512x1) _ hz2,
    View.readAt_eq_ld, harg3.read_unread, harg4.read_unread, harg5.read_unread, harg6.read_unread,
    View.ld_unit_zero (S := S1x512x1024) hz3, View.ld_unit_zero (S := S1024x1024) hz2, View.ld_unit_zero (S := S512x1024) hz2,
    View.ld_unit_zero (S := S512x1) hz2]

theorem sout1_A_1_eq (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : cond1_0 i) (hc1 : ¬cond1_1 i) (x0 : Vec F S1x512x1024 .f32) (x1 : Vec F S1024x1024 .f32) (x2 : Vec F S1x512x1024 .bf16) (x3 : Vec F S1x512x1024 .bf16) :
    sout1_A_1 c i arg3 harg3 arg4 harg4 arg5 harg5 arg6 harg6 arg7 harg7 arg8 harg8 arg9 harg9 arg10 harg10 arg11 harg11 hc0 hc1 x0 x1 x2 x3 = lNext (qpOf x0 x1) x2 k1_pay5 k1_pay6 := by
  unfold sout1_A_1
  rw [View.read_writes_eq_canon _ _ _ (scover1_A_1 c i arg3 harg3 arg4 harg4 arg5 harg5 arg6 harg6 arg7 harg7 arg8 harg8 arg9 harg9 arg10 harg10 arg11 harg11 hc0 hc1 x0 x1 x2 x3)]
  unfold kernelRun1_A
  dsimp only
  sl_unfold_words
  rw [View.canon_cons_unit_zero (S := S512x1) hz2]
  simp only [View.readCov_unit_zero (S := S512x1024) _ hz2, View.readCov_unit_zero (S := S512x1) _ hz2,
    View.readAt_eq_ld, harg3.read_unread, harg4.read_unread, harg5.read_unread, harg6.read_unread,
    View.ld_unit_zero (S := S1x512x1024) hz3, View.ld_unit_zero (S := S1024x1024) hz2, View.ld_unit_zero (S := S512x1024) hz2,
    View.ld_unit_zero (S := S512x1) hz2]

theorem sout1_A_2_eq (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : cond1_0 i) (hc1 : ¬cond1_1 i) (x0 : Vec F S1x512x1024 .f32) (x1 : Vec F S1024x1024 .f32) (x2 : Vec F S1x512x1024 .bf16) (x3 : Vec F S1x512x1024 .bf16) :
    sout1_A_2 c i arg3 harg3 arg4 harg4 arg5 harg5 arg6 harg6 arg7 harg7 arg8 harg8 arg9 harg9 arg10 harg10 arg11 harg11 hc0 hc1 x0 x1 x2 x3 = aNext (qpOf x0 x1) x2 x3 k1_pay5 k1_pay7 := by
  unfold sout1_A_2
  rw [View.read_writes_eq_canon _ _ _ (scover1_A_2 c i arg3 harg3 arg4 harg4 arg5 harg5 arg6 harg6 arg7 harg7 arg8 harg8 arg9 harg9 arg10 harg10 arg11 harg11 hc0 hc1 x0 x1 x2 x3)]
  unfold kernelRun1_A
  dsimp only
  sl_unfold_words
  rw [View.canon_cons_unit_zero (S := S512x1024) hz2]
  simp only [View.readCov_unit_zero (S := S512x1024) _ hz2, View.readCov_unit_zero (S := S512x1) _ hz2,
    View.readAt_eq_ld, harg3.read_unread, harg4.read_unread, harg5.read_unread, harg6.read_unread,
    View.ld_unit_zero (S := S1x512x1024) hz3, View.ld_unit_zero (S := S1024x1024) hz2, View.ld_unit_zero (S := S512x1024) hz2,
    View.ld_unit_zero (S := S512x1) hz2]

/-! ## A middle key block -/

theorem sout1_B_0_eq (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : ¬cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) :
    sout1_B_0 c i arg3 harg3 arg4 harg4 arg5 harg5 arg6 harg6 arg7 harg7 arg8 harg8 arg9 harg9 arg10 harg10 arg11 harg11 hc0 hc1 x0 x1 x2 x3 xs0 xs1 xs2 xs3 = mNext xs3 x2 xs0 := by
  unfold sout1_B_0
  rw [View.read_writes_eq_canon _ _ _ (scover1_B_0 c i arg3 harg3 arg4 harg4 arg5 harg5 arg6 harg6 arg7 harg7 arg8 harg8 arg9 harg9 arg10 harg10 arg11 harg11 hc0 hc1 x0 x1 x2 x3 xs0 xs1 xs2 xs3)]
  unfold kernelRun1_B
  dsimp only
  sl_unfold_words
  rw [View.canon_cons_unit_zero (S := S512x1) hz2]
  simp only [View.readCov_unit_zero (S := S512x1024) _ hz2, View.readCov_unit_zero (S := S512x1) _ hz2,
    View.readAt_eq_ld, harg3.read_unread, harg4.read_unread, harg5.read_unread, harg6.read_unread, harg8.read_unread, harg9.read_unread, harg10.read_unread, harg11.read_unread,
    View.ld_unit_zero (S := S1x512x1024) hz3, View.ld_unit_zero (S := S1024x1024) hz2, View.ld_unit_zero (S := S512x1024) hz2,
    View.ld_unit_zero (S := S512x1) hz2]

theorem sout1_B_1_eq (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : ¬cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) :
    sout1_B_1 c i arg3 harg3 arg4 harg4 arg5 harg5 arg6 harg6 arg7 harg7 arg8 harg8 arg9 harg9 arg10 harg10 arg11 harg11 hc0 hc1 x0 x1 x2 x3 xs0 xs1 xs2 xs3 = lNext xs3 x2 xs0 xs1 := by
  unfold sout1_B_1
  rw [View.read_writes_eq_canon _ _ _ (scover1_B_1 c i arg3 harg3 arg4 harg4 arg5 harg5 arg6 harg6 arg7 harg7 arg8 harg8 arg9 harg9 arg10 harg10 arg11 harg11 hc0 hc1 x0 x1 x2 x3 xs0 xs1 xs2 xs3)]
  unfold kernelRun1_B
  dsimp only
  sl_unfold_words
  rw [View.canon_cons_unit_zero (S := S512x1) hz2]
  simp only [View.readCov_unit_zero (S := S512x1024) _ hz2, View.readCov_unit_zero (S := S512x1) _ hz2,
    View.readAt_eq_ld, harg3.read_unread, harg4.read_unread, harg5.read_unread, harg6.read_unread, harg8.read_unread, harg9.read_unread, harg10.read_unread, harg11.read_unread,
    View.ld_unit_zero (S := S1x512x1024) hz3, View.ld_unit_zero (S := S1024x1024) hz2, View.ld_unit_zero (S := S512x1024) hz2,
    View.ld_unit_zero (S := S512x1) hz2]

theorem sout1_B_2_eq (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : ¬cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) :
    sout1_B_2 c i arg3 harg3 arg4 harg4 arg5 harg5 arg6 harg6 arg7 harg7 arg8 harg8 arg9 harg9 arg10 harg10 arg11 harg11 hc0 hc1 x0 x1 x2 x3 xs0 xs1 xs2 xs3 = aNext xs3 x2 x3 xs0 xs2 := by
  unfold sout1_B_2
  rw [View.read_writes_eq_canon _ _ _ (scover1_B_2 c i arg3 harg3 arg4 harg4 arg5 harg5 arg6 harg6 arg7 harg7 arg8 harg8 arg9 harg9 arg10 harg10 arg11 harg11 hc0 hc1 x0 x1 x2 x3 xs0 xs1 xs2 xs3)]
  unfold kernelRun1_B
  dsimp only
  sl_unfold_words
  rw [View.canon_cons_unit_zero (S := S512x1024) hz2]
  simp only [View.readCov_unit_zero (S := S512x1024) _ hz2, View.readCov_unit_zero (S := S512x1) _ hz2,
    View.readAt_eq_ld, harg3.read_unread, harg4.read_unread, harg5.read_unread, harg6.read_unread, harg8.read_unread, harg9.read_unread, harg10.read_unread, harg11.read_unread,
    View.ld_unit_zero (S := S1x512x1024) hz3, View.ld_unit_zero (S := S1024x1024) hz2, View.ld_unit_zero (S := S512x1024) hz2,
    View.ld_unit_zero (S := S512x1) hz2]

/-! ## The last key block -/

theorem sout1_C_0_eq (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) :
    sout1_C_0 c i arg3 harg3 arg4 harg4 arg5 harg5 arg6 harg6 arg7 harg7 arg8 harg8 arg9 harg9 arg10 harg10 arg11 harg11 hc0 hc1 x0 x1 x2 x3 xs0 xs1 xs2 xs3 = mNext xs3 x2 xs0 := by
  unfold sout1_C_0
  rw [View.read_writes_eq_canon _ _ _ (scover1_C_0 c i arg3 harg3 arg4 harg4 arg5 harg5 arg6 harg6 arg7 harg7 arg8 harg8 arg9 harg9 arg10 harg10 arg11 harg11 hc0 hc1 x0 x1 x2 x3 xs0 xs1 xs2 xs3)]
  unfold kernelRun1_C
  dsimp only
  sl_unfold_words
  rw [View.canon_cons_unit_zero (S := S512x1) hz2]
  simp only [View.readCov_unit_zero (S := S512x1024) _ hz2, View.readCov_unit_zero (S := S512x1) _ hz2,
    View.readAt_eq_ld, harg3.read_unread, harg4.read_unread, harg5.read_unread, harg6.read_unread, harg8.read_unread, harg9.read_unread, harg10.read_unread, harg11.read_unread,
    View.ld_unit_zero (S := S1x512x1024) hz3, View.ld_unit_zero (S := S1024x1024) hz2, View.ld_unit_zero (S := S512x1024) hz2,
    View.ld_unit_zero (S := S512x1) hz2]

theorem sout1_C_1_eq (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) :
    sout1_C_1 c i arg3 harg3 arg4 harg4 arg5 harg5 arg6 harg6 arg7 harg7 arg8 harg8 arg9 harg9 arg10 harg10 arg11 harg11 hc0 hc1 x0 x1 x2 x3 xs0 xs1 xs2 xs3 = lNext xs3 x2 xs0 xs1 := by
  unfold sout1_C_1
  rw [View.read_writes_eq_canon _ _ _ (scover1_C_1 c i arg3 harg3 arg4 harg4 arg5 harg5 arg6 harg6 arg7 harg7 arg8 harg8 arg9 harg9 arg10 harg10 arg11 harg11 hc0 hc1 x0 x1 x2 x3 xs0 xs1 xs2 xs3)]
  unfold kernelRun1_C
  dsimp only
  sl_unfold_words
  rw [View.canon_cons_unit_zero (S := S512x1) hz2]
  simp only [View.readCov_unit_zero (S := S512x1024) _ hz2, View.readCov_unit_zero (S := S512x1) _ hz2,
    View.readAt_eq_ld, harg3.read_unread, harg4.read_unread, harg5.read_unread, harg6.read_unread, harg8.read_unread, harg9.read_unread, harg10.read_unread, harg11.read_unread,
    View.ld_unit_zero (S := S1x512x1024) hz3, View.ld_unit_zero (S := S1024x1024) hz2, View.ld_unit_zero (S := S512x1024) hz2,
    View.ld_unit_zero (S := S512x1) hz2]

theorem sout1_C_2_eq (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) :
    sout1_C_2 c i arg3 harg3 arg4 harg4 arg5 harg5 arg6 harg6 arg7 harg7 arg8 harg8 arg9 harg9 arg10 harg10 arg11 harg11 hc0 hc1 x0 x1 x2 x3 xs0 xs1 xs2 xs3 = aNext xs3 x2 x3 xs0 xs2 := by
  unfold sout1_C_2
  rw [View.read_writes_eq_canon _ _ _ (scover1_C_2 c i arg3 harg3 arg4 harg4 arg5 harg5 arg6 harg6 arg7 harg7 arg8 harg8 arg9 harg9 arg10 harg10 arg11 harg11 hc0 hc1 x0 x1 x2 x3 xs0 xs1 xs2 xs3)]
  unfold kernelRun1_C
  dsimp only
  sl_unfold_words
  rw [View.canon_cons_unit_zero (S := S512x1024) hz2]
  simp only [View.readCov_unit_zero (S := S512x1024) _ hz2, View.readCov_unit_zero (S := S512x1) _ hz2,
    View.readAt_eq_ld, harg3.read_unread, harg4.read_unread, harg5.read_unread, harg6.read_unread, harg8.read_unread, harg9.read_unread, harg10.read_unread, harg11.read_unread,
    View.ld_unit_zero (S := S1x512x1024) hz3, View.ld_unit_zero (S := S1024x1024) hz2, View.ld_unit_zero (S := S512x1024) hz2,
    View.ld_unit_zero (S := S512x1) hz2]

theorem out1_C_4_eq (c : Dev nD) (i : grid1.Coords) (arg3 : Memref sig .tc .vmem S1x512x1024 .f32) (harg3 : arg3.IsWhole) (arg4 : Memref sig .tc .vmem S1024x1024 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : cond1_1 i) (x0 : Vec F S1x512x1024 .f32) (x1 : Vec F S1024x1024 .f32) (x2 : Vec F S1x512x1024 .bf16) (x3 : Vec F S1x512x1024 .bf16) (xs0 : Vec F S512x1 .f32) (xs1 : Vec F S512x1 .f32) (xs2 : Vec F S512x1024 .f32) (xs3 : Vec F S512x1024 .bf16) :
    out1_C_4 c i arg3 harg3 arg4 harg4 arg5 harg5 arg6 harg6 arg7 harg7 arg8 harg8 arg9 harg9 arg10 harg10 arg11 harg11 hc0 hc1 x0 x1 x2 x3 xs0 xs1 xs2 xs3 = outOf (aNext xs3 x2 x3 xs0 xs2) (lNext xs3 x2 xs0 xs1) := by
  unfold out1_C_4
  rw [View.read_writes_eq_canon _ _ _ (cover1_C_4 c i arg3 harg3 arg4 harg4 arg5 harg5 arg6 harg6 arg7 harg7 arg8 harg8 arg9 harg9 arg10 harg10 arg11 harg11 hc0 hc1 x0 x1 x2 x3 xs0 xs1 xs2 xs3)]
  unfold kernelRun1_C
  dsimp only
  sl_unfold_words
  rw [View.canon_cons_unit_zero (S := S1x512x1024) hz3]
  simp only [View.readCov_unit_zero (S := S512x1024) _ hz2, View.readCov_unit_zero (S := S512x1) _ hz2,
    View.readAt_eq_ld, harg3.read_unread, harg4.read_unread, harg5.read_unread, harg6.read_unread, harg8.read_unread, harg9.read_unread, harg10.read_unread, harg11.read_unread,
    View.ld_unit_zero (S := S1x512x1024) hz3, View.ld_unit_zero (S := S1024x1024) hz2, View.ld_unit_zero (S := S512x1024) hz2,
    View.ld_unit_zero (S := S512x1) hz2]

end Cert.KernelIdeal.Hand

end
-- ==== Proof.KIScratch.lean ====
/-
  The tuple after each grid point of the attention region, component by component.

  At the first key block of a row the projected queries are computed from the point's query block and the
  scaled weights, and the running maximum, sum and weighted sum are one step from the reset values. At every
  other point the projected queries are those of the point before, and the three running quantities are one
  step from what the point before left; at a row's last point the output buffer holds the weighted sum
  divided by the sum.
-/
import proofs.«178921_j33646773797609_2_alg».proof.Proof.KIPieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The point before `t`. -/
abbrev prevPt (t : Fin cfg1.N) : Fin cfg1.N := ⟨t.val - 1, Nat.lt_of_le_of_lt (Nat.sub_le _ _) t.isLt⟩

/-- The components of the tuple after point `t`. -/
abbrev stO (c : Dev nD) (t : Fin cfg1.N) : Vec F S1x512x1024 .f32 := (outsAt1 V c t.val t.isLt).1
abbrev stM (c : Dev nD) (t : Fin cfg1.N) : Vec F S512x1 .f32 := (outsAt1 V c t.val t.isLt).2.1
abbrev stL (c : Dev nD) (t : Fin cfg1.N) : Vec F S512x1 .f32 := (outsAt1 V c t.val t.isLt).2.2.1
abbrev stA (c : Dev nD) (t : Fin cfg1.N) : Vec F S512x1024 .f32 := (outsAt1 V c t.val t.isLt).2.2.2.1
abbrev stQ (c : Dev nD) (t : Fin cfg1.N) : Vec F S512x1024 .bf16 := (outsAt1 V c t.val t.isLt).2.2.2.2

/-! ## The first key block of a row -/

theorem stQ_A (c : Dev nD) (t : Fin cfg1.N) (h0 : t.val % 4 = 0) (h1 : ¬t.val % 4 = 3) :
    stQ V c t = qpOf (iblk1 V c 0 t) (iblk1 V c 1 t) := by
  unfold stQ; rw [outsAt1_A V c t h0 h1]; unfold stepA; dsimp only
  exact sout1_A_3_eq (F := F) c _ _ _ _ _ _ _ _ _ _ _ _ _ _ _ _ _ _ _ _ _ _ _ _ _
theorem stM_A (c : Dev nD) (t : Fin cfg1.N) (h0 : t.val % 4 = 0) (h1 : ¬t.val % 4 = 3) :
    stM V c t = mNext (qpOf (iblk1 V c 0 t) (iblk1 V c 1 t)) (iblk1 V c 2 t) k1_pay5 := by
  unfold stM; rw [outsAt1_A V c t h0 h1]; unfold stepA; dsimp only
  exact sout1_A_0_eq (F := F) c _ _ _ _ _ _ _ _ _ _ _ _ _ _ _ _ _ _ _ _ _ _ _ _ _
theorem stL_A (c : Dev nD) (t : Fin cfg1.N) (h0 : t.val % 4 = 0) (h1 : ¬t.val % 4 = 3) :
    stL V c t = lNext (qpOf (iblk1 V c 0 t) (iblk1 V c 1 t)) (iblk1 V c 2 t) k1_pay5 k1_pay6 := by
  unfold stL; rw [outsAt1_A V c t h0 h1]; unfold stepA; dsimp only
  exact sout1_A_1_eq (F := F) c _ _ _ _ _ _ _ _ _ _ _ _ _ _ _ _ _ _ _ _ _ _ _ _ _
theorem stA_A (c : Dev nD) (t : Fin cfg1.N) (h0 : t.val % 4 = 0) (h1 : ¬t.val % 4 = 3) :
    stA V c t = aNext (qpOf (iblk1 V c 0 t) (iblk1 V c 1 t)) (iblk1 V c 2 t) (iblk1 V c 3 t) k1_pay5 k1_pay7 := by
  unfold stA; rw [outsAt1_A V c t h0 h1]; unfold stepA; dsimp only
  exact sout1_A_2_eq (F := F) c _ _ _ _ _ _ _ _ _ _ _ _ _ _ _ _ _ _ _ _ _ _ _ _ _

/-! ## A middle key block -/

theorem stQ_B (c : Dev nD) (t : Fin cfg1.N) (h0 : ¬t.val % 4 = 0) (h1 : ¬t.val % 4 = 3) :
    stQ V c t = stQ V c (prevPt t) := by
  unfold stQ; rw [outsAt1_B V c t h0 h1]; unfold stepB; dsimp only
theorem stM_B (c : Dev nD) (t : Fin cfg1.N) (h0 : ¬t.val % 4 = 0) (h1 : ¬t.val % 4 = 3) :
    stM V c t = mNext (stQ V c (prevPt t)) (iblk1 V c 2 t) (stM V c (prevPt t)) := by
  unfold stM; rw [outsAt1_B V c t h0 h1]; unfold stepB; dsimp only
  exact sout1_B_0_eq (F := F) c _ _ _ _ _ _ _ _ _ _ _ _ _ _ _ _ _ _ _ _ _ _ _ _ _ _ _ _ _
theorem stL_B (c : Dev nD) (t : Fin cfg1.N) (h0 : ¬t.val % 4 = 0) (h1 : ¬t.val % 4 = 3) :
    stL V c t = lNext (stQ V c (prevPt t)) (iblk1 V c 2 t) (stM V c (prevPt t)) (stL V c (prevPt t)) := by
  unfold stL; rw [outsAt1_B V c t h0 h1]; unfold stepB; dsimp only
  exact sout1_B_1_eq (F := F) c _ _ _ _ _ _ _ _ _ _ _ _ _ _ _ _ _ _ _ _ _ _ _ _ _ _ _ _ _
theorem stA_B (c : Dev nD) (t : Fin cfg1.N) (h0 : ¬t.val % 4 = 0) (h1 : ¬t.val % 4 = 3) :
    stA V c t = aNext (stQ V c (prevPt t)) (iblk1 V c 2 t) (iblk1 V c 3 t) (stM V c (prevPt t)) (stA V c (prevPt t)) := by
  unfold stA; rw [outsAt1_B V c t h0 h1]; unfold stepB; dsimp only
  exact sout1_B_2_eq (F := F) c _ _ _ _ _ _ _ _ _ _ _ _ _ _ _ _ _ _ _ _ _ _ _ _ _ _ _ _ _

/-! ## The last key block -/

theorem stQ_C (c : Dev nD) (t : Fin cfg1.N) (h0 : ¬t.val % 4 = 0) (h1 : t.val % 4 = 3) :
    stQ V c t = stQ V c (prevPt t) := by
  unfold stQ; rw [outsAt1_C V c t h0 h1]; unfold stepC; dsimp only
theorem stM_C (c : Dev nD) (t : Fin cfg1.N) (h0 : ¬t.val % 4 = 0) (h1 : t.val % 4 = 3) :
    stM V c t = mNext (stQ V c (prevPt t)) (iblk1 V c 2 t) (stM V c (prevPt t)) := by
  unfold stM; rw [outsAt1_C V c t h0 h1]; unfold stepC; dsimp only
  exact sout1_C_0_eq (F := F) c _ _ _ _ _ _ _ _ _ _ _ _ _ _ _ _ _ _ _ _ _ _ _ _ _ _ _ _ _
theorem stL_C (c : Dev nD) (t : Fin cfg1.N) (h0 : ¬t.val % 4 = 0) (h1 : t.val % 4 = 3) :
    stL V c t = lNext (stQ V c (prevPt t)) (iblk1 V c 2 t) (stM V c (prevPt t)) (stL V c (prevPt t)) := by
  unfold stL; rw [outsAt1_C V c t h0 h1]; unfold stepC; dsimp only
  exact sout1_C_1_eq (F := F) c _ _ _ _ _ _ _ _ _ _ _ _ _ _ _ _ _ _ _ _ _ _ _ _ _ _ _ _ _
theorem stA_C (c : Dev nD) (t : Fin cfg1.N) (h0 : ¬t.val % 4 = 0) (h1 : t.val % 4 = 3) :
    stA V c t = aNext (stQ V c (prevPt t)) (iblk1 V c 2 t) (iblk1 V c 3 t) (stM V c (prevPt t)) (stA V c (prevPt t)) := by
  unfold stA; rw [outsAt1_C V c t h0 h1]; unfold stepC; dsimp only
  exact sout1_C_2_eq (F := F) c _ _ _ _ _ _ _ _ _ _ _ _ _ _ _ _ _ _ _ _ _ _ _ _ _ _ _ _ _
theorem stO_C (c : Dev nD) (t : Fin cfg1.N) (h0 : ¬t.val % 4 = 0) (h1 : t.val % 4 = 3) :
    stO V c t = outOf (aNext (stQ V c (prevPt t)) (iblk1 V c 2 t) (iblk1 V c 3 t) (stM V c (prevPt t)) (stA V c (prevPt t)))
      (lNext (stQ V c (prevPt t)) (iblk1 V c 2 t) (stM V c (prevPt t)) (stL V c (prevPt t))) := by
  unfold stO; rw [outsAt1_C V c t h0 h1]; unfold stepC; dsimp only
  exact out1_C_4_eq (F := F) c _ _ _ _ _ _ _ _ _ _ _ _ _ _ _ _ _ _ _ _ _ _ _ _ _ _ _ _ _

end Cert.KernelIdeal.Hand

end
-- ==== Proof.KIBlocks.lean ====
/-
  The attention region's windows at a grid point, read off the arrays the region is entered with.

  Grid point t (0 ≤ t < 64) is batch t / 16, query block (t / 4) % 4, key block t % 4. The query window's
  block at t is rows [512·((t/4)%4), +512) of batch t/16 of the queries; the weights' window is the whole
  matrix; the keys' and values' windows are rows [512·(t%4), +512) of batch t/16; the output window's block is
  rows [512·((t/4)%4), +512) of batch t/16 of the result, written back at the points with t % 4 = 3, whose
  blocks tile the result array.
-/
import proofs.«178921_j33646773797609_2_alg».proof.Proof.KIScratch
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx
variable (V : (c : Dev nD) → (b : Ref sig .tc) → Buf (Elt F) ((c : Thread nD τ).loc b))

/-- The printed index maps, decided over the grid. -/
theorem idx_facts1 : ∀ t : Fin cfg1.N,
    win1_0.index t (0 : Fin 3) = t.val / 16 ∧ win1_0.index t (1 : Fin 3) = t.val / 4 % 4 ∧ win1_0.index t (2 : Fin 3) = 0
    ∧ win1_1.index t (0 : Fin 2) = 0 ∧ win1_1.index t (1 : Fin 2) = 0
    ∧ win1_2.index t (0 : Fin 3) = t.val / 16 ∧ win1_2.index t (1 : Fin 3) = t.val % 4 ∧ win1_2.index t (2 : Fin 3) = 0
    ∧ win1_3.index t (0 : Fin 3) = t.val / 16 ∧ win1_3.index t (1 : Fin 3) = t.val % 4 ∧ win1_3.index t (2 : Fin 3) = 0
    ∧ win1_4.index t (0 : Fin 3) = t.val / 16 ∧ win1_4.index t (1 : Fin 3) = t.val / 4 % 4 ∧ win1_4.index t (2 : Fin 3) = 0 :=
  (by decide +kernel : ∀ t : Fin grid1.N, _)

/-- The query block at `t`, at row `r` and feature `d`: the queries at batch t/16, position 512·((t/4)%4) + r. -/
theorem iblk1_0_apply (c : Dev nD) (t : Fin cfg1.N) (r : Fin 512) (d : Fin 1024) (b : Fin 4) (i : Fin 2048)
    (hb : b.val = t.val / 16) (hi : i.val = t.val / 4 % 4 * 512 + r.val) :
    iblk1 V c 0 t (ix3 0 r d) = (V c main_arg0 : S4x2048x1024.Idx → Elt F .f32) (ix3 b i d) := by
  obtain ⟨e0, e1, e2, -⟩ := idx_facts1 t
  show (V c main_arg0 : S4x2048x1024.Idx → Elt F .f32) (((cfg1.win 0).blk t).view.emb (ix3 0 r d)) = _
  refine congrArg _ (funext fun a => Fin.ext ?_)
  match a with
  | ⟨0, _⟩ => show win1_0.index t (0 : Fin 3) * 1 + 1 * 0 = b.val; omega
  | ⟨1, _⟩ => show win1_0.index t (1 : Fin 3) * 512 + 1 * r.val = i.val; omega
  | ⟨2, _⟩ => show win1_0.index t (2 : Fin 3) * 1024 + 1 * d.val = d.val; omega

/-- The weights' block is the whole scaled, transposed weight matrix. -/
theorem iblk1_1_apply (c : Dev nD) (t : Fin cfg1.N) (d : Fin 1024) (e : Fin 1024) :
    iblk1 V c 1 t (ix2 d e) = (V c main_v19 : S1024x1024.Idx → Elt F .f32) (ix2 d e) := by
  obtain ⟨-, -, -, e0, e1, -⟩ := idx_facts1 t
  show (V c main_v19 : S1024x1024.Idx → Elt F .f32) (((cfg1.win 1).blk t).view.emb (ix2 d e)) = _
  refine congrArg _ (funext fun a => Fin.ext ?_)
  match a with
  | ⟨0, _⟩ => show win1_1.index t (0 : Fin 2) * 1024 + 1 * d.val = d.val; omega
  | ⟨1, _⟩ => show win1_1.index t (1 : Fin 2) * 1024 + 1 * e.val = e.val; omega

/-- The key block at `t`, at key `k'` and feature `e`: the projected keys at batch t/16, position 512·(t%4) + k'. -/
theorem iblk1_2_apply (c : Dev nD) (t : Fin cfg1.N) (k' : Fin 512) (e : Fin 1024) (b : Fin 4) (κ : Fin 2048)
    (hb : b.val = t.val / 16) (hκ : κ.val = t.val % 4 * 512 + k'.val) :
    iblk1 V c 2 t (ix3 0 k' e) = (V c main_v13 : S4x2048x1024.Idx → Elt F .bf16) (ix3 b κ e) := by
  obtain ⟨-, -, -, -, -, e0, e1, e2, -⟩ := idx_facts1 t
  show (V c main_v13 : S4x2048x1024.Idx → Elt F .bf16) (((cfg1.win 2).blk t).view.emb (ix3 0 k' e)) = _
  refine congrArg _ (funext fun a => Fin.ext ?_)
  match a with
  | ⟨0, _⟩ => show win1_2.index t (0 : Fin 3) * 1 + 1 * 0 = b.val; omega
  | ⟨1, _⟩ => show win1_2.index t (1 : Fin 3) * 512 + 1 * k'.val = κ.val; omega
  | ⟨2, _⟩ => show win1_2.index t (2 : Fin 3) * 1024 + 1 * e.val = e.val; omega

/-- The value block likewise. -/
theorem iblk1_3_apply (c : Dev nD) (t : Fin cfg1.N) (k' : Fin 512) (d : Fin 1024) (b : Fin 4) (κ : Fin 2048)
    (hb : b.val = t.val / 16) (hκ : κ.val = t.val % 4 * 512 + k'.val) :
    iblk1 V c 3 t (ix3 0 k' d) = (V c main_v16 : S4x2048x1024.Idx → Elt F .bf16) (ix3 b κ d) := by
  obtain ⟨-, -, -, -, -, -, -, -, e0, e1, e2, -⟩ := idx_facts1 t
  show (V c main_v16 : S4x2048x1024.Idx → Elt F .bf16) (((cfg1.win 3).blk t).view.emb (ix3 0 k' d)) = _
  refine congrArg _ (funext fun a => Fin.ext ?_)
  match a with
  | ⟨0, _⟩ => show win1_3.index t (0 : Fin 3) * 1 + 1 * 0 = b.val; omega
  | ⟨1, _⟩ => show win1_3.index t (1 : Fin 3) * 512 + 1 * k'.val = κ.val; omega
  | ⟨2, _⟩ => show win1_3.index t (2 : Fin 3) * 1024 + 1 * d.val = d.val; omega

/-! ## The output window: membership and the cover -/

/-- An index of the result array is in point `t`'s block iff each coordinate is in the block's range. -/
theorem mem_blk1_4 (t : Fin cfg1.N) (i : S4x2048x1024.Idx) :
    i ∈ ((cfg1.win 4).blk t).view.set ↔ ∀ a : Fin 3, win1_4.index t a * S1x512x1024.size a ≤ (i a).val ∧ (i a).val < win1_4.index t a * S1x512x1024.size a + S1x512x1024.size a := by
  show i ∈ ((View.whole main_v20).slice (win1_4.rect t)).set ↔ _
  rw [View.set_slice_whole, Rect.mem_set_unit]
  exact Iff.rfl

/-- Every index of the result array is in the block of a point that writes it back: the point of its batch,
    its query block, and the last key block. -/
theorem cover1_4 (i : S4x2048x1024.Idx) :
    ∃ t : Fin cfg1.N, (cfg1.win 4).flush t = true ∧ i ∈ ((cfg1.win 4).blk t).view.set := by
  have hi0 : (i 0).val < 4 := (i 0).isLt
  have hi1 : (i 1).val < 2048 := (i 1).isLt
  have hi2 : (i 2).val < 1024 := (i 2).isLt
  obtain ⟨n, hn⟩ : ∃ n, n = 16 * (i 0).val + 4 * ((i 1).val / 512) + 3 := ⟨_, rfl⟩
  have hn64 : n < 64 := by omega
  have hlt : n < cfg1.N := lt_of_lt_of_eq hn64 (show (64 : ℕ) = cfg1.N from N_1.symm)
  obtain ⟨-, -, -, -, -, -, -, -, -, -, -, e0, e1, e2⟩ := idx_facts1 ⟨n, hlt⟩
  have e0' : win1_4.index ⟨n, hlt⟩ (0 : Fin 3) = n / 16 := e0
  have e1' : win1_4.index ⟨n, hlt⟩ (1 : Fin 3) = n / 4 % 4 := e1
  have e2' : win1_4.index ⟨n, hlt⟩ (2 : Fin 3) = 0 := e2
  refine ⟨⟨n, hlt⟩, (flush1_4 _).mpr (by show n % 4 = 3; omega), ?_⟩
  rw [mem_blk1_4]
  intro a
  match a with
  | ⟨0, _⟩ => show win1_4.index ⟨n, hlt⟩ (0 : Fin 3) * 1 ≤ (i 0).val ∧ (i 0).val < win1_4.index ⟨n, hlt⟩ (0 : Fin 3) * 1 + 1; omega
  | ⟨1, _⟩ => show win1_4.index ⟨n, hlt⟩ (1 : Fin 3) * 512 ≤ (i 1).val ∧ (i 1).val < win1_4.index ⟨n, hlt⟩ (1 : Fin 3) * 512 + 512; omega
  | ⟨2, _⟩ => show win1_4.index ⟨n, hlt⟩ (2 : Fin 3) * 1024 ≤ (i 2).val ∧ (i 2).val < win1_4.index ⟨n, hlt⟩ (2 : Fin 3) * 1024 + 1024; omega

/-- Where an index of point `t`'s output block sits in the result array. -/
theorem emb1_4 (t : Fin cfg1.N) (r : Fin 512) (d : Fin 1024) (b : Fin 4) (i : Fin 2048)
    (hb : b.val = t.val / 16) (hi : i.val = t.val / 4 % 4 * 512 + r.val) :
    ((cfg1.win 4).blk t).view.emb (ix3 0 r d) = (ix3 b i d : S4x2048x1024.Idx) := by
  obtain ⟨-, -, -, -, -, -, -, -, -, -, -, e0, e1, e2⟩ := idx_facts1 t
  refine funext fun a => Fin.ext ?_
  match a with
  | ⟨0, _⟩ => show win1_4.index t (0 : Fin 3) * 1 + 1 * 0 = b.val; omega
  | ⟨1, _⟩ => show win1_4.index t (1 : Fin 3) * 512 + 1 * r.val = i.val; omega
  | ⟨2, _⟩ => show win1_4.index t (2 : Fin 3) * 1024 + 1 * d.val = d.val; omega

end Cert.KernelIdeal.Hand

end
-- ==== Proof.Consts.lean ====
/-
  The float constants the programs of this certificate spell, as the extended reals their bit patterns denote.

  A 32-bit pattern is a sign bit, eight exponent bits E (bias 127) and 23 significand bits T: for 0 < E < 255 it
  denotes ±(2^23 + T) · 2^(E - 150), and for E = 255, T = 0 it denotes ±∞.  So
      0x3F800000 (E = 127, T = 0) is 2^23 · 2^(-23) = 1,
      0x44800000 (E = 137, T = 0) is 2^23 · 2^(-13) = 1024,
      0x3D000000 (E = 122, T = 0) is 2^23 · 2^(-28) = 1/32,
      0x7F800000 (E = 255, T = 0, sign 0) is +∞,   0xFF800000 (E = 255, T = 0, sign 1) is -∞.
  Every evaluation of a pattern is stated here, once, so that no other module opens the pattern's definition.
-/
import Idealize.ShloMosaic.PureOps.Ideal

noncomputable section

namespace Cert.Proof.Consts

open Idealize.ShloMosaic

/-- The pattern 0x3F800000 denotes 1. -/
theorem ofBits_one : Ideal.ofBits .f32 0x3F800000#32 = 1 := by
  simp [Ideal.ofBits, Ideal.ieee, -EReal.coe_mul]; norm_num

/-- The pattern 0x44800000 denotes 1024. -/
theorem ofBits_1024 : Ideal.ofBits .f32 0x44800000#32 = ((1024 : ℝ) : EReal) := by
  simp [Ideal.ofBits, Ideal.ieee, -EReal.coe_mul]; norm_num

/-- The pattern 0x3D000000 denotes 1/32. -/
theorem ofBits_inv32 : Ideal.ofBits .f32 0x3D000000#32 = ((1 / 32 : ℝ) : EReal) := by
  simp [Ideal.ofBits, Ideal.ieee, -EReal.coe_mul]; norm_num

/-- The pattern 0x7F800000 denotes +∞. -/
theorem ofBits_inf : Ideal.ofBits .f32 0x7F800000#32 = (⊤ : EReal) := by
  simp [Ideal.ofBits, Ideal.ieee]

/-- The pattern 0xFF800000 denotes -∞. -/
theorem ofBits_neg_inf : Ideal.ofBits .f32 0xFF800000#32 = (⊥ : EReal) := by
  simp [Ideal.ofBits, Ideal.ieee]

/-- The square root of 1024 is 32. -/
theorem sqrt_1024 : Ideal.sqrt ((1024 : ℝ) : EReal) = ((32 : ℝ) : EReal) := by
  rw [Ideal.sqrt_coe, if_neg (by norm_num)]
  congr 1
  rw [show (1024 : ℝ) = 32 * 32 by norm_num]
  exact Real.sqrt_mul_self (by norm_num)

end Cert.Proof.Consts
-- ==== Proof.KIPayloads.lean ====
/-
  The attention body's stored values, read at an index at the ideal values.

  At the ideal instance a float is an extended real, every operation is exact and a format change is the
  identity.  For projected queries `qp` (512 rows of 1024), a block of 512 keys `kb` and of 512 values `vb`,
  the running row maximum `mo`, row sum `lo` and weighted sum `ao`:
    the score of row r against key k' is          sc r k' = Σ_e qp[r, e] · kb[k', e];
    the new maximum of row r is                   mN r    = max (mo r) (max over k' of sc r k');
    the new sum is                                exp (mo r − mN r) · lo r + Σ_k' exp (sc r k' − mN r);
    the new weighted sum at column d is           exp (mo r − mN r) · ao[r, d] + Σ_k' exp (sc r k' − mN r) · vb[k', d];
    the output at (r, d) is the weighted sum divided by the sum; the projected queries are x0 · x1;
    and the three reset values are −∞, 0 and 0.
  Each operation that is not elementwise (a matrix product, a sum or maximum along the key axis, a cast that
  adds or drops a unit axis, a column laid along every column position, a transpose) is read at an index by
  one small lemma, and each stored value is opened one layer at a time.
-/
import proofs.«178921_j33646773797609_2_alg».proof.Proof.Gen.KernelIdeal.Skeleton
import proofs.«178921_j33646773797609_2_alg».proof.Proof.Consts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Payloads

open Cert.KernelIdeal Cert.KernelIdeal.Gen Idealize.ShloMosaic Idealize.ShloMosaic.ValueIdx

/-! ## Layout operations on a column -/

variable {α : Type}

/-- A vector of `a` entries cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` laid along `b` column positions reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A cast between equal shapes read at an index is the operand there. -/
theorem shapeCast_self_apply {s : Shape} (v : s.Idx → α) (h : s.ShapeCasts s) (j : s.Idx) : shapeCast s v h j = v j := by
  rw [shapeCast_self]

/-! ## The three matrix products read at an index

Each product contracts the left operand's columns with the right operand's rows and accumulates into the zero
splat, so at `(r, c)` it is the sum over the contracted coordinate `e` of left `(r, e)` times right `(e, c)`. -/

/-- The query projection's product: the operand indices at an output index and a contraction index. -/
theorem mmQ_lhs0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem mmQ_lhs1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem mmQ_rhs0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem mmQ_rhs1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
theorem mmQ_apply {φ₁ φ₂ : FTy} (lhs : FVec Ideal S512x1024 φ₁) (rhs : FVec Ideal S1024x1024 φ₂) (r : Fin 512) (c : Fin 1024) :
    matmul dot_S512x1024_S1024x1024_S512x1024_1_0_0_1_n_n none lhs rhs (constant (F := Ideal) S512x1024 .f32 0x00000000#32) (ix2 r c)
      = ∑ e : Fin 1024, lhs (ix2 r e) * rhs (ix2 e c) := by
  simp only [matmul]
  rw [Ideal.matmul_constant_zero_apply, ← Equiv.sum_comp (contrEquiv1 dot_S512x1024_S1024x1024_S512x1024_1_0_0_1_n_n 1024 rfl rfl).symm]
  refine Finset.sum_congr rfl fun e _ => ?_
  have he := contrEquiv1_symm_val dot_S512x1024_S1024x1024_S512x1024_1_0_0_1_n_n 1024 rfl rfl e
  have el : dot_S512x1024_S1024x1024_S512x1024_1_0_0_1_n_n.lhsIdx (ix2 r c) ((contrEquiv1 dot_S512x1024_S1024x1024_S512x1024_1_0_0_1_n_n 1024 rfl rfl).symm e) = ix2 r e := funext fun a => Fin.ext (by
    match a with
    | ⟨0, _⟩ => exact mmQ_lhs0 _ _
    | ⟨1, _⟩ => exact (mmQ_lhs1 _ _).trans he)
  have er : dot_S512x1024_S1024x1024_S512x1024_1_0_0_1_n_n.rhsIdx (ix2 r c) ((contrEquiv1 dot_S512x1024_S1024x1024_S512x1024_1_0_0_1_n_n 1024 rfl rfl).symm e) = ix2 e c := funext fun a => Fin.ext (by
    match a with
    | ⟨0, _⟩ => exact (mmQ_rhs0 _ _).trans he
    | ⟨1, _⟩ => exact mmQ_rhs1 _ _)
  rw [el, er]

/-- The scores' product: the operand indices at an output index and a contraction index. -/
theorem mmS_lhs0 (i : S512x512.Idx) (q : dot_S512x1024_S1024x512_S512x512_1_0_0_1_n_n.contr.Idx) : (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem mmS_lhs1 (i : S512x512.Idx) (q : dot_S512x1024_S1024x512_S512x512_1_0_0_1_n_n.contr.Idx) : (dot_S512x1024_S1024x512_S512x512_1_0_0_1_n_n.lhsIdx i q 1).val = (q ⟨0, by decide⟩).val :=
  dot_S512x1024_S1024x512_S512x512_1_0_0_1_n_n.lhsIdx_val_of_single rfl i q
theorem mmS_rhs0 (i : S512x512.Idx) (q : dot_S512x1024_S1024x512_S512x512_1_0_0_1_n_n.contr.Idx) : (dot_S512x1024_S1024x512_S512x512_1_0_0_1_n_n.rhsIdx i q 0).val = (q ⟨0, by decide⟩).val :=
  dot_S512x1024_S1024x512_S512x512_1_0_0_1_n_n.rhsIdx_val_of_single rfl i q
theorem mmS_rhs1 (i : S512x512.Idx) (q : dot_S512x1024_S1024x512_S512x512_1_0_0_1_n_n.contr.Idx) : (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl
theorem mmS_apply {φ₁ φ₂ : FTy} (lhs : FVec Ideal S512x1024 φ₁) (rhs : FVec Ideal S1024x512 φ₂) (r : Fin 512) (c : Fin 512) :
    matmul dot_S512x1024_S1024x512_S512x512_1_0_0_1_n_n none lhs rhs (constant (F := Ideal) S512x512 .f32 0x00000000#32) (ix2 r c)
      = ∑ e : Fin 1024, lhs (ix2 r e) * rhs (ix2 e c) := by
  simp only [matmul]
  rw [Ideal.matmul_constant_zero_apply, ← Equiv.sum_comp (contrEquiv1 dot_S512x1024_S1024x512_S512x512_1_0_0_1_n_n 1024 rfl rfl).symm]
  refine Finset.sum_congr rfl fun e _ => ?_
  have he := contrEquiv1_symm_val dot_S512x1024_S1024x512_S512x512_1_0_0_1_n_n 1024 rfl rfl e
  have el : dot_S512x1024_S1024x512_S512x512_1_0_0_1_n_n.lhsIdx (ix2 r c) ((contrEquiv1 dot_S512x1024_S1024x512_S512x512_1_0_0_1_n_n 1024 rfl rfl).symm e) = ix2 r e := funext fun a => Fin.ext (by
    match a with
    | ⟨0, _⟩ => exact mmS_lhs0 _ _
    | ⟨1, _⟩ => exact (mmS_lhs1 _ _).trans he)
  have er : dot_S512x1024_S1024x512_S512x512_1_0_0_1_n_n.rhsIdx (ix2 r c) ((contrEquiv1 dot_S512x1024_S1024x512_S512x512_1_0_0_1_n_n 1024 rfl rfl).symm e) = ix2 e c := funext fun a => Fin.ext (by
    match a with
    | ⟨0, _⟩ => exact (mmS_rhs0 _ _).trans he
    | ⟨1, _⟩ => exact mmS_rhs1 _ _)
  rw [el, er]

/-- The weights-times-values product: the operand indices at an output index and a contraction index. -/
theorem mmV_lhs0 (i : S512x1024.Idx) (q : dot_S512x512_S512x1024_S512x1024_1_0_0_1_n_n.contr.Idx) : (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem mmV_lhs1 (i : S512x1024.Idx) (q : dot_S512x512_S512x1024_S512x1024_1_0_0_1_n_n.contr.Idx) : (dot_S512x512_S512x1024_S512x1024_1_0_0_1_n_n.lhsIdx i q 1).val = (q ⟨0, by decide⟩).val :=
  dot_S512x512_S512x1024_S512x1024_1_0_0_1_n_n.lhsIdx_val_of_single rfl i q
theorem mmV_rhs0 (i : S512x1024.Idx) (q : dot_S512x512_S512x1024_S512x1024_1_0_0_1_n_n.contr.Idx) : (dot_S512x512_S512x1024_S512x1024_1_0_0_1_n_n.rhsIdx i q 0).val = (q ⟨0, by decide⟩).val :=
  dot_S512x512_S512x1024_S512x1024_1_0_0_1_n_n.rhsIdx_val_of_single rfl i q
theorem mmV_rhs1 (i : S512x1024.Idx) (q : dot_S512x512_S512x1024_S512x1024_1_0_0_1_n_n.contr.Idx) : (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl
theorem mmV_apply {φ₁ φ₂ : FTy} (lhs : FVec Ideal S512x512 φ₁) (rhs : FVec Ideal S512x1024 φ₂) (r : Fin 512) (c : Fin 1024) :
    matmul dot_S512x512_S512x1024_S512x1024_1_0_0_1_n_n none lhs rhs (constant (F := Ideal) S512x1024 .f32 0x00000000#32) (ix2 r c)
      = ∑ e : Fin 512, lhs (ix2 r e) * rhs (ix2 e c) := by
  simp only [matmul]
  rw [Ideal.matmul_constant_zero_apply, ← Equiv.sum_comp (contrEquiv1 dot_S512x512_S512x1024_S512x1024_1_0_0_1_n_n 512 rfl rfl).symm]
  refine Finset.sum_congr rfl fun e _ => ?_
  have he := contrEquiv1_symm_val dot_S512x512_S512x1024_S512x1024_1_0_0_1_n_n 512 rfl rfl e
  have el : dot_S512x512_S512x1024_S512x1024_1_0_0_1_n_n.lhsIdx (ix2 r c) ((contrEquiv1 dot_S512x512_S512x1024_S512x1024_1_0_0_1_n_n 512 rfl rfl).symm e) = ix2 r e := funext fun a => Fin.ext (by
    match a with
    | ⟨0, _⟩ => exact mmV_lhs0 _ _
    | ⟨1, _⟩ => exact (mmV_lhs1 _ _).trans he)
  have er : dot_S512x512_S512x1024_S512x1024_1_0_0_1_n_n.rhsIdx (ix2 r c) ((contrEquiv1 dot_S512x512_S512x1024_S512x1024_1_0_0_1_n_n 512 rfl rfl).symm e) = ix2 e c := funext fun a => Fin.ext (by
    match a with
    | ⟨0, _⟩ => exact (mmV_rhs0 _ _).trans he
    | ⟨1, _⟩ => exact mmV_rhs1 _ _)
  rw [el, er]

/-! ## A sum and a maximum along the key axis, read at a row -/

/-- The source index over row `r` with key coordinate `k'` inserted is `(r, k')`. -/
theorem lift_row (h : S512x512.Reduces [1] S512) (r : Fin 512) (k' : Fin 512) :
    h.lift (ix1 r) k' = ix2 r k' :=
  funext fun c => Fin.ext (by
    match c with
    | ⟨0, _⟩ => rfl
    | ⟨1, _⟩ => rfl)

/-- A sum along the key axis, read at row `r`: the sum over the keys of the source at `(r, k')`. -/
theorem rowSum_apply (src : FVec Ideal S512x512 .f32) (h : S512x512.Reduces [1] S512) (hφ : FKind.Formats .f32)
    (hacc : (0x00000000#32 : BitVec 32) = 0x00000000#32) (r : Fin 512) :
    multiReduction (F := Ideal) .add [1] S512 src 0x00000000#32 h hφ hacc (ix1 r) = ∑ k' : Fin 512, src (ix2 r k') := by
  refine (Ideal.multiReduction_add_single src 0x00000000#32 h hφ hacc (ix1 r)).trans ?_
  show ∑ k' : Fin 512, src (h.lift (ix1 r) k') = _
  exact Finset.sum_congr rfl fun k' _ => by rw [lift_row]

/-- A maximum along the key axis, read at row `r`: the fold of `max` over the keys, from the value of the
    accumulator's pattern, of the source at `(r, k')`. -/
theorem rowMax_apply (src : FVec Ideal S512x512 .f32) (h : S512x512.Reduces [1] S512) (hφ : FKind.Formats .f32)
    (hacc : (0xFF800000#32 : BitVec 32) = 0xFF800000#32) (r : Fin 512) :
    multiReduction (F := Ideal) .maximumf [1] S512 src 0xFF800000#32 h hφ hacc (ix1 r)
      = (Finset.univ : Finset (Fin 512)).fold max ⊥ (fun k' => src (ix2 r k')) := by
  refine (Ideal.multiReduction_maximumf_single src 0xFF800000#32 h hφ hacc (ix1 r)).trans ?_
  show (Finset.univ : Finset (Fin 512)).fold max (Ideal.ofBits .f32 0xFF800000#32) (src ∘ h.lift (ix1 r)) = _
  rw [Cert.Proof.Consts.ofBits_neg_inf]
  have e : (src ∘ h.lift (ix1 r)) = fun k' : Fin 512 => src (ix2 r k') :=
    funext fun k' => congrArg src (lift_row h r k')
  rw [e]
  rfl

/-! ## The output, the projected queries and the reset values -/

/-- The output at `(0, r, d)`: the weighted sum at `(r, d)` divided by the row's sum. -/
theorem outOf_apply (a : Vec Ideal S512x1024 .f32) (l : Vec Ideal S512x1 .f32) (r : Fin 512) (d : Fin 1024) :
    (k1_pay3 a l) (ix3 0 r d) = Ideal.div (a (ix2 r d)) (l (ix2 r 0)) := by
  unfold k1_pay3
  refine (shapeCast_ab_1ab_apply _ _ (0 : Fin 1) r d).trans ?_
  rw [divf_apply, broadcastTo_a1_ab_apply]

/-- The projected queries at `(r, e)`: the sum over `d'` of the query block at `(0, r, d')` times the weights at `(d', e)`. -/
theorem qpOf_apply (x0 : Vec Ideal S1x512x1024 .f32) (x1 : Vec Ideal S1024x1024 .f32) (r : Fin 512) (e : Fin 1024) :
    (k1_pay4 x0 x1) (ix2 r e) = ∑ d' : Fin 1024, x0 (ix3 0 r d') * x1 (ix2 d' e) := by
  unfold k1_pay4
  rw [shapeCast_self_apply, truncf_apply, mmQ_apply]
  refine Finset.sum_congr rfl fun d' _ => ?_
  rw [truncf_apply, truncf_apply, shapeCast_self_apply, shapeCast_1ab_ab_apply]

/-- The maximum's reset value is −∞ in every row. -/
theorem pay5_apply (r : Fin 512) : k1_pay5 (F := Ideal) (ix2 r 0) = ⊥ := by
  unfold k1_pay5
  rw [shapeCast_self_apply, broadcast_apply]
  exact Cert.Proof.Consts.ofBits_neg_inf

/-- The sum's reset value is 0 in every row. -/
theorem pay6_apply (r : Fin 512) : k1_pay6 (F := Ideal) (ix2 r 0) = 0 := by
  unfold k1_pay6
  rw [shapeCast_self_apply, broadcast_apply]
  exact Ideal.ofBits_zero_f32

/-- The weighted sum's reset value is 0 everywhere. -/
theorem pay7_apply (r : Fin 512) (d : Fin 1024) : k1_pay7 (F := Ideal) (ix2 r d) = 0 := by
  unfold k1_pay7
  rw [shapeCast_self_apply, broadcast_apply]
  exact Ideal.ofBits_zero_f32

/-! ## One step of the running computation -/

/-- The score of row `r` against key `k'`: the inner product of the query row and the key row. -/
def sc (qp : FVec Ideal S512x1024 .bf16) (kb : Vec Ideal S1x512x1024 .bf16) (r : Fin 512) (k' : Fin 512) : EReal :=
  ∑ e : Fin 1024, qp (ix2 r e) * kb (ix3 0 k' e)

/-- The new maximum of row `r`: the larger of the running maximum and the largest score of the row. -/
def mN (qp : FVec Ideal S512x1024 .bf16) (kb : Vec Ideal S1x512x1024 .bf16) (mo : Vec Ideal S512x1 .f32) (r : Fin 512) : EReal :=
  max (mo (ix2 r 0)) ((Finset.univ : Finset (Fin 512)).fold max ⊥ (fun k' => sc qp kb r k'))

/-- The scores' product at `(r, k')` is the score: the right operand is the key block with its unit axis
    dropped and its two axes exchanged, so at `(e, k')` it is the key block at `(0, k', e)`. -/
theorem pay9_apply (qp : FVec Ideal S512x1024 .bf16) (kb : Vec Ideal S1x512x1024 .bf16) (r : Fin 512) (k' : Fin 512) :
    (k1_pay9 qp kb) (ix2 r k') = sc qp kb r k' := by
  unfold k1_pay9 sc
  rw [mmS_apply]
  refine Finset.sum_congr rfl fun e _ => ?_
  rw [transpose_ix2_apply, shapeCast_1ab_ab_apply]

/-- The new maximum at row `r`, whatever the unit coordinate. -/
theorem pay10_apply (qp : FVec Ideal S512x1024 .bf16) (kb : Vec Ideal S1x512x1024 .bf16) (mo : Vec Ideal S512x1 .f32)
    (r : Fin 512) (u : Fin 1) : (k1_pay10 qp kb mo) (ix2 r u) = mN qp kb mo r := by
  obtain rfl : u = 0 := Subsingleton.elim _ _
  unfold k1_pay10 mN
  rw [maximumf_apply, shapeCast_a_a1_apply, rowMax_apply]
  exact congrArg (max (mo (ix2 r 0))) (congrArg (fun f => (Finset.univ : Finset (Fin 512)).fold max ⊥ f)
    (funext fun k' => pay9_apply qp kb r k'))

/-- The rescaling factor of row `r`: the exponential of the old maximum `mo'` less the new maximum. -/
theorem pay11_apply (qp : FVec Ideal S512x1024 .bf16) (kb : Vec Ideal S1x512x1024 .bf16) (mo mo' : Vec Ideal S512x1 .f32)
    (r : Fin 512) (u : Fin 1) :
    (k1_pay11 qp kb mo mo') (ix2 r u) = Ideal.exp (mo' (ix2 r u) - mN qp kb mo r) := by
  unfold k1_pay11
  show Ideal.exp (subf mo' (k1_pay10 qp kb mo) (ix2 r u)) = _
  rw [subf_apply, pay10_apply]

/-- The weight of key `k'` in row `r`: the exponential of the score less the new maximum. -/
theorem pay12_apply (qp : FVec Ideal S512x1024 .bf16) (kb : Vec Ideal S1x512x1024 .bf16) (mo : Vec Ideal S512x1 .f32)
    (r : Fin 512) (k' : Fin 512) :
    (k1_pay12 qp kb mo) (ix2 r k') = Ideal.exp (sc qp kb r k' - mN qp kb mo r) := by
  unfold k1_pay12
  show Ideal.exp (subf (k1_pay9 qp kb) (broadcastTo S512x512 (k1_pay10 qp kb mo) _) (ix2 r k')) = _
  rw [subf_apply, pay9_apply, broadcastTo_a1_ab_apply, pay10_apply]

/-- The new maximum, as stored. -/
theorem mNext_apply (qp : FVec Ideal S512x1024 .bf16) (kb : Vec Ideal S1x512x1024 .bf16) (mo : Vec Ideal S512x1 .f32) (r : Fin 512) :
    (k1_pay2 (k1_pay10 qp kb mo)) (ix2 r 0) = mN qp kb mo r := by
  unfold k1_pay2
  rw [shapeCast_self_apply, pay10_apply]

/-- The new sum, as stored: the old sum rescaled plus the sum of the row's weights. -/
theorem lNext_apply (qp : FVec Ideal S512x1024 .bf16) (kb : Vec Ideal S1x512x1024 .bf16) (mo lo : Vec Ideal S512x1 .f32) (r : Fin 512) :
    (k1_pay13 qp kb mo mo lo) (ix2 r 0)
      = Ideal.exp (mo (ix2 r 0) - mN qp kb mo r) * lo (ix2 r 0) + ∑ k' : Fin 512, Ideal.exp (sc qp kb r k' - mN qp kb mo r) := by
  unfold k1_pay13
  rw [shapeCast_self_apply, addf_apply, mulf_apply, pay11_apply, shapeCast_a_a1_apply, rowSum_apply]
  exact congrArg (Ideal.exp (mo (ix2 r 0) - mN qp kb mo r) * lo (ix2 r 0) + ·)
    (Finset.sum_congr rfl fun k' _ => pay12_apply qp kb mo r k')

/-- The old weighted sum rescaled, at `(r, d)`. -/
theorem pay14_apply (qp : FVec Ideal S512x1024 .bf16) (kb : Vec Ideal S1x512x1024 .bf16) (mo mo' : Vec Ideal S512x1 .f32)
    (ao : Vec Ideal S512x1024 .f32) (r : Fin 512) (d : Fin 1024) :
    (k1_pay14 qp kb mo mo' ao) (ix2 r d) = Ideal.exp (mo' (ix2 r 0) - mN qp kb mo r) * ao (ix2 r d) := by
  unfold k1_pay14
  rw [mulf_apply, broadcastTo_a1_ab_apply, pay11_apply]

/-- The new weighted sum, as stored: the old one rescaled plus the weights times the value block. -/
theorem aNext_apply (qp : FVec Ideal S512x1024 .bf16) (kb vb : Vec Ideal S1x512x1024 .bf16) (mo : Vec Ideal S512x1 .f32)
    (ao : Vec Ideal S512x1024 .f32) (r : Fin 512) (d : Fin 1024) :
    (k1_pay1 (k1_pay8 vb) (k1_pay14 qp kb mo mo ao) (k1_pay15 qp kb mo)) (ix2 r d)
      = Ideal.exp (mo (ix2 r 0) - mN qp kb mo r) * ao (ix2 r d)
        + ∑ k' : Fin 512, Ideal.exp (sc qp kb r k' - mN qp kb mo r) * vb (ix3 0 k' d) := by
  unfold k1_pay1
  rw [shapeCast_self_apply, addf_apply, pay14_apply, mmV_apply]
  refine congrArg (Ideal.exp (mo (ix2 r 0) - mN qp kb mo r) * ao (ix2 r d) + ·) (Finset.sum_congr rfl fun k' _ => ?_)
  unfold k1_pay15 k1_pay8
  rw [truncf_apply, pay12_apply, shapeCast_1ab_ab_apply]

end Cert.KernelIdeal.Payloads

end
-- ==== Proof.LibOnlineSoftmax.lean ====
/-
  The online-softmax law, as pure mathematics on the extended reals.

  A softmax-weighted sum over a row of scores can be computed in one pass over blocks of the row,
  keeping three running quantities: a reference level m, a sum l and a weighted sum a.  A block with
  scores s k and values v k updates them by
      m' = max m (max_k s k),
      l' = exp (m - m') · l + Σ_k exp (s k - m'),
      a' = exp (m - m') · a + Σ_k exp (s k - m') · v k,
  starting from m = -∞, l = 0, a = 0.  When every score and value is a real number, after any number
  of blocks the state is
      m = a real M,   l = exp (-M) · Z,   a = exp (-M) · W,
  where Z = Σ exp (s k) and W = Σ exp (s k) · v k over the keys seen so far: the rescaling factor
  exp (M - M') turns exp (-M) into exp (-M'), and exp (s k - M') = exp (-M') · exp (s k).  This holds
  whatever real the level M is, so nothing is needed of the running maximum beyond its being real.
  Hence a / l = W / Z, the plain softmax-weighted sum Σ (exp (s k) / Σ exp (s k')) · v k.

  This file states the update as the function step, proves the invariant for the first block and for a
  later block, and concludes the four-block law online_eq_softmax.
-/
import Idealize.ShloMosaic.PureOps.Ideal
import Idealize.ShloMosaic.PureOps.Ideal.Laws

noncomputable section

namespace Cert.Proof.OnlineSoftmax

open Idealize.ShloMosaic

/-- One block of the one-pass computation: the new level, the rescaled sum plus the block's
    exponentials, the rescaled weighted sum plus the block's weighted exponentials. -/
def step {B : ℕ} (st : EReal × EReal × EReal) (s v : Fin B → EReal) : EReal × EReal × EReal :=
  let mN := max st.1 ((Finset.univ : Finset (Fin B)).fold max ⊥ s)
  let al := Ideal.exp (st.1 - mN)
  (mN, al * st.2.1 + ∑ k : Fin B, Ideal.exp (s k - mN), al * st.2.2 + ∑ k : Fin B, Ideal.exp (s k - mN) * v k)

/-- The coercion of a finite sum of reals is the sum of the coercions. -/
theorem coe_finset_sum {ι : Type*} (t : Finset ι) (f : ι → ℝ) :
    ((∑ k ∈ t, f k : ℝ) : EReal) = ∑ k ∈ t, (f k : EReal) := by
  classical
  refine Finset.induction_on t ?_ ?_
  · simp
  · intro a t ha ih
    rw [Finset.sum_insert ha, Finset.sum_insert ha, EReal.coe_add, ih]

/-- The coercion of the larger of two reals is the larger of the coercions. -/
theorem coe_max (x y : ℝ) : ((max x y : ℝ) : EReal) = max (x : EReal) (y : EReal) :=
  EReal.coe_strictMono.monotone.map_max

/-- The maximum of a real with the running maximum of finitely many reals (from -∞) is a real. -/
theorem max_fold_coe {B : ℕ} (s : Fin B → ℝ) (t : Finset (Fin B)) :
    ∀ x : ℝ, ∃ M : ℝ, max (x : EReal) (t.fold max ⊥ (fun k => (s k : EReal))) = (M : EReal) := by
  classical
  refine Finset.induction_on t ?_ ?_
  · intro x
    exact ⟨x, by simp⟩
  · intro a t ha ih x
    obtain ⟨M, hM⟩ := ih (max x (s a))
    refine ⟨M, ?_⟩
    rw [Finset.fold_insert ha, ← max_assoc, ← coe_max, hM]

/-- The running maximum (from -∞) of a nonempty block of reals is a real. -/
theorem fold_coe {B : ℕ} (hB : 0 < B) (s : Fin B → ℝ) :
    ∃ M : ℝ, (Finset.univ : Finset (Fin B)).fold max ⊥ (fun k => (s k : EReal)) = (M : EReal) := by
  classical
  have h : (Finset.univ : Finset (Fin B)) = insert ⟨0, hB⟩ (Finset.univ.erase ⟨0, hB⟩) := by
    rw [Finset.insert_erase (Finset.mem_univ _)]
  rw [h, Finset.fold_insert (Finset.notMem_erase _ _)]
  exact max_fold_coe s _ (s ⟨0, hB⟩)

/-- A block's sum of exponentials relative to a real level, as a real. -/
theorem sum_exp_sub {B : ℕ} (s : Fin B → ℝ) (M' : ℝ) :
    ∑ k : Fin B, Ideal.exp ((s k : EReal) - (M' : EReal))
      = ((Real.exp (-M') * ∑ k, Real.exp (s k) : ℝ) : EReal) := by
  rw [Finset.mul_sum, coe_finset_sum]
  refine Finset.sum_congr rfl (fun k _ => ?_)
  rw [← EReal.coe_sub, Ideal.exp_coe, ← Real.exp_add]
  congr 2
  ring

/-- A block's weighted sum of exponentials relative to a real level, as a real. -/
theorem sum_exp_sub_mul {B : ℕ} (s v : Fin B → ℝ) (M' : ℝ) :
    ∑ k : Fin B, Ideal.exp ((s k : EReal) - (M' : EReal)) * (v k : EReal)
      = ((Real.exp (-M') * ∑ k, Real.exp (s k) * v k : ℝ) : EReal) := by
  rw [Finset.mul_sum, coe_finset_sum]
  refine Finset.sum_congr rfl (fun k _ => ?_)
  rw [← EReal.coe_sub, Ideal.exp_coe, ← EReal.coe_mul, ← mul_assoc, ← Real.exp_add]
  congr 3
  ring

/-- The first block: from (-∞, 0, 0) the state becomes (M', exp (-M') · Z, exp (-M') · W) for a real M',
    with Z and W the block's sum of exponentials and weighted sum of exponentials. -/
theorem step_init {B : ℕ} (hB : 0 < B) (s v : Fin B → ℝ) :
    ∃ M' : ℝ, step ((⊥ : EReal), (0 : EReal), (0 : EReal)) (fun k => (s k : EReal)) (fun k => (v k : EReal))
      = ((M' : EReal), ((Real.exp (-M') * (∑ k, Real.exp (s k)) : ℝ) : EReal),
          ((Real.exp (-M') * (∑ k, Real.exp (s k) * v k) : ℝ) : EReal)) := by
  obtain ⟨M', hM'⟩ := fold_coe hB s
  refine ⟨M', ?_⟩
  unfold step
  dsimp only
  rw [hM', max_bot_left, EReal.bot_sub, Ideal.exp_bot, zero_mul, zero_add, zero_add,
    sum_exp_sub, sum_exp_sub_mul]

/-- A later block: from (M, exp (-M) · Z, exp (-M) · W) the state becomes
    (M', exp (-M') · (Z + block sum), exp (-M') · (W + block weighted sum)) for a real M'. -/
theorem step_coe {B : ℕ} (M Z W : ℝ) (s v : Fin B → ℝ) :
    ∃ M' : ℝ, step ((M : EReal), ((Real.exp (-M) * Z : ℝ) : EReal), ((Real.exp (-M) * W : ℝ) : EReal))
        (fun k => (s k : EReal)) (fun k => (v k : EReal))
      = ((M' : EReal), ((Real.exp (-M') * (Z + ∑ k, Real.exp (s k)) : ℝ) : EReal),
          ((Real.exp (-M') * (W + ∑ k, Real.exp (s k) * v k) : ℝ) : EReal)) := by
  obtain ⟨M', hM'⟩ := max_fold_coe s Finset.univ M
  refine ⟨M', ?_⟩
  have e2 : Real.exp (M - M') * Real.exp (-M) = Real.exp (-M') := by
    rw [← Real.exp_add]
    congr 1
    ring
  have r1 : Real.exp (M - M') * (Real.exp (-M) * Z) + Real.exp (-M') * ∑ k, Real.exp (s k)
      = Real.exp (-M') * (Z + ∑ k, Real.exp (s k)) := by
    rw [← mul_assoc, e2, mul_add]
  have r2 : Real.exp (M - M') * (Real.exp (-M) * W) + Real.exp (-M') * ∑ k, Real.exp (s k) * v k
      = Real.exp (-M') * (W + ∑ k, Real.exp (s k) * v k) := by
    rw [← mul_assoc, e2, mul_add]
  unfold step
  dsimp only
  rw [hM', ← EReal.coe_sub, Ideal.exp_coe, sum_exp_sub, sum_exp_sub_mul,
    ← EReal.coe_mul, ← EReal.coe_mul, ← EReal.coe_add, ← EReal.coe_add, r1, r2]

/-! ### Four blocks -/

section Four
variable {B : ℕ} (s v : Fin 4 → Fin B → ℝ)

/-- The state after the first block. -/
def st1 : EReal × EReal × EReal :=
  step ((⊥ : EReal), (0 : EReal), (0 : EReal)) (fun k => ((s 0 k : ℝ) : EReal)) (fun k => ((v 0 k : ℝ) : EReal))
/-- The state after the second block. -/
def st2 : EReal × EReal × EReal :=
  step (st1 s v) (fun k => ((s 1 k : ℝ) : EReal)) (fun k => ((v 1 k : ℝ) : EReal))
/-- The state after the third block. -/
def st3 : EReal × EReal × EReal :=
  step (st2 s v) (fun k => ((s 2 k : ℝ) : EReal)) (fun k => ((v 2 k : ℝ) : EReal))
/-- The state after the fourth block. -/
def st4 : EReal × EReal × EReal :=
  step (st3 s v) (fun k => ((s 3 k : ℝ) : EReal)) (fun k => ((v 3 k : ℝ) : EReal))

/-- The sum of exponentials of block j. -/
def Zb (j : Fin 4) : ℝ := ∑ k : Fin B, Real.exp (s j k)
/-- The weighted sum of exponentials of block j. -/
def Wb (j : Fin 4) : ℝ := ∑ k : Fin B, Real.exp (s j k) * v j k

theorem Zb_pos (hB : 0 < B) (j : Fin 4) : 0 < Zb s j :=
  Finset.sum_pos (fun k _ => Real.exp_pos _) ⟨⟨0, hB⟩, Finset.mem_univ _⟩

/-- The four states in closed form: each is (M, exp (-M) · Z, exp (-M) · W) for a real level M, with Z and W
    the sum of exponentials and the weighted sum of exponentials over the blocks seen so far. -/
theorem states_closed (hB : 0 < B) :
    ∃ M0 M1 M2 M3 : ℝ,
      st1 s v = ((M0 : EReal), ((Real.exp (-M0) * Zb s 0 : ℝ) : EReal), ((Real.exp (-M0) * Wb s v 0 : ℝ) : EReal))
      ∧ st2 s v = ((M1 : EReal), ((Real.exp (-M1) * (Zb s 0 + Zb s 1) : ℝ) : EReal),
          ((Real.exp (-M1) * (Wb s v 0 + Wb s v 1) : ℝ) : EReal))
      ∧ st3 s v = ((M2 : EReal), ((Real.exp (-M2) * (Zb s 0 + Zb s 1 + Zb s 2) : ℝ) : EReal),
          ((Real.exp (-M2) * (Wb s v 0 + Wb s v 1 + Wb s v 2) : ℝ) : EReal))
      ∧ st4 s v = ((M3 : EReal), ((Real.exp (-M3) * (Zb s 0 + Zb s 1 + Zb s 2 + Zb s 3) : ℝ) : EReal),
          ((Real.exp (-M3) * (Wb s v 0 + Wb s v 1 + Wb s v 2 + Wb s v 3) : ℝ) : EReal)) := by
  obtain ⟨M0, h0⟩ := step_init hB (s 0) (v 0)
  obtain ⟨M1, h1⟩ := step_coe M0 (Zb s 0) (Wb s v 0) (s 1) (v 1)
  obtain ⟨M2, h2⟩ := step_coe M1 (Zb s 0 + Zb s 1) (Wb s v 0 + Wb s v 1) (s 2) (v 2)
  obtain ⟨M3, h3⟩ := step_coe M2 (Zb s 0 + Zb s 1 + Zb s 2) (Wb s v 0 + Wb s v 1 + Wb s v 2) (s 3) (v 3)
  have e1 : st1 s v
      = ((M0 : EReal), ((Real.exp (-M0) * Zb s 0 : ℝ) : EReal), ((Real.exp (-M0) * Wb s v 0 : ℝ) : EReal)) := h0
  have e2 : st2 s v = ((M1 : EReal), ((Real.exp (-M1) * (Zb s 0 + Zb s 1) : ℝ) : EReal),
      ((Real.exp (-M1) * (Wb s v 0 + Wb s v 1) : ℝ) : EReal)) := by
    rw [st2, e1]; exact h1
  have e3 : st3 s v = ((M2 : EReal), ((Real.exp (-M2) * (Zb s 0 + Zb s 1 + Zb s 2) : ℝ) : EReal),
      ((Real.exp (-M2) * (Wb s v 0 + Wb s v 1 + Wb s v 2) : ℝ) : EReal)) := by
    rw [st3, e2]; exact h2
  have e4 : st4 s v = ((M3 : EReal), ((Real.exp (-M3) * (Zb s 0 + Zb s 1 + Zb s 2 + Zb s 3) : ℝ) : EReal),
      ((Real.exp (-M3) * (Wb s v 0 + Wb s v 1 + Wb s v 2 + Wb s v 3) : ℝ) : EReal)) := by
    rw [st4, e3]; exact h3
  exact ⟨M0, M1, M2, M3, e1, e2, e3, e4⟩

/-- After each of the four blocks the three components of the state are real numbers, and the running sum is positive. -/
theorem states_real (hB : 0 < B) :
    ∃ M L A : Fin 4 → ℝ, (∀ j, 0 < L j)
      ∧ st1 s v = ((M 0 : EReal), (L 0 : EReal), (A 0 : EReal))
      ∧ st2 s v = ((M 1 : EReal), (L 1 : EReal), (A 1 : EReal))
      ∧ st3 s v = ((M 2 : EReal), (L 2 : EReal), (A 2 : EReal))
      ∧ st4 s v = ((M 3 : EReal), (L 3 : EReal), (A 3 : EReal)) := by
  obtain ⟨M0, M1, M2, M3, e1, e2, e3, e4⟩ := states_closed s v hB
  have p := Zb_pos s hB
  refine ⟨![M0, M1, M2, M3],
    ![Real.exp (-M0) * Zb s 0, Real.exp (-M1) * (Zb s 0 + Zb s 1), Real.exp (-M2) * (Zb s 0 + Zb s 1 + Zb s 2),
      Real.exp (-M3) * (Zb s 0 + Zb s 1 + Zb s 2 + Zb s 3)],
    ![Real.exp (-M0) * Wb s v 0, Real.exp (-M1) * (Wb s v 0 + Wb s v 1),
      Real.exp (-M2) * (Wb s v 0 + Wb s v 1 + Wb s v 2),
      Real.exp (-M3) * (Wb s v 0 + Wb s v 1 + Wb s v 2 + Wb s v 3)], ?_, e1, e2, e3, e4⟩
  intro j
  have p0 := p 0; have p1 := p 1; have p2 := p 2; have p3 := p 3
  fin_cases j
  · exact mul_pos (Real.exp_pos _) p0
  · exact mul_pos (Real.exp_pos _) (by positivity)
  · exact mul_pos (Real.exp_pos _) (by positivity)
  · exact mul_pos (Real.exp_pos _) (by positivity)

/-- The four-block law on the named states: the final weighted sum over the final sum is the softmax-weighted sum. -/
theorem online_eq_softmax_st (hB : 0 < B) :
    Ideal.div (st4 s v).2.2 (st4 s v).2.1
      = ∑ j : Fin 4, ∑ k : Fin B, Ideal.div (Ideal.exp ((s j k : ℝ) : EReal))
          ((0 : EReal) + ∑ j' : Fin 4, ∑ k' : Fin B, Ideal.exp ((s j' k' : ℝ) : EReal)) * ((v j k : ℝ) : EReal) := by
  obtain ⟨M0, M1, M2, M3, -, -, -, e4⟩ := states_closed s v hB
  have p0 := Zb_pos s hB 0; have p1 := Zb_pos s hB 1; have p2 := Zb_pos s hB 2; have p3 := Zb_pos s hB 3
  set Z : ℝ := Zb s 0 + Zb s 1 + Zb s 2 + Zb s 3 with hZdef
  have hZpos : 0 < Z := by positivity
  have hE : 0 < Real.exp (-M3) := Real.exp_pos _
  -- the reference's normalizer is the real number Z
  have hden : (0 : EReal) + ∑ j' : Fin 4, ∑ k' : Fin B, Ideal.exp ((s j' k' : ℝ) : EReal) = (Z : EReal) := by
    rw [zero_add, hZdef, Fin.sum_univ_four, EReal.coe_add, EReal.coe_add, EReal.coe_add]
    simp only [Zb, coe_finset_sum, Ideal.exp_coe]
  rw [e4, hden]
  dsimp only
  rw [Ideal.div_coe (ne_of_gt (mul_pos hE hZpos)), ← EReal.coe_mul]
  -- each reference term is a real number
  have hterm : ∀ j : Fin 4, ∑ k : Fin B, Ideal.div (Ideal.exp ((s j k : ℝ) : EReal)) (Z : EReal) * ((v j k : ℝ) : EReal)
      = ((1 / Z * Wb s v j : ℝ) : EReal) := by
    intro j
    rw [Wb, Finset.mul_sum, coe_finset_sum]
    refine Finset.sum_congr rfl (fun k _ => ?_)
    rw [Ideal.div_coe (ne_of_gt hZpos), Ideal.exp_coe, ← EReal.coe_mul, ← EReal.coe_mul]
    congr 1
    ring
  rw [Fin.sum_univ_four, hterm 0, hterm 1, hterm 2, hterm 3, ← EReal.coe_add, ← EReal.coe_add, ← EReal.coe_add]
  congr 1
  field_simp

end Four

/-- The four-block law: starting from (-∞, 0, 0) and running four blocks of real scores and values, the final
    weighted sum divided by the final sum is the softmax-weighted sum of the values over all keys. -/
theorem online_eq_softmax {B : ℕ} (hB : 0 < B) (s v : Fin 4 → Fin B → ℝ) :
    let S : Fin 4 → Fin B → EReal := fun j k => ((s j k : ℝ) : EReal)
    let Vv : Fin 4 → Fin B → EReal := fun j k => ((v j k : ℝ) : EReal)
    let st4 := step (step (step (step ((⊥ : EReal), (0 : EReal), (0 : EReal)) (S 0) (Vv 0)) (S 1) (Vv 1)) (S 2) (Vv 2)) (S 3) (Vv 3)
    Ideal.div st4.2.2 st4.2.1
      = ∑ j : Fin 4, ∑ k : Fin B, Ideal.div (Ideal.exp (S j k)) ((0 : EReal) + ∑ j' : Fin 4, ∑ k' : Fin B, Ideal.exp (S j' k')) * Vv j k := by
  intro S Vv st4
  exact online_eq_softmax_st s v hB

end Cert.Proof.OnlineSoftmax
-- ==== Proof.KITri.lean ====
/-
  The attention region at the ideal instance, one query row and one output feature at a time.

  For row r of a query block and feature d, the triple (running maximum at r, running sum at r, running
  weighted sum at (r, d)) after a grid point is one online-softmax step from the triple after the point
  before — from (−∞, 0, 0) at the first key block of a row — over the scores of row r against the point's 512
  keys and the point's 512 values of feature d. At a row's last point the output entry at (r, d) is the
  weighted sum divided by the sum: four nested steps over the row's four key blocks.
-/
import proofs.«178921_j33646773797609_2_alg».proof.Proof.KIBlocks
import proofs.«178921_j33646773797609_2_alg».proof.Proof.KIPayloads
import proofs.«178921_j33646773797609_2_alg».proof.Proof.LibOnlineSoftmax

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Payloads Cert.Proof.OnlineSoftmax

variable (V : (c : Dev nD) → (b : Ref sig .tc) → Buf (Elt Ideal) ((c : Thread nD τ).loc b))

/-- The triple for row `r` and feature `d` after point `t`. -/
def tri (c : Dev nD) (t : Fin cfg1.N) (r : Fin 512) (d : Fin 1024) : EReal × EReal × EReal :=
  (stM V c t (ix2 r 0), stL V c t (ix2 r 0), stA V c t (ix2 r d))

/-- The scores of row `r` of the projected queries `qp` against the 512 keys of point `t`'s block. -/
abbrev scAt (c : Dev nD) (qp : Vec Ideal S512x1024 .bf16) (t : Fin cfg1.N) (r : Fin 512) : Fin 512 → EReal :=
  fun k' => sc qp (iblk1 V c 2 t) r k'
/-- Feature `d` of the 512 values of point `t`'s block. -/
abbrev vAt (c : Dev nD) (t : Fin cfg1.N) (d : Fin 1024) : Fin 512 → EReal :=
  fun k' => iblk1 V c 3 t (ix3 0 k' d)

theorem tri_A (c : Dev nD) (t : Fin cfg1.N) (h0 : t.val % 4 = 0) (h1 : ¬t.val % 4 = 3) (r : Fin 512) (d : Fin 1024) :
    tri V c t r d = step ((⊥ : EReal), (0 : EReal), (0 : EReal)) (scAt V c (qpOf (iblk1 V c 0 t) (iblk1 V c 1 t)) t r) (vAt V c t d) := by
  unfold tri
  rw [stM_A V c t h0 h1, stL_A V c t h0 h1, stA_A V c t h0 h1]
  unfold mNext lNext aNext
  rw [mNext_apply, lNext_apply, aNext_apply]
  unfold mN
  rw [pay5_apply, pay6_apply, pay7_apply]
  rfl

theorem tri_B (c : Dev nD) (t : Fin cfg1.N) (h0 : ¬t.val % 4 = 0) (h1 : ¬t.val % 4 = 3) (r : Fin 512) (d : Fin 1024) :
    tri V c t r d = step (tri V c (prevPt t) r d) (scAt V c (stQ V c (prevPt t)) t r) (vAt V c t d) := by
  unfold tri
  rw [stM_B V c t h0 h1, stL_B V c t h0 h1, stA_B V c t h0 h1]
  unfold mNext lNext aNext
  rw [mNext_apply, lNext_apply, aNext_apply]
  rfl

theorem tri_C (c : Dev nD) (t : Fin cfg1.N) (h0 : ¬t.val % 4 = 0) (h1 : t.val % 4 = 3) (r : Fin 512) (d : Fin 1024) :
    tri V c t r d = step (tri V c (prevPt t) r d) (scAt V c (stQ V c (prevPt t)) t r) (vAt V c t d) := by
  unfold tri
  rw [stM_C V c t h0 h1, stL_C V c t h0 h1, stA_C V c t h0 h1]
  unfold mNext lNext aNext
  rw [mNext_apply, lNext_apply, aNext_apply]
  rfl

theorem out_C (c : Dev nD) (t : Fin cfg1.N) (h0 : ¬t.val % 4 = 0) (h1 : t.val % 4 = 3) (r : Fin 512) (d : Fin 1024) :
    stO V c t (ix3 0 r d) = Ideal.div (tri V c t r d).2.2 (tri V c t r d).2.1 := by
  show _ = Ideal.div (stA V c t (ix2 r d)) (stL V c t (ix2 r 0))
  rw [stO_C V c t h0 h1]
  unfold outOf
  rw [outOf_apply, ← stA_C V c t h0 h1, ← stL_C V c t h0 h1]

/-- At a row's last point: the output entry is the quotient after four nested steps over the row's blocks. -/
theorem flush_apply (c : Dev nD) (t : Fin cfg1.N) (h3 : t.val % 4 = 3) (r : Fin 512) (d : Fin 1024) :
    stO V c t (ix3 0 r d)
      = Ideal.div
          (step (step (step (step ((⊥ : EReal), (0 : EReal), (0 : EReal))
            (scAt V c (qpOf (iblk1 V c 0 (prevPt (prevPt (prevPt t)))) (iblk1 V c 1 (prevPt (prevPt (prevPt t))))) (prevPt (prevPt (prevPt t))) r) (vAt V c (prevPt (prevPt (prevPt t))) d))
            (scAt V c (qpOf (iblk1 V c 0 (prevPt (prevPt (prevPt t)))) (iblk1 V c 1 (prevPt (prevPt (prevPt t))))) (prevPt (prevPt t)) r) (vAt V c (prevPt (prevPt t)) d))
            (scAt V c (qpOf (iblk1 V c 0 (prevPt (prevPt (prevPt t)))) (iblk1 V c 1 (prevPt (prevPt (prevPt t))))) (prevPt t) r) (vAt V c (prevPt t) d))
            (scAt V c (qpOf (iblk1 V c 0 (prevPt (prevPt (prevPt t)))) (iblk1 V c 1 (prevPt (prevPt (prevPt t))))) t r) (vAt V c t d)).2.2
          (step (step (step (step ((⊥ : EReal), (0 : EReal), (0 : EReal))
            (scAt V c (qpOf (iblk1 V c 0 (prevPt (prevPt (prevPt t)))) (iblk1 V c 1 (prevPt (prevPt (prevPt t))))) (prevPt (prevPt (prevPt t))) r) (vAt V c (prevPt (prevPt (prevPt t))) d))
            (scAt V c (qpOf (iblk1 V c 0 (prevPt (prevPt (prevPt t)))) (iblk1 V c 1 (prevPt (prevPt (prevPt t))))) (prevPt (prevPt t)) r) (vAt V c (prevPt (prevPt t)) d))
            (scAt V c (qpOf (iblk1 V c 0 (prevPt (prevPt (prevPt t)))) (iblk1 V c 1 (prevPt (prevPt (prevPt t))))) (prevPt t) r) (vAt V c (prevPt t) d))
            (scAt V c (qpOf (iblk1 V c 0 (prevPt (prevPt (prevPt t)))) (iblk1 V c 1 (prevPt (prevPt (prevPt t))))) t r) (vAt V c t d)).2.1 := by
  have g3 : ¬t.val % 4 = 0 := by omega
  have a2 : ¬(prevPt t).val % 4 = 0 := by show ¬(t.val - 1) % 4 = 0; omega
  have b2 : ¬(prevPt t).val % 4 = 3 := by show ¬(t.val - 1) % 4 = 3; omega
  have a1 : ¬(prevPt (prevPt t)).val % 4 = 0 := by show ¬(t.val - 1 - 1) % 4 = 0; omega
  have b1 : ¬(prevPt (prevPt t)).val % 4 = 3 := by show ¬(t.val - 1 - 1) % 4 = 3; omega
  have a0 : (prevPt (prevPt (prevPt t))).val % 4 = 0 := by show (t.val - 1 - 1 - 1) % 4 = 0; omega
  have b0 : ¬(prevPt (prevPt (prevPt t))).val % 4 = 3 := by show ¬(t.val - 1 - 1 - 1) % 4 = 3; omega
  have q0 := stQ_A V c (prevPt (prevPt (prevPt t))) a0 b0
  have q1 := (stQ_B V c (prevPt (prevPt t)) a1 b1).trans q0
  have q2 := (stQ_B V c (prevPt t) a2 b2).trans q1
  rw [out_C V c t g3 h3 r d, tri_C V c t g3 h3 r d, tri_B V c (prevPt t) a2 b2 r d, tri_B V c (prevPt (prevPt t)) a1 b1 r d,
    tri_A V c (prevPt (prevPt (prevPt t))) a0 b0 r d, q2, q1, q0]

end Cert.KernelIdeal.Hand

end
-- ==== Proof.KIRegion0.lean ====
/-
  The first kernel region (the K and V projections), at a parameter `V`: the contents of the
  TensorCore's buffers when the region is entered.

  The grid is 2 × 4. At point (p, i) the body multiplies rows [2048·i, 2048·(i+1)) of input p
  (p = 0: the keys' rows, p = 1: the values' rows, each as an 8192 × 1024 matrix) by the 1024 × 1024
  matrix p of the transposed weights and stores the 2048 × 1024 product, whole, into the output
  window's buffer. Nothing is kept between points, so what the output buffer holds after the body is a
  function of the two input blocks alone.
-/
import proofs.«178921_j33646773797609_2_alg».proof.Proof.Gen.KernelIdeal.Launch
import proofs.«178921_j33646773797609_2_alg».proof.Proof.Gen.KernelIdeal.Skeleton
import proofs.«178921_j33646773797609_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' window: its current buffer holds its block at every point, whether fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' window (its block index moves only with the first grid coordinate): the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S1x2048x1024 := Rect.unit (s := S1x2048x1024) ![0, 0, 0] S1x2048x1024.size inb_S1x2048x1024_S1x2048x1024_0_0_0
abbrev r0_w : Rect S1x1024x1024 := Rect.unit (s := S1x1024x1024) ![0, 0, 0] S1x1024x1024.size inb_S1x1024x1024_S1x1024x1024_0_0_0

/-- What the body leaves in the output window's buffer: its one store, of the product of the two
    loaded blocks. -/
def out0_2 (x0 : Vec F S1x2048x1024 .f32) (x1 : Vec F S1x1024x1024 .f32) : Vec F S1x2048x1024 .bf16 :=
  View.canon [⟨r0_x, k0_pay1 (View.ld x0 r0_x) (View.ld x1 r0_w)⟩]

/-- The one store covers the buffer. -/
theorem cover0_2 (p0 : Vec F S1x2048x1024 .bf16) (y : S1x2048x1024.Idx) :
    ∃ pc ∈ ([⟨r0_x, p0⟩] : List (View.Piece (Elt F) S1x2048x1024 .bf16)), y ∈ pc.1.set :=
  View.cover_of_tiled [⟨r0_x, p0⟩] S1x2048x1024.size (by rfl) y

/-! ## The body's triple -/

set_option maxHeartbeats 4000000 in
/-- On whole buffers — the inputs' at contents `x0`, `x1`, the output's at anything — the body runs to
    its continuation with the inputs' buffers as they were and the output's at `out0_2 x0 x1`. -/
theorem sound_kernel0 (c : Dev nD) (E : Set ℕ) (i : grid0.Coords)
    (arg2 : Memref sig .tc .vmem S1x2048x1024 .f32) (harg2 : arg2.IsWhole)
    (arg3 : Memref sig .tc .vmem S1x1024x1024 .f32) (harg3 : arg3.IsWhole)
    (arg4 : Memref sig .tc .vmem S1x2048x1024 .bf16) (harg4 : arg4.IsWhole)
    (x0 : Vec F S1x2048x1024 .f32) (x1 : Vec F S1x1024x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__kv_proj_kernel i arg2 harg2 arg3 harg3 arg4 harg4) K := by
  simp only [cc0__kv_proj_kernel_eq_skeleton]; unfold cc0__kv_proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The arrays as the region finds them; after the body at point `t` each input's buffer at its block and
    the output's at `out0_2` of the two input blocks; the invariant is the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIBody1.lean ====
/-
  The second kernel region's body obligation: at every grid point the body, handed the invariant and the
  windows' current buffers at what the proof data say they hold before it, leaves them at what the proof data
  say they hold after it. The point's position modulo 4 decides which of the three cases it is in.
-/
import proofs.«178921_j33646773797609_2_alg».proof.Proof.KIFrame1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 4 = 0
  · have h1 : ¬t.val % 4 = 3 := by omega
    rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
    rw [outsAt1_A V c t h0 h1]
    unfold stepA sout1_A_0 sout1_A_1 sout1_A_2 sout1_A_3; (try dsimp only)
    by_cases hz : t.val = 0
    ·
      rw [PhiS_castSucc V c t, PhiS_zero V c _ _ hz, PhiA1_eq]
      iintro ⟨⟨⟨Hg1, Hg2, Hg3, Hg4, Hg5, Hg6, HS0, HS1, HS2, HS3⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, ⟨%es3, HS3⟩⟩
      isplitl [Hg1 Hg2 Hg3 Hg4 Hg5 Hg6 HS0 HS1 HS2 HS3 Hg]
      · isplitl [Hg1 Hg2 Hg3 Hg4 Hg5 Hg6 HS0 HS1 HS2 HS3]
        swap; · iexact Hg
        isplitl [Hg1]; · iexact Hg1
        isplitl [Hg2]; · iexact Hg2
        isplitl [Hg3]; · iexact Hg3
        isplitl [Hg4]; · iexact Hg4
        isplitl [Hg5]; · iexact Hg5
        isplitl [Hg6]; · iexact Hg6
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _ _ _ _ _ _)
        unfold owns; iexists _; isplitr
        swap; · iexact HS3
        ipureintro; exact View.read_writes_of_cover _ _ _ _ _ (scover1_A_3 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
    ·
      rw [PhiS_castSucc V c t, PhiS_pos V c _ _ hz]
      iintro ⟨⟨⟨Hg1, Hg2, Hg3, Hg4, Hg5, Hg6, HS0, HS1, HS2, HS3⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%es0, HS0⟩, ⟨%es1, HS1⟩, ⟨%es2, HS2⟩, ⟨%es3, HS3⟩⟩
      isplitl [Hg1 Hg2 Hg3 Hg4 Hg5 Hg6 HS0 HS1 HS2 HS3 Hg]
      · isplitl [Hg1 Hg2 Hg3 Hg4 Hg5 Hg6 HS0 HS1 HS2 HS3]
        swap; · iexact Hg
        isplitl [Hg1]; · iexact Hg1
        isplitl [Hg2]; · iexact Hg2
        isplitl [Hg3]; · iexact Hg3
        isplitl [Hg4]; · iexact Hg4
        isplitl [Hg5]; · iexact Hg5
        isplitl [Hg6]; · iexact Hg6
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_A_2 c _ _ _ _ _ _ _ _ _ _ _ _ _ _ _ _ _ _ _ _ _ _ _ _ _)
        unfold owns; iexists _; isplitr
        swap; · iexact HS3
        ipureintro; exact View.read_writes_of_cover _ _ _ _ _ (scover1_A_3 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 4 = 3
    · rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold stepC out1_C_4 sout1_C_0 sout1_C_1 sout1_C_2; (try dsimp only)
      rw [PhiS_castSucc V c t, PhiS_pos V c _ _ hz]
      iintro ⟨⟨⟨Hg1, Hg2, Hg3, Hg4, Hg5, Hg6, HS0, HS1, HS2, HS3⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%es0, HS0⟩, ⟨%es1, HS1⟩, ⟨%es2, HS2⟩, HS3⟩
      isplitl [Hg1 Hg2 Hg3 Hg4 Hg5 Hg6 HS0 HS1 HS2 HS3 Hg]
      · isplitl [Hg1 Hg2 Hg3 Hg4 Hg5 Hg6 HS0 HS1 HS2 HS3]
        swap; · iexact Hg
        isplitl [Hg1]; · iexact Hg1
        isplitl [Hg2]; · iexact Hg2
        isplitl [Hg3]; · iexact Hg3
        isplitl [Hg4]; · iexact Hg4
        isplitl [Hg5]; · iexact Hg5
        isplitl [Hg6]; · iexact Hg6
        isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_C_2 c _ _ _ _ _ _ _ _ _ _ _ _ _ _ _ _ _ _ _ _ _ _ _ _ _ _ _ _ _)
        iexact HS3
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _ _ _ _ _ _ _ _ _ _)
    · rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold stepB sout1_B_0 sout1_B_1 sout1_B_2; (try dsimp only)
      rw [PhiS_castSucc V c t, PhiS_pos V c _ _ hz]
      iintro ⟨⟨⟨Hg1, Hg2, Hg3, Hg4, Hg5, Hg6, HS0, HS1, HS2, HS3⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%es0, HS0⟩, ⟨%es1, HS1⟩, ⟨%es2, HS2⟩, HS3⟩
      isplitl [Hg1 Hg2 Hg3 Hg4 Hg5 Hg6 HS0 HS1 HS2 HS3 Hg]
      · isplitl [Hg1 Hg2 Hg3 Hg4 Hg5 Hg6 HS0 HS1 HS2 HS3]
        swap; · iexact Hg
        isplitl [Hg1]; · iexact Hg1
        isplitl [Hg2]; · iexact Hg2
        isplitl [Hg3]; · iexact Hg3
        isplitl [Hg4]; · iexact Hg4
        isplitl [Hg5]; · iexact Hg5
        isplitl [Hg6]; · iexact Hg6
        isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _)
        isplitl [HS2]
        · unfold owns; iexists _; isplitr
          swap; · iexact HS2
          ipureintro; exact View.read_writes_of_cover _ _ _ _ _ (scover1_B_2 c _ _ _ _ _ _ _ _ _ _ _ _ _ _ _ _ _ _ _ _ _ _ _ _ _ _ _ _ _)
        iexact HS3
      isplitl [Ho]; · iexact Ho
      isplitl [H0]; · iexact H0
      isplitl [H1]; · iexact H1
      isplitl [H2]; · iexact H2
      isplitl [H3]; · iexact H3
      iexists _; iexact H4

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives that back: the scratch buffers' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨Hg1, Hg2, Hg3, Hg4, Hg5, Hg6, HS0, HS1, HS2, HS3⟩, Hg⟩
  isplitl [Hg1 Hg2 Hg3 Hg4 Hg5 Hg6 HS0 HS1 HS2 HS3]
  swap; · iexact Hg
  isplitl [Hg1]; · iexact Hg1
  isplitl [Hg2]; · iexact Hg2
  isplitl [Hg3]; · iexact Hg3
  isplitl [Hg4]; · iexact Hg4
  isplitl [Hg5]; · iexact Hg5
  isplitl [Hg6]; · iexact Hg6
  isplitl [HS0]; · iexists _; iexact HS0
  isplitl [HS1]; · iexists _; iexact HS1
  isplitl [HS2]; · iexists _; iexact HS2
  iexists _; iexact HS3

end Cert.KernelIdeal.Hand

end
-- ==== Proof.KIRun.lean ====
/-
  The whole run of @main: host operations, the projection region, host operations, the attention region.

  Between two segments every unscoped buffer is held at a named valuation: the launch memory; then what the
  first stretch of host operations computes from it; then the same with the projection region's three arrays
  at what its write-backs leave; then what the second stretch computes from that; then the same with the
  attention region's five arrays at what its write-backs leave. The last valuation is read against the final
  memory, so every unscoped buffer's final contents are named.
-/
import proofs.«178921_j33646773797609_2_alg».proof.Proof.KIRegion0
import proofs.«178921_j33646773797609_2_alg».proof.Proof.KIBody1
import proofs.«178921_j33646773797609_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev Wa0 : Dev nD → Valuation τ sig (Elt F) := fun c b => m (c, b)
abbrev Wa1 : Dev nD → Valuation τ sig (Elt F) := fun c => StableHlo.after hostOps0 (Wa0 m c)
abbrev Va1 : (c : Dev nD) → (b : Ref sig .tc) → Buf (Elt F) ((c : Thread nD τ).loc b) := fun c b => Wa1 m c b
def Wa2 (c : Dev nD) : Valuation τ sig (Elt F) :=
  Pipeline.withArrays spec0 c (Wa1 m c) fun w => (dat0 (Va1 m) c).arrAt w cfg0.N
theorem Wa2_arr (c : Dev nD) (w : Fin cfg0.W) :
    Wa2 m c (Proc.devRef .tc (Pipeline.arrRef spec0 w)) = (dat0 (Va1 m) c).arrAt w cfg0.N := by
  unfold Wa2; exact Pipeline.withArrays_arr spec0 launch0.win.arr_inj c _ _ w
theorem Wa2_of_ne (c : Dev nD) (b : Ref sig .tc) (hb : ∀ w, Pipeline.arrRef spec0 w ≠ b) :
    Wa2 m c (Proc.devRef .tc b) = Wa1 m c (Proc.devRef .tc b) := by
  unfold Wa2; exact Pipeline.withArrays_of_ne spec0 c _ _ b hb
abbrev Va2 : (c : Dev nD) → (b : Ref sig .tc) → Buf (Elt F) ((c : Thread nD τ).loc b) := fun c b => Wa2 m c b
theorem hF0 (c : Dev nD) (w : Fin cfg0.W) : (dat0 (Va1 m) c).arrAt w cfg0.N = Va2 m c (Pipeline.arrRef spec0 w) :=
  (Wa2_arr m c w).symm
theorem hrest0 (c : Dev nD) : ∀ b, b ∉ Finset.univ.image (Pipeline.arrRef spec0) → Va2 m c b = Va1 m c b :=
  fun b hb => Wa2_of_ne m c b fun w e => hb (Finset.mem_image.mpr ⟨w, Finset.mem_univ _, e⟩)

abbrev Wa3 : Dev nD → Valuation τ sig (Elt F) := fun c => StableHlo.after hostOps1 (Wa2 m c)
abbrev Va3 : (c : Dev nD) → (b : Ref sig .tc) → Buf (Elt F) ((c : Thread nD τ).loc b) := fun c b => Wa3 m c b
def Wa4 (c : Dev nD) : Valuation τ sig (Elt F) :=
  Pipeline.withArrays spec1 c (Wa3 m c) fun w => (dat1 (Va3 m) c).arrAt w cfg1.N
theorem Wa4_arr (c : Dev nD) (w : Fin cfg1.W) :
    Wa4 m c (Proc.devRef .tc (Pipeline.arrRef spec1 w)) = (dat1 (Va3 m) c).arrAt w cfg1.N := by
  unfold Wa4; exact Pipeline.withArrays_arr spec1 launch1.win.arr_inj c _ _ w
theorem Wa4_of_ne (c : Dev nD) (b : Ref sig .tc) (hb : ∀ w, Pipeline.arrRef spec1 w ≠ b) :
    Wa4 m c (Proc.devRef .tc b) = Wa3 m c (Proc.devRef .tc b) := by
  unfold Wa4; exact Pipeline.withArrays_of_ne spec1 c _ _ b hb
abbrev Va4 : (c : Dev nD) → (b : Ref sig .tc) → Buf (Elt F) ((c : Thread nD τ).loc b) := fun c b => Wa4 m c b
theorem hF1 (c : Dev nD) (w : Fin cfg1.W) : (dat1 (Va3 m) c).arrAt w cfg1.N = Va4 m c (Pipeline.arrRef spec1 w) :=
  (Wa4_arr m c w).symm
theorem hrest1 (c : Dev nD) : ∀ b, b ∉ Finset.univ.image (Pipeline.arrRef spec1) → Va4 m c b = Va3 m c b :=
  fun b hb => Wa4_of_ne m c b fun w e => hb (Finset.mem_image.mpr ⟨w, Finset.mem_univ _, e⟩)

/-! ## No segment writes an argument array -/

theorem Wa4_main_arg0 (c : Dev nD) : Wa4 m c (Proc.devRef .tc main_arg0) = m ((c : Thread nD τ).loc main_arg0) :=
  calc Wa4 m c (Proc.devRef .tc main_arg0)
    _ = Wa3 m c (Proc.devRef .tc main_arg0) := (Wa4_arr m c 0).trans (((dat1 (Va3 m) c).arrAt_in 0 rfl _).trans (A_eq1 (Va3 m) c 0))
    _ = Wa2 m c (Proc.devRef .tc main_arg0) := StableHlo.after_of_writes_sub hostOps1 _ hostOps1_writes (by decide)
    _ = Wa1 m c (Proc.devRef .tc main_arg0) := Wa2_of_ne m c main_arg0 (by decide)
    _ = Wa0 m c (Proc.devRef .tc main_arg0) := StableHlo.after_of_writes_sub hostOps0 _ hostOps0_writes (by decide)
    _ = m ((c : Thread nD τ).loc main_arg0) := rfl
theorem Wa4_main_arg1 (c : Dev nD) : Wa4 m c (Proc.devRef .tc main_arg1) = m ((c : Thread nD τ).loc main_arg1) :=
  calc Wa4 m c (Proc.devRef .tc main_arg1)
    _ = Wa3 m c (Proc.devRef .tc main_arg1) := Wa4_of_ne m c main_arg1 (by decide)
    _ = Wa2 m c (Proc.devRef .tc main_arg1) := StableHlo.after_of_writes_sub hostOps1 _ hostOps1_writes (by decide)
    _ = Wa1 m c (Proc.devRef .tc main_arg1) := Wa2_of_ne m c main_arg1 (by decide)
    _ = Wa0 m c (Proc.devRef .tc main_arg1) := StableHlo.after_of_writes_sub hostOps0 _ hostOps0_writes (by decide)
    _ = m ((c : Thread nD τ).loc main_arg1) := rfl
theorem Wa4_main_arg2 (c : Dev nD) : Wa4 m c (Proc.devRef .tc main_arg2) = m ((c : Thread nD τ).loc main_arg2) :=
  calc Wa4 m c (Proc.devRef .tc main_arg2)
    _ = Wa3 m c (Proc.devRef .tc main_arg2) := Wa4_of_ne m c main_arg2 (by decide)
    _ = Wa2 m c (Proc.devRef .tc main_arg2) := StableHlo.after_of_writes_sub hostOps1 _ hostOps1_writes (by decide)
    _ = Wa1 m c (Proc.devRef .tc main_arg2) := Wa2_of_ne m c main_arg2 (by decide)
    _ = Wa0 m c (Proc.devRef .tc main_arg2) := StableHlo.after_of_writes_sub hostOps0 _ hostOps0_writes (by decide)
    _ = m ((c : Thread nD τ).loc main_arg2) := rfl
theorem Wa4_main_arg3 (c : Dev nD) : Wa4 m c (Proc.devRef .tc main_arg3) = m ((c : Thread nD τ).loc main_arg3) :=
  calc Wa4 m c (Proc.devRef .tc main_arg3)
    _ = Wa3 m c (Proc.devRef .tc main_arg3) := Wa4_of_ne m c main_arg3 (by decide)
    _ = Wa2 m c (Proc.devRef .tc main_arg3) := StableHlo.after_of_writes_sub hostOps1 _ hostOps1_writes (by decide)
    _ = Wa1 m c (Proc.devRef .tc main_arg3) := Wa2_of_ne m c main_arg3 (by decide)
    _ = Wa0 m c (Proc.devRef .tc main_arg3) := StableHlo.after_of_writes_sub hostOps0 _ hostOps0_writes (by decide)
    _ = m ((c : Thread nD τ).loc main_arg3) := rfl
theorem Wa4_main_arg4 (c : Dev nD) : Wa4 m c (Proc.devRef .tc main_arg4) = m ((c : Thread nD τ).loc main_arg4) :=
  calc Wa4 m c (Proc.devRef .tc main_arg4)
    _ = Wa3 m c (Proc.devRef .tc main_arg4) := Wa4_of_ne m c main_arg4 (by decide)
    _ = Wa2 m c (Proc.devRef .tc main_arg4) := StableHlo.after_of_writes_sub hostOps1 _ hostOps1_writes (by decide)
    _ = Wa1 m c (Proc.devRef .tc main_arg4) := Wa2_of_ne m c main_arg4 (by decide)
    _ = Wa0 m c (Proc.devRef .tc main_arg4) := StableHlo.after_of_writes_sub hostOps0 _ hostOps0_writes (by decide)
    _ = m ((c : Thread nD τ).loc main_arg4) := rfl
theorem Wa4_main_arg5 (c : Dev nD) : Wa4 m c (Proc.devRef .tc main_arg5) = m ((c : Thread nD τ).loc main_arg5) :=
  calc Wa4 m c (Proc.devRef .tc main_arg5)
    _ = Wa3 m c (Proc.devRef .tc main_arg5) := Wa4_of_ne m c main_arg5 (by decide)
    _ = Wa2 m c (Proc.devRef .tc main_arg5) := StableHlo.after_of_writes_sub hostOps1 _ hostOps1_writes (by decide)
    _ = Wa1 m c (Proc.devRef .tc main_arg5) := Wa2_of_ne m c main_arg5 (by decide)
    _ = Wa0 m c (Proc.devRef .tc main_arg5) := StableHlo.after_of_writes_sub hostOps0 _ hostOps0_writes (by decide)
    _ = m ((c : Thread nD τ).loc main_arg5) := rfl

/-! ## The proof data family and the thread state -/

def pdatsH : (p : Fin 2) → (c : Dev nD) → Dat τ (Elt F) Unit ℕ (UR sig nD τ) ℕ (Pipeline.pin (pcfgs (F := F)) adm p) c
  | ⟨0, _⟩ => fun c => dat0 (Va1 m) c
  | ⟨1, _⟩ => fun c => dat1 (Va3 m) c
abbrev Vn : Variants := Variants.none
abbrev Lz : GSem nD τ sig → Finset Unit := fun _ => ∅
abbrev lvz : GSem nD τ sig → Unit → ℕ := fun _ _ => 0
/-- Beside the buffers: the generator register at some state, and the core owing nothing. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Vn Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (Wa4 m c) ∗ ∃ r, prngReg c r)

/-! ## The two regions as segments -/

set_option backward.isDefEq.respectTransparency.types false in
def reg0 : Pipeline.RegionSeg (pcfgs (F := F)) adm (pdatsH m) () defs₀ Vn Lz lvz 0 where
  win := launch0.win.to₀
  block_pos := launch0.block_pos
  stage_whole := launch0.stage_whole
  K := PEmpty
  osem k := k.elim
  ho := Pipeline.OwnSemFacts.none _
  hbody c := (body_obligation0 (Va1 m) c).loose
  hwaits := Pipeline.hwaits_of_owed_zero _ _ _ _ Lz lvz 0 fun _ _ => rfl
  pre c := iprop(StableHlo.held (c : Thread nD τ) (Pipeline.ucRefs τ sig) (Wa1 m c) ∗ Rr c)
  post c := iprop(StableHlo.held (c : Thread nD τ) (Pipeline.ucRefs τ sig) (Wa2 m c) ∗ Rr c)
  X c := iprop(∃ r, prngReg c r)
  Y c := iprop(∃ r, prngReg c r)
  Z c := Pipeline.unscopedRest (Ix := Unit) (Name := ℕ) (U := UR sig nD τ) (Lvl := ℕ) spec0 c (Va1 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (Va1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (Va1 m c) (Va2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdatsH m) () defs₀ Vn Lz lvz 1 where
  win := launch1.win.to₀
  block_pos := launch1.block_pos
  stage_whole := launch1.stage_whole
  K := PEmpty
  osem k := k.elim
  ho := Pipeline.OwnSemFacts.none _
  hbody c := (body_obligation1 (Va3 m) c).loose
  hwaits := Pipeline.hwaits_of_owed_zero _ _ _ _ Lz lvz 1 fun _ _ => rfl
  pre c := iprop(StableHlo.held (c : Thread nD τ) (Pipeline.ucRefs τ sig) (Wa3 m c) ∗ Rr c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Va3 m c)
  hentry c := by
    rw [Pipeline.ownSems0_none]
    have hsplit := Pipeline.arrays_of_unscopedBufs (p := 1) (pcfgs (F := F)) adm (pdatsH m) launch1.win launch1.arr_whole c
      ((pdatsH m 1 c).share_full fun _ => rfl) (Va3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h2 : (Pipeline.ΦA spec1 c : sProp 𝕄) ⊢ iprop((∃ r, prngReg c r) ∗ emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (Va3 m) c).trans h2
  hexit c := by
    have hjoin := Pipeline.unscopedBufs_of_arrays (p := 1) (pcfgs (F := F)) adm (Ix := Unit) (Name := ℕ) (U := UR sig nD τ) (Lvl := ℕ)
      launch1.win launch1.arr_whole c (pdatsH m) ((pdatsH m 1 c).share_full fun _ => rfl)
      (Va3 m c) (Va4 m c) ((pdatsH m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) adm (pdatsH m) () defs₀ Vn Lz lvz) :=
  [ .host (hseg hostOps0 hostOps0_sub hostOps0_fresh (Wa0 m)),
    .region (reg0 m),
    .host (hseg hostOps1 hostOps1_sub hostOps1_fresh (Wa2 m)),
    .region (reg1 m) ]
theorem main_run (c : Dev nD) : main (F := F) c = Pipeline.Seg.run (segsH m) := (main_chain c).trans (by chain_rfl)

set_option backward.isDefEq.respectTransparency.types false in
/-- From any memory with zero counters every weakly fair execution of @main terminates without a fault, and
    every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wa4 m c b) :=
  Pipeline.θ_run_regions_kit (pcfgs (F := F)) adm (pdatsH m) () cellOf_inj emb₁ defs₀ Vn Lz lvz m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa0 m c) ∗ Rr c)) (Tₙ := Tend m)
    (hch := ⟨fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (Wa0 m c)
        from Pipeline.unscopedBufs_held c (Wa0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wa4 m c b)
    (hfin := fun c s' => by
      iintro ⟨⟨Hh, -⟩, HSI⟩
      unfold StableHlo.held
      imodintro
      iapply (pointsTo_read_all (Pipeline.ucRefs τ sig) (fun b => (((c : Thread nD τ)).1, b)) (Wa4 m c) s')
      isplitl [Hh] <;> iassumption)
    (hQ := fun s h => h)

/-- The frame: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (Wa4_main_arg0 m c),
     (h c _ (mem_uc main_arg1 (by decide))).trans (Wa4_main_arg1 m c),
     (h c _ (mem_uc main_arg2 (by decide))).trans (Wa4_main_arg2 m c),
     (h c _ (mem_uc main_arg3 (by decide))).trans (Wa4_main_arg3 m c),
     (h c _ (mem_uc main_arg4 (by decide))).trans (Wa4_main_arg4 m c),
     (h c _ (mem_uc main_arg5 (by decide))).trans (Wa4_main_arg5 m c)⟩) (run_all m ρ)

end Cert.KernelIdeal.Hand

end
-- ==== Proof.Spec.lean ====
/-
  The specification: scaled-dot-product attention over projected inputs, as ONE function of the six
  argument arrays, index by index, on the extended reals.

  For a batch b, a query position i and an output feature d:
    lin x w b s e      = Σ_d' x[b, s, d'] · w[e, d']                       (a linear layer, weights stored [out, in])
    score b i j        = (Σ_e lin q wq b i e · lin k wk b j e) · scale      (scale = 1 / √1024)
    weight b i j       = exp (score b i j) / (0 + Σ_j' exp (score b i j'))
    G [b, i, d]        = Σ_j weight b i j · lin v wv b j d
  The "0 +" is the initial value of the sum over the key axis; the sums run over the literal extents.
-/
import Idealize.ShloMosaic.PureOps.Ideal
import Idealize.ShloMosaic.PureOps.Ideal.Laws
import Idealize.ShloMosaic.Lib.ValueIdx

noncomputable section

namespace Cert.Proof.Spec

open Idealize.ShloMosaic Idealize.ShloMosaic.ValueIdx

/-- The shape of q, k, v and of the result: batch × position × feature. -/
abbrev Sx : Shape := ⟨3, ![4, 2048, 1024]⟩
/-- The shape of a weight matrix: output feature × input feature. -/
abbrev Sw : Shape := ⟨2, ![1024, 1024]⟩

/-- A linear layer with weights stored [out, in]: `Σ_d x[b, s, d] · w[e, d]`. -/
def lin (x : Sx.Idx → EReal) (w : Sw.Idx → EReal) (b : Fin 4) (s : Fin 2048) (e : Fin 1024) : EReal :=
  ∑ d : Fin 1024, x (ix3 b s d) * w (ix2 e d)

/-- The softmax scale as the reference computes it: one over the square root of 1024. -/
def scale : EReal := Ideal.div (Ideal.ofBits .f32 0x3F800000#32) (Ideal.sqrt (Ideal.ofBits .f32 0x44800000#32))

/-- The scaled score of query position `i` against key position `j` in batch `b`. -/
def score (q k : Sx.Idx → EReal) (wq wk : Sw.Idx → EReal) (b : Fin 4) (i j : Fin 2048) : EReal :=
  (∑ e : Fin 1024, lin q wq b i e * lin k wk b j e) * scale

/-- The normalizer of a query row: the sum over all key positions of the exponentials, from the initial value 0. -/
def denom (q k : Sx.Idx → EReal) (wq wk : Sw.Idx → EReal) (b : Fin 4) (i : Fin 2048) : EReal :=
  Ideal.ofBits .f32 0x00000000#32 + ∑ j : Fin 2048, Ideal.exp (score q k wq wk b i j)

/-- The attention output. -/
def G (q k v : Sx.Idx → EReal) (wq wk wv : Sw.Idx → EReal) : Sx.Idx → EReal := fun i =>
  ∑ j : Fin 2048, Ideal.div (Ideal.exp (score q k wq wk (i 0) (i 1) j)) (denom q k wq wk (i 0) (i 1)) * lin v wv (i 0) j (i 2)

end Cert.Proof.Spec

end
-- ==== Proof.KIEntry.lean ====
/-
  What the attention region finds when it is entered: the projected keys and values as the first region
  and the host operations around it leave them, the scaled transposed query weights, and the queries.

  The first region's grid is 2 × 4. Its rows' input stacks the keys and the values as two 8192 × 1024
  planes, its weights' input stacks the two transposed weight matrices; point (p, i) multiplies rows
  [2048·i, 2048·(i+1)) of plane p by matrix p and stores the 2048 × 1024 product as block (p, i) of the
  output. So the output, read whole, is at [p, r, e] the sum over d of rows[p, r, d] · weights[p, d, e],
  and the host operations that follow cut each plane out and fold its rows back to 4 × 2048.
-/
import proofs.«178921_j33646773797609_2_alg».proof.Proof.KIRun
import proofs.«178921_j33646773797609_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Idealize.ShloMosaic.StableHlo

variable (m : (ℓ : Loc nD τ sig) → Buf (Elt Ideal) ℓ) (c : Dev nD)

/-! ## Buffers no segment writes before the attention region -/

theorem Wa3_main_arg0 : Wa3 m c (Proc.devRef .tc main_arg0) = m ((c : Thread nD τ).loc main_arg0) :=
  calc Wa3 m c (Proc.devRef .tc main_arg0)
    _ = Wa2 m c (Proc.devRef .tc main_arg0) := StableHlo.after_of_writes_sub hostOps1 _ hostOps1_writes (by decide)
    _ = Wa1 m c (Proc.devRef .tc main_arg0) := Wa2_of_ne m c main_arg0 (by decide)
    _ = Wa0 m c (Proc.devRef .tc main_arg0) := StableHlo.after_of_writes_sub hostOps0 _ hostOps0_writes (by decide)
    _ = m ((c : Thread nD τ).loc main_arg0) := rfl

/-- The queries are as launched. -/
theorem entry_q : Va3 m c main_arg0 = m ((c : Thread nD τ).loc main_arg0) := Wa3_main_arg0 m c

theorem Wa2_main_arg3 : Wa2 m c (Proc.devRef .tc main_arg3) = m ((c : Thread nD τ).loc main_arg3) :=
  calc Wa2 m c (Proc.devRef .tc main_arg3)
    _ = Wa1 m c (Proc.devRef .tc main_arg3) := Wa2_of_ne m c main_arg3 (by decide)
    _ = Wa0 m c (Proc.devRef .tc main_arg3) := StableHlo.after_of_writes_sub hostOps0 _ hostOps0_writes (by decide)
    _ = m ((c : Thread nD τ).loc main_arg3) := rfl

/-! ## The scaled transposed query weights -/

/-- The last host operation's result, as a term over the contents at the region's exit. -/
theorem Wa3_main_v19_term (W : Valuation τ sig (Elt Ideal)) :
    (StableHlo.after hostOps1 W (Proc.devRef .tc main_v19) : S1024x1024.Idx → EReal)
      = mulf (transpose S1024x1024 [1, 0] (W (Proc.devRef .tc main_arg3)) transposes_S1024x1024_S1024x1024_1_0)
          (broadcastInDim S1024x1024 ![] bcast_S_S1024x1024 (constant (F := Ideal) S_ .f32 0x3D000000#32)) := by
  dsimp only [hostOps1]; after_results

theorem entry_wq : (Va3 m c main_v19 : S1024x1024.Idx → EReal)
    = fun i => @HMul.hMul EReal EReal EReal _ (m ((c : Thread nD τ).loc main_arg3) (ValueIdx.ix2 (i 1) (i 0))) (Ideal.ofBits .f32 0x3D000000#32) := by
  show (StableHlo.after hostOps1 (Wa2 m c) (Proc.devRef .tc main_v19) : S1024x1024.Idx → EReal) = _
  rw [Wa3_main_v19_term, Wa2_main_arg3]
  generalize (m ((c : Thread nD τ).loc main_arg3) : S1024x1024.Idx → EReal) = x
  funext i
  rw [mulf_apply]
  refine congrArg₂ (· * ·) ?_ ?_
  · exact transpose_apply _ x transposes_S1024x1024_S1024x1024_1_0 i (ValueIdx.ix2 (i 1) (i 0))
      (fun b => match b with | ⟨0, _⟩ => rfl | ⟨1, _⟩ => rfl)
  · rfl

/-! ## The first region's stored value at an index -/

theorem hzRows3 : (![0, 0, 0] : Fin 3 → Nat) = fun _ => 0 := funext fun a => by fin_cases a <;> rfl

/-- The matrix unit's product of a [2048, 1024] by a [1024, 1024] matrix from the zero accumulator, at an
    element: the sum over the one contracted axis. -/
theorem mm_lhs_0 (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem mm_lhs_1 (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q
theorem mm_rhs_0 (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q
theorem mm_rhs_1 (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

theorem mm_apply (a : FVec Ideal S2048x1024 .bf16) (b : FVec Ideal S1024x1024 .bf16) (r : Fin 2048) (e : Fin 1024) :
    matmul dot_S2048x1024_S1024x1024_S2048x1024_1_0_0_1_n_n none a b (constant (F := Ideal) S2048x1024 .f32 0x00000000#32) (ix2 r e)
      = ∑ d : Fin 1024, a (ix2 r d) * b (ix2 d e) := by
  refine (Ideal.matmul_constant_zero_apply dot_S2048x1024_S1024x1024_S2048x1024_1_0_0_1_n_n none a b (ix2 r e)).trans ?_
  rw [← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 r e) ((contrEquiv1 dot_S2048x1024_S1024x1024_S2048x1024_1_0_0_1_n_n 1024 rfl rfl).symm k) = ix2 r k :=
    funext fun x => Fin.ext (by
      match x with
      | ⟨0, _⟩ => exact mm_lhs_0 _ _
      | ⟨1, _⟩ => exact (mm_lhs_1 _ _).trans hk)
  have er : dot_S2048x1024_S1024x1024_S2048x1024_1_0_0_1_n_n.rhsIdx (ix2 r e) ((contrEquiv1 dot_S2048x1024_S1024x1024_S2048x1024_1_0_0_1_n_n 1024 rfl rfl).symm k) = ix2 k e :=
    funext fun x => Fin.ext (by
      match x with
      | ⟨0, _⟩ => exact (mm_rhs_0 _ _).trans hk
      | ⟨1, _⟩ => exact mm_rhs_1 _ _)
  rw [el, er]

/-- What a point leaves in the output's buffer, at an element: the row of the rows' block against the
    column of the weights' block (the roundings to bf16 are the identity on the extended reals). -/
theorem out0_2_apply (x0 : Vec Ideal S1x2048x1024 .f32) (x1 : Vec Ideal S1x1024x1024 .f32) (u : Fin 1) (r : Fin 2048) (e : Fin 1024) :
    (out0_2 x0 x1 : S1x2048x1024.Idx → EReal) (ix3 u r e) = ∑ d : Fin 1024, x0 (ix3 (0 : Fin 1) r d) * x1 (ix3 (0 : Fin 1) d e) := by
  unfold out0_2
  rw [View.canon_unit_zero hzRows3]
  simp only [View.ld_unit_zero (S := S1x2048x1024) hzRows3, View.ld_unit_zero (S := S1x1024x1024) hzRows3]
  unfold k0_pay1
  refine (shapeCast_ab_1ab_apply _ shapeCasts_S2048x1024_S1x2048x1024 u r e).trans ?_
  refine (truncf_apply (ψ := .bf16) _ bitsLt_bf16_f32 (ix2 r e)).trans ?_
  refine (mm_apply _ _ r e).trans ?_
  refine Finset.sum_congr rfl fun d _ => ?_
  refine congrArg₂ (· * ·) ?_ ?_
  · exact (truncf_apply (ψ := .bf16) _ bitsLt_bf16_f32 (ix2 r d)).trans (shapeCast_1ab_ab_apply x0 shapeCasts_S1x2048x1024_S2048x1024 r d)
  · exact (truncf_apply (ψ := .bf16) _ bitsLt_bf16_f32 (ix2 d e)).trans (shapeCast_1ab_ab_apply x1 shapeCasts_S1x1024x1024_S1024x1024 d e)

/-! ## From the blocks to the array -/

/-- The two planes' products as one array: at [p, r, e] the sum over d of rows[p, r, d] · weights[p, d, e]. -/
def K2 (X : S2x8192x1024.Idx → EReal) (W : S2x1024x1024.Idx → EReal) : S2x8192x1024.Idx → EReal :=
  fun i => ∑ d : Fin 1024, X (ix3 (i 0) (i 1) d) * W (ix3 (i 0) d (i 2))

theorem K2_apply (X : S2x8192x1024.Idx → EReal) (W : S2x1024x1024.Idx → EReal) (p : Fin 2) (r : Fin 8192) (e : Fin 1024) :
    K2 X W (ix3 p r e) = ∑ d : Fin 1024, X (ix3 p r d) * W (ix3 p d e) := rfl

/-- A point's stored block is its block of `K2`, given that its two loaded blocks are the rows' and the
    weights' blocks at plane `p` and row block `q`. -/
theorem out_blk (X : S2x8192x1024.Idx → EReal) (W : S2x1024x1024.Idx → EReal)
    (x0 : Vec Ideal S1x2048x1024 .f32) (x1 : Vec Ideal S1x1024x1024 .f32) (p : Fin 2) (q : Fin 4)
    (h0 : ∀ (r : Fin 2048) (d : Fin 1024), x0 (ix3 (0 : Fin 1) r d) = X (ix3 p (⟨2048 * q.val + r.val, by omega⟩ : Fin 8192) d))
    (h1 : ∀ (d e : Fin 1024), x1 (ix3 (0 : Fin 1) d e) = W (ix3 p d e))
    (u : Fin 1) (r : Fin 2048) (e : Fin 1024) :
    (out0_2 x0 x1 : S1x2048x1024.Idx → EReal) (ix3 u r e) = K2 X W (ix3 p (⟨2048 * q.val + r.val, by omega⟩ : Fin 8192) e) := by
  rw [out0_2_apply, K2_apply]
  exact Finset.sum_congr rfl fun d _ => by rw [h0, h1]

/-- The printed index maps over the grid: the rows' and the output's block indices are (t / 4, t % 4, 0),
    the weights' (t / 4, 0, 0). -/
theorem idx_facts0 : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = t.val % 4 ∧ win0_2.index t (2 : Fin 3) = 0 :=
  (by decide +kernel : ∀ t : Fin grid0.N, _)

variable (V : (c : Dev nD) → (b : Ref sig .tc) → Buf (Elt Ideal) ((c : Thread nD τ).loc b))

/-- The rows' block at point `t`, read at an index: rows [2048·(t % 4), …) of plane t / 4. -/
theorem iblk0_0_apply (t : Fin cfg0.N) (ht : t.val < 8) (r : Fin 2048) (d : Fin 1024) :
    (iblk0 V c 0 t : Vec Ideal S1x2048x1024 .f32) (ix3 (0 : Fin 1) r d)
      = (V c main_v4 : S2x8192x1024.Idx → EReal) (ix3 (⟨t.val / 4, by omega⟩ : Fin 2) (⟨2048 * (t.val % 4) + r.val, by omega⟩ : Fin 8192) d) := by
  obtain ⟨e0, e1, e2, -⟩ := idx_facts0 t
  unfold iblk0
  rw [View.read_apply]
  show V c main_v4 _ = V c main_v4 _
  refine congrArg _ (funext fun a => Fin.ext ?_)
  match a with
  | ⟨0, _⟩ => show win0_0.index t (0 : Fin 3) * 1 + 1 * 0 = t.val / 4; omega
  | ⟨1, _⟩ => show win0_0.index t (1 : Fin 3) * 2048 + 1 * r.val = 2048 * (t.val % 4) + r.val; omega
  | ⟨2, _⟩ => show win0_0.index t (2 : Fin 3) * 1024 + 1 * d.val = d.val; omega

/-- The weights' block at point `t`, read at an index: matrix t / 4. -/
theorem iblk0_1_apply (t : Fin cfg0.N) (ht : t.val < 8) (d e : Fin 1024) :
    (iblk0 V c 1 t : Vec Ideal S1x1024x1024 .f32) (ix3 (0 : Fin 1) d e)
      = (V c main_v9 : S2x1024x1024.Idx → EReal) (ix3 (⟨t.val / 4, by omega⟩ : Fin 2) d e) := by
  obtain ⟨-, -, -, e0, e1, e2, -⟩ := idx_facts0 t
  unfold iblk0
  rw [View.read_apply]
  show V c main_v9 _ = V c main_v9 _
  refine congrArg _ (funext fun a => Fin.ext ?_)
  match a with
  | ⟨0, _⟩ => show win0_1.index t (0 : Fin 3) * 1 + 1 * 0 = t.val / 4; omega
  | ⟨1, _⟩ => show win0_1.index t (1 : Fin 3) * 1024 + 1 * d.val = d.val; omega
  | ⟨2, _⟩ => show win0_1.index t (2 : Fin 3) * 1024 + 1 * e.val = e.val; omega

/-- What point `t` writes back is block `t` of `K2` of the two input arrays as the region finds them. -/
theorem flushed0_2_eq (t : Fin cfg0.N) :
    (dat0 V c).flushed 2 t = ((cfg0.win 2).blk t).view.read (Elt Ideal) (K2 (V c main_v4) (V c main_v9)) := by
  have ht : t.val < 8 := lt_of_lt_of_eq t.isLt N_0
  show (cfg0.win 2).cut (grid0.coords t) ((dat0 V c).after 2 t) = _
  rw [after0_2]
  obtain ⟨-, -, -, -, -, -, e0, e1, e2⟩ := idx_facts0 t
  funext j
  have hj0 : (j 0).val < 1 := (j 0).isLt
  have hj1 : (j 1).val < 2048 := (j 1).isLt
  have hj2 : (j 2).val < 1024 := (j 2).isLt
  have ey : (cfg0.win 2).xinj (grid0.coords t) j = ix3 (⟨(j 0).val, hj0⟩ : Fin 1) (⟨(j 1).val, hj1⟩ : Fin 2048) (⟨(j 2).val, hj2⟩ : Fin 1024) :=
    funext fun a => match a with | ⟨0, _⟩ => rfl | ⟨1, _⟩ => rfl | ⟨2, _⟩ => rfl
  have ei : ((cfg0.win 2).blk t).view.emb j
      = ix3 (⟨t.val / 4, by omega⟩ : Fin 2) (⟨2048 * (⟨t.val % 4, by omega⟩ : Fin 4).val + (⟨(j 1).val, hj1⟩ : Fin 2048).val, by show 2048 * (t.val % 4) + (j 1).val < 8192; omega⟩ : Fin 8192) (⟨(j 2).val, hj2⟩ : Fin 1024) := by
    funext a; apply Fin.ext
    match a with
    | ⟨0, _⟩ => show win0_2.index t (0 : Fin 3) * 1 + 1 * (j 0).val = t.val / 4; omega
    | ⟨1, _⟩ => show win0_2.index t (1 : Fin 3) * 2048 + 1 * (j 1).val = 2048 * (t.val % 4) + (j 1).val; omega
    | ⟨2, _⟩ => show win0_2.index t (2 : Fin 3) * 1024 + 1 * (j 2).val = (j 2).val; omega
  show (out0_2 (iblk0 V c 0 t) (iblk0 V c 1 t) : S1x2048x1024.Idx → EReal) ((cfg0.win 2).xinj (grid0.coords t) j)
    = K2 (V c main_v4) (V c main_v9) (((cfg0.win 2).blk t).view.emb j)
  rw [ey, ei]
  exact out_blk (V c main_v4) (V c main_v9) (iblk0 V c 0 t) (iblk0 V c 1 t) (⟨t.val / 4, by omega⟩ : Fin 2) (⟨t.val % 4, by omega⟩ : Fin 4)
    (fun r d => iblk0_0_apply c V t ht r d) (fun d e => iblk0_1_apply c V t ht d e)
    (⟨(j 0).val, hj0⟩ : Fin 1) (⟨(j 1).val, hj1⟩ : Fin 2048) (⟨(j 2).val, hj2⟩ : Fin 1024)

/-- Every element of the output is in the block of the point at its plane and row block. -/
theorem cover0_2_arr (i : S2x8192x1024.Idx) :
    ∃ t : Fin cfg0.N, (cfg0.win 2).flush t = true ∧ i ∈ ((cfg0.win 2).blk t).view.set := by
  have hi0 : (i 0).val < 2 := (i 0).isLt
  have hi1 : (i 1).val < 8192 := (i 1).isLt
  have hi2 : (i 2).val < 1024 := (i 2).isLt
  obtain ⟨t, tv⟩ : ∃ t : Fin cfg0.N, t.val = 4 * (i 0).val + (i 1).val / 2048 :=
    ⟨⟨4 * (i 0).val + (i 1).val / 2048, lt_of_lt_of_eq (by omega) N_0.symm⟩, rfl⟩
  refine ⟨t, flush0_2 t, ?_⟩
  obtain ⟨-, -, -, -, -, -, e0, e1, e2⟩ := idx_facts0 t
  show i ∈ ((View.whole main_v10).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 1024 ≤ (i 2).val ∧ (i 2).val < win0_2.index t (2 : Fin 3) * 1024 + 1024; omega

/-- The output array after the region: `K2` of the two input arrays as the region finds them. -/
theorem arrAt0_2_eq : (dat0 V c).arrAt 2 cfg0.N = K2 (V c main_v4) (V c main_v9) :=
  (dat0 V c).arrAt_eq_of_cover 2 (K2 (V c main_v4) (V c main_v9)) (fun t _ => flushed0_2_eq c V t) cover0_2_arr

theorem Wa2_main_v10 : (Wa2 m c (Proc.devRef .tc main_v10) : S2x8192x1024.Idx → EReal) = K2 (Va1 m c main_v4) (Va1 m c main_v9) :=
  (Wa2_arr m c 2).trans (arrAt0_2_eq c (Va1 m))

/-! ## The host operations before the region, read at an index -/

/-- The rows' input: the keys and the values, each with its batches' rows laid end to end, stacked as two planes. -/
def stackRows (k v : S4x2048x1024.Idx → EReal) : S2x8192x1024.Idx → EReal :=
  concatenate S2x8192x1024 0
    [⟨S1x8192x1024, broadcastInDim S1x8192x1024 ![1, 2] bcast_S8192x1024_S1x8192x1024_1_2 (shapeCast S8192x1024 k shapeCasts_S4x2048x1024_S8192x1024)⟩,
     ⟨S1x8192x1024, broadcastInDim S1x8192x1024 ![1, 2] bcast_S8192x1024_S1x8192x1024_1_2 (shapeCast S8192x1024 v shapeCasts_S4x2048x1024_S8192x1024)⟩]
    concatenates_S1x8192x1024_S1x8192x1024_S2x8192x1024_d0

/-- The weights' input: the two weight matrices transposed, stacked as two planes. -/
def stackWeights (wk wv : S1024x1024.Idx → EReal) : S2x1024x1024.Idx → EReal :=
  concatenate S2x1024x1024 0
    [⟨S1x1024x1024, broadcastInDim S1x1024x1024 ![1, 2] bcast_S1024x1024_S1x1024x1024_1_2 (transpose S1024x1024 [1, 0] wk transposes_S1024x1024_S1024x1024_1_0)⟩,
     ⟨S1x1024x1024, broadcastInDim S1x1024x1024 ![1, 2] bcast_S1024x1024_S1x1024x1024_1_2 (transpose S1024x1024 [1, 0] wv transposes_S1024x1024_S1024x1024_1_0)⟩]
    concatenates_S1x1024x1024_S1x1024x1024_S2x1024x1024_d0

theorem after0_main_v4 (W : Valuation τ sig (Elt Ideal)) :
    (StableHlo.after hostOps0 W (Proc.devRef .tc main_v4) : S2x8192x1024.Idx → EReal)
      = stackRows (W (Proc.devRef .tc main_arg1)) (W (Proc.devRef .tc main_arg2)) := by
  dsimp only [hostOps0]; after_results; try rfl

theorem after0_main_v9 (W : Valuation τ sig (Elt Ideal)) :
    (StableHlo.after hostOps0 W (Proc.devRef .tc main_v9) : S2x1024x1024.Idx → EReal)
      = stackWeights (W (Proc.devRef .tc main_arg4)) (W (Proc.devRef .tc main_arg5)) := by
  dsimp only [hostOps0]; after_results; try rfl

/-- A row of an 8192 × 1024 plane laid out from a 4 × 2048 × 1024 array. -/
theorem rows_apply (k : S4x2048x1024.Idx → EReal) (u : Fin 1) (R : Fin 8192) (d : Fin 1024) :
    broadcastInDim S1x8192x1024 ![1, 2] bcast_S8192x1024_S1x8192x1024_1_2 (shapeCast S8192x1024 k shapeCasts_S4x2048x1024_S8192x1024) (ix3 u R d)
      = k (ix3 (⟨R.val / 2048, by omega⟩ : Fin 4) (⟨R.val % 2048, by omega⟩ : Fin 2048) d) := by
  refine (broadcastInDim_apply ![1, 2] bcast_S8192x1024_S1x8192x1024_1_2 _ (ix3 u R d) (ix2 R d) (fun a => match a with
    | ⟨0, _⟩ => by show R.val = if (8192 : Nat) = 1 then 0 else R.val; rw [if_neg (by decide)]
    | ⟨1, _⟩ => by show d.val = if (1024 : Nat) = 1 then 0 else d.val; rw [if_neg (by decide)])).trans ?_
  exact shapeCast_apply k shapeCasts_S4x2048x1024_S8192x1024 (ix2 R d) _ (by
    rw [Shape.rowMajor_val_three, Shape.rowMajor_val_two]
    show (R.val / 2048 * 2048 + R.val % 2048) * 1024 + d.val = R.val * 1024 + d.val
    omega)

/-- An element of a transposed weight matrix laid out as a plane. -/
theorem weights_apply (w : S1024x1024.Idx → EReal) (u : Fin 1) (d e : Fin 1024) :
    broadcastInDim S1x1024x1024 ![1, 2] bcast_S1024x1024_S1x1024x1024_1_2 (transpose S1024x1024 [1, 0] w transposes_S1024x1024_S1024x1024_1_0) (ix3 u d e)
      = w (ix2 e d) := by
  refine (broadcastInDim_apply ![1, 2] bcast_S1024x1024_S1x1024x1024_1_2 _ (ix3 u d e) (ix2 d e) (fun a => match a with
    | ⟨0, _⟩ => by show d.val = if (1024 : Nat) = 1 then 0 else d.val; rw [if_neg (by decide)]
    | ⟨1, _⟩ => by show e.val = if (1024 : Nat) = 1 then 0 else e.val; rw [if_neg (by decide)])).trans ?_
  exact transpose_ix2_apply w transposes_S1024x1024_S1024x1024_1_0 d e

theorem stackRows_apply0 (k v : S4x2048x1024.Idx → EReal) (R : Fin 8192) (d : Fin 1024) :
    stackRows k v (ix3 (0 : Fin 2) R d) = k (ix3 (⟨R.val / 2048, by omega⟩ : Fin 4) (⟨R.val % 2048, by omega⟩ : Fin 2048) d) := by
  unfold stackRows
  refine (concatenate_pair_apply_left (t := S2x8192x1024) (s₁ := S1x8192x1024) (s₂ := S1x8192x1024) (0 : Fin 3) _ _ concatenates_S1x8192x1024_S1x8192x1024_S2x8192x1024_d0 (ix3 (0 : Fin 2) R d) rfl
    (ix3 (0 : Fin 1) R d) (fun b => match b with | ⟨0, _⟩ => rfl | ⟨1, _⟩ => rfl | ⟨2, _⟩ => rfl)).trans ?_
  exact rows_apply k 0 R d

theorem stackRows_apply1 (k v : S4x2048x1024.Idx → EReal) (R : Fin 8192) (d : Fin 1024) :
    stackRows k v (ix3 (1 : Fin 2) R d) = v (ix3 (⟨R.val / 2048, by omega⟩ : Fin 4) (⟨R.val % 2048, by omega⟩ : Fin 2048) d) := by
  unfold stackRows
  refine (concatenate_pair_apply_right (t := S2x8192x1024) (s₁ := S1x8192x1024) (s₂ := S1x8192x1024) (0 : Fin 3) _ _ concatenates_S1x8192x1024_S1x8192x1024_S2x8192x1024_d0 (ix3 (1 : Fin 2) R d) rfl rfl
    (ix3 (0 : Fin 1) R d) (fun b hb => match b with | ⟨0, _⟩ => absurd rfl hb | ⟨1, _⟩ => rfl | ⟨2, _⟩ => rfl) rfl).trans ?_
  exact rows_apply v 0 R d

theorem stackWeights_apply0 (wk wv : S1024x1024.Idx → EReal) (d e : Fin 1024) :
    stackWeights wk wv (ix3 (0 : Fin 2) d e) = wk (ix2 e d) := by
  unfold stackWeights
  refine (concatenate_pair_apply_left (t := S2x1024x1024) (s₁ := S1x1024x1024) (s₂ := S1x1024x1024) (0 : Fin 3) _ _ concatenates_S1x1024x1024_S1x1024x1024_S2x1024x1024_d0 (ix3 (0 : Fin 2) d e) rfl
    (ix3 (0 : Fin 1) d e) (fun b => match b with | ⟨0, _⟩ => rfl | ⟨1, _⟩ => rfl | ⟨2, _⟩ => rfl)).trans ?_
  exact weights_apply wk 0 d e

theorem stackWeights_apply1 (wk wv : S1024x1024.Idx → EReal) (d e : Fin 1024) :
    stackWeights wk wv (ix3 (1 : Fin 2) d e) = wv (ix2 e d) := by
  unfold stackWeights
  refine (concatenate_pair_apply_right (t := S2x1024x1024) (s₁ := S1x1024x1024) (s₂ := S1x1024x1024) (0 : Fin 3) _ _ concatenates_S1x1024x1024_S1x1024x1024_S2x1024x1024_d0 (ix3 (1 : Fin 2) d e) rfl rfl
    (ix3 (0 : Fin 1) d e) (fun b hb => match b with | ⟨0, _⟩ => absurd rfl hb | ⟨1, _⟩ => rfl | ⟨2, _⟩ => rfl) rfl).trans ?_
  exact weights_apply wv 0 d e

/-! ## The host operations after the region, read at an index -/

/-- Plane `p` of the region's output with its rows folded back to 4 × 2048. -/
def plane0 (Z : S2x8192x1024.Idx → EReal) : S4x2048x1024.Idx → EReal :=
  shapeCast S4x2048x1024 (shapeCast S8192x1024 (extractStridedSlice S1x8192x1024 ![0, 0, 0] Z slices_S2x8192x1024_S1x8192x1024_0_0_0)
    shapeCasts_S1x8192x1024_S8192x1024) shapeCasts_S8192x1024_S4x2048x1024
def plane1 (Z : S2x8192x1024.Idx → EReal) : S4x2048x1024.Idx → EReal :=
  shapeCast S4x2048x1024 (shapeCast S8192x1024 (extractStridedSlice S1x8192x1024 ![1, 0, 0] Z slices_S2x8192x1024_S1x8192x1024_1_0_0)
    shapeCasts_S1x8192x1024_S8192x1024) shapeCasts_S8192x1024_S4x2048x1024

theorem after1_main_v13 (W : Valuation τ sig (Elt Ideal)) :
    (StableHlo.after hostOps1 W (Proc.devRef .tc main_v13) : S4x2048x1024.Idx → EReal) = plane0 (W (Proc.devRef .tc main_v10)) := by
  dsimp only [hostOps1]; after_results; try rfl

theorem after1_main_v16 (W : Valuation τ sig (Elt Ideal)) :
    (StableHlo.after hostOps1 W (Proc.devRef .tc main_v16) : S4x2048x1024.Idx → EReal) = plane1 (W (Proc.devRef .tc main_v10)) := by
  dsimp only [hostOps1]; after_results; try rfl

/-- The rows of a 4 × 2048 × 1024 array folded from an 8192 × 1024 plane with a unit leading axis. -/
theorem fold_apply (Y : S1x8192x1024.Idx → EReal) (b : Fin 4) (s : Fin 2048) (e : Fin 1024) :
    shapeCast S4x2048x1024 (shapeCast S8192x1024 Y shapeCasts_S1x8192x1024_S8192x1024) shapeCasts_S8192x1024_S4x2048x1024 (ix3 b s e)
      = Y (ix3 (0 : Fin 1) (⟨2048 * b.val + s.val, by omega⟩ : Fin 8192) e) := by
  refine (shapeCast_apply _ shapeCasts_S8192x1024_S4x2048x1024 (ix3 b s e) (ix2 (⟨2048 * b.val + s.val, by omega⟩ : Fin 8192) e) (by
    rw [Shape.rowMajor_val_three, Shape.rowMajor_val_two]
    show (2048 * b.val + s.val) * 1024 + e.val = (b.val * 2048 + s.val) * 1024 + e.val
    omega)).trans ?_
  exact shapeCast_1ab_ab_apply Y shapeCasts_S1x8192x1024_S8192x1024 _ e

theorem plane0_apply (Z : S2x8192x1024.Idx → EReal) (b : Fin 4) (s : Fin 2048) (e : Fin 1024) :
    plane0 Z (ix3 b s e) = Z (ix3 (0 : Fin 2) (⟨2048 * b.val + s.val, by omega⟩ : Fin 8192) e) := by
  unfold plane0
  refine (fold_apply _ b s e).trans ?_
  exact extractStridedSlice_apply ![0, 0, 0] Z slices_S2x8192x1024_S1x8192x1024_0_0_0 _ _ (fun a => match a with
    | ⟨0, _⟩ => rfl
    | ⟨1, _⟩ => by show 2048 * b.val + s.val = 0 + (2048 * b.val + s.val); omega
    | ⟨2, _⟩ => by show e.val = 0 + e.val; omega)

theorem plane1_apply (Z : S2x8192x1024.Idx → EReal) (b : Fin 4) (s : Fin 2048) (e : Fin 1024) :
    plane1 Z (ix3 b s e) = Z (ix3 (1 : Fin 2) (⟨2048 * b.val + s.val, by omega⟩ : Fin 8192) e) := by
  unfold plane1
  refine (fold_apply _ b s e).trans ?_
  exact extractStridedSlice_apply ![1, 0, 0] Z slices_S2x8192x1024_S1x8192x1024_1_0_0 _ _ (fun a => match a with
    | ⟨0, _⟩ => rfl
    | ⟨1, _⟩ => by show 2048 * b.val + s.val = 0 + (2048 * b.val + s.val); omega
    | ⟨2, _⟩ => by show e.val = 0 + e.val; omega)

/-! ## The projected keys and values -/

/-- Plane 0 of the product of the stacked inputs is the keys' linear layer … -/
theorem proj0 (k v : S4x2048x1024.Idx → EReal) (wk wv : S1024x1024.Idx → EReal) :
    plane0 (K2 (stackRows k v) (stackWeights wk wv)) = fun i => Cert.Proof.Spec.lin k wk (i 0) (i 1) (i 2) := by
  funext i
  obtain ⟨b, s, e, rfl⟩ : ∃ (b : Fin 4) (s : Fin 2048) (e : Fin 1024), i = ix3 b s e := ⟨i 0, i 1, i 2, eq_ix3 i⟩
  show _ = Cert.Proof.Spec.lin k wk b s e
  rw [plane0_apply, K2_apply]
  unfold Cert.Proof.Spec.lin
  refine Finset.sum_congr rfl fun d _ => ?_
  rw [stackRows_apply0, stackWeights_apply0]
  refine congrArg (fun j => k j * wk (ix2 e d)) (funext fun a => Fin.ext ?_)
  match a with
  | ⟨0, _⟩ => show (2048 * b.val + s.val) / 2048 = b.val; omega
  | ⟨1, _⟩ => show (2048 * b.val + s.val) % 2048 = s.val; omega
  | ⟨2, _⟩ => rfl

/-- … and plane 1 the values'. -/
theorem proj1 (k v : S4x2048x1024.Idx → EReal) (wk wv : S1024x1024.Idx → EReal) :
    plane1 (K2 (stackRows k v) (stackWeights wk wv)) = fun i => Cert.Proof.Spec.lin v wv (i 0) (i 1) (i 2) := by
  funext i
  obtain ⟨b, s, e, rfl⟩ : ∃ (b : Fin 4) (s : Fin 2048) (e : Fin 1024), i = ix3 b s e := ⟨i 0, i 1, i 2, eq_ix3 i⟩
  show _ = Cert.Proof.Spec.lin v wv b s e
  rw [plane1_apply, K2_apply]
  unfold Cert.Proof.Spec.lin
  refine Finset.sum_congr rfl fun d _ => ?_
  rw [stackRows_apply1, stackWeights_apply1]
  refine congrArg (fun j => v j * wv (ix2 e d)) (funext fun a => Fin.ext ?_)
  match a with
  | ⟨0, _⟩ => show (2048 * b.val + s.val) / 2048 = b.val; omega
  | ⟨1, _⟩ => show (2048 * b.val + s.val) % 2048 = s.val; omega
  | ⟨2, _⟩ => rfl

theorem Va1_main_v4 : (Va1 m c main_v4 : S2x8192x1024.Idx → EReal)
    = stackRows (m ((c : Thread nD τ).loc main_arg1)) (m ((c : Thread nD τ).loc main_arg2)) :=
  after0_main_v4 (Wa0 m c)
theorem Va1_main_v9 : (Va1 m c main_v9 : S2x1024x1024.Idx → EReal)
    = stackWeights (m ((c : Thread nD τ).loc main_arg4)) (m ((c : Thread nD τ).loc main_arg5)) :=
  after0_main_v9 (Wa0 m c)

/-- The projected keys, as the attention region finds them. -/
theorem entry_kp : (Va3 m c main_v13 : S4x2048x1024.Idx → EReal)
    = fun i => Cert.Proof.Spec.lin (m ((c : Thread nD τ).loc main_arg1)) (m ((c : Thread nD τ).loc main_arg4)) (i 0) (i 1) (i 2) := by
  show (StableHlo.after hostOps1 (Wa2 m c) (Proc.devRef .tc main_v13) : S4x2048x1024.Idx → EReal) = _
  rw [after1_main_v13, Wa2_main_v10, Va1_main_v4, Va1_main_v9]
  exact proj0 _ _ _ _

/-- The projected values, as the attention region finds them. -/
theorem entry_vp : (Va3 m c main_v16 : S4x2048x1024.Idx → EReal)
    = fun i => Cert.Proof.Spec.lin (m ((c : Thread nD τ).loc main_arg2)) (m ((c : Thread nD τ).loc main_arg5)) (i 0) (i 1) (i 2) := by
  show (StableHlo.after hostOps1 (Wa2 m c) (Proc.devRef .tc main_v16) : S4x2048x1024.Idx → EReal) = _
  rw [after1_main_v16, Wa2_main_v10, Va1_main_v4, Va1_main_v9]
  exact proj1 _ _ _ _

end Cert.KernelIdeal.Hand

end
-- ==== Proof.RowLaw.lean ====
/-
  One query row of scaled-dot-product attention, computed block by block, equals the specification.

  The specification scores a query position i against a key position κ as
      score i κ = (Σ_e lin q wq i e · lin k wk κ e) · scale,       scale = 1 / √1024 = 1 / 32,
  and outputs  G [b, i, d] = Σ_κ (exp (score i κ) / (0 + Σ_κ' exp (score i κ'))) · lin v wv κ d.
  The block-by-block computation folds the factor 1/32 into the query weights,
      kq i e = Σ_d' q [i, d'] · (wq [e, d'] · (1/32)) = lin q wq i e · (1/32),
  so that its score Σ_e kq i e · lin k wk κ e is the same real number as score i κ (a factor moved across
  two finite sums), walks the 2048 key positions as 4 blocks of 512, κ = 512 j + k', keeping a running level,
  sum and weighted sum, and divides at the end.  When all six arrays hold real numbers every quantity is a real
  number, the one-pass law of the online softmax applies to the four blocks, and the sum over the 2048 key
  positions is the double sum over (j, k') through the bijection (j, k') ↦ 512 j + k'.
-/
import proofs.«178921_j33646773797609_2_alg».proof.Proof.Spec
import proofs.«178921_j33646773797609_2_alg».proof.Proof.LibOnlineSoftmax
import proofs.«178921_j33646773797609_2_alg».proof.Proof.Consts
import Idealize.ShloMosaic.PureOps.Ideal.Laws
import Idealize.ShloMosaic.Lib.ValueIdx

noncomputable section

namespace Cert.Proof.RowLaw

open Idealize.ShloMosaic Idealize.ShloMosaic.ValueIdx Cert.Proof.Spec Cert.Proof.OnlineSoftmax

/-! ### The block-by-block quantities -/

/-- The projected query with the scale folded into the weights. -/
def kq (q : Sx.Idx → EReal) (wq : Sw.Idx → EReal) (b : Fin 4) (i : Fin 2048) (e : Fin 1024) : EReal :=
  ∑ d' : Fin 1024, q (ix3 b i d') * (wq (ix2 e d') * Ideal.ofBits .f32 0x3D000000#32)

/-- The key position of entry k' of block j. -/
def key (j : Fin 4) (k' : Fin 512) : Fin 2048 := ⟨512 * j.val + k'.val, by omega⟩

/-- The score of the query row against entry k' of key block j. -/
def kS (q k : Sx.Idx → EReal) (wq wk : Sw.Idx → EReal) (b : Fin 4) (i : Fin 2048) (j : Fin 4) (k' : Fin 512) : EReal :=
  ∑ e : Fin 1024, kq q wq b i e * lin k wk b (key j k') e

/-- The projected value of entry k' of key block j at output feature d. -/
def kV (v : Sx.Idx → EReal) (wv : Sw.Idx → EReal) (b : Fin 4) (d : Fin 1024) (j : Fin 4) (k' : Fin 512) : EReal :=
  lin v wv b (key j k') d

/-! ### The scale -/

/-- The specification's scale, one over the square root of 1024, is the real number 1/32. -/
theorem scale_eq : scale = ((1 / 32 : ℝ) : EReal) := by
  rw [scale, Consts.ofBits_one, Consts.ofBits_1024, Consts.sqrt_1024, Ideal.div_coe (by norm_num), one_mul]

/-! ### The key positions as 4 blocks of 512 -/

/-- The key positions are the pairs (block, entry) through (j, k') ↦ 512 j + k'. -/
def keyEquiv : Fin 4 × Fin 512 ≃ Fin 2048 where
  toFun p := key p.1 p.2
  invFun κ := (⟨κ.val / 512, by omega⟩, ⟨κ.val % 512, by omega⟩)
  left_inv := by
    rintro ⟨j, k'⟩
    refine Prod.ext (Fin.ext ?_) (Fin.ext ?_)
    · show (512 * j.val + k'.val) / 512 = j.val
      omega
    · show (512 * j.val + k'.val) % 512 = k'.val
      omega
  right_inv := by
    intro κ
    refine Fin.ext ?_
    show 512 * (κ.val / 512) + κ.val % 512 = κ.val
    omega

/-- A sum over the 2048 key positions is the double sum over blocks and entries. -/
theorem sum_key {M : Type*} [AddCommMonoid M] (f : Fin 2048 → M) :
    ∑ κ : Fin 2048, f κ = ∑ j : Fin 4, ∑ k' : Fin 512, f (key j k') := by
  rw [← Equiv.sum_comp keyEquiv f, Fintype.sum_prod_type]
  rfl

/-! ### Real arrays -/

section Real
variable (qr kr vr : Sx.Idx → ℝ) (wqr wkr wvr : Sw.Idx → ℝ)

/-- The linear layer on real arrays. -/
def linR (x : Sx.Idx → ℝ) (w : Sw.Idx → ℝ) (b : Fin 4) (s : Fin 2048) (e : Fin 1024) : ℝ :=
  ∑ d : Fin 1024, x (ix3 b s d) * w (ix2 e d)

/-- The real score of the query row against key position κ. -/
def scoreR (b : Fin 4) (i κ : Fin 2048) : ℝ :=
  (∑ e : Fin 1024, linR qr wqr b i e * linR kr wkr b κ e) * (1 / 32)

theorem lin_coe (x : Sx.Idx → ℝ) (w : Sw.Idx → ℝ) (b : Fin 4) (s : Fin 2048) (e : Fin 1024) :
    lin (fun i => (x i : EReal)) (fun i => (w i : EReal)) b s e = ((linR x w b s e : ℝ) : EReal) := by
  rw [lin, linR, coe_finset_sum]
  refine Finset.sum_congr rfl (fun d _ => ?_)
  rw [EReal.coe_mul]

theorem kq_coe (b : Fin 4) (i : Fin 2048) (e : Fin 1024) :
    kq (fun i => (qr i : EReal)) (fun i => (wqr i : EReal)) b i e = ((linR qr wqr b i e * (1 / 32) : ℝ) : EReal) := by
  rw [kq, linR, Finset.sum_mul, coe_finset_sum, Consts.ofBits_inv32]
  refine Finset.sum_congr rfl (fun d _ => ?_)
  rw [← EReal.coe_mul, ← EReal.coe_mul, mul_assoc]

theorem score_coe (b : Fin 4) (i κ : Fin 2048) :
    score (fun i => (qr i : EReal)) (fun i => (kr i : EReal)) (fun i => (wqr i : EReal)) (fun i => (wkr i : EReal)) b i κ
      = ((scoreR qr kr wqr wkr b i κ : ℝ) : EReal) := by
  rw [score, scoreR, scale_eq, EReal.coe_mul, coe_finset_sum]
  refine congrArg₂ (· * ·) (Finset.sum_congr rfl (fun e _ => ?_)) rfl
  rw [lin_coe, lin_coe, EReal.coe_mul]

theorem kS_coe (b : Fin 4) (i : Fin 2048) (j : Fin 4) (k' : Fin 512) :
    kS (fun i => (qr i : EReal)) (fun i => (kr i : EReal)) (fun i => (wqr i : EReal)) (fun i => (wkr i : EReal)) b i j k'
      = ((scoreR qr kr wqr wkr b i (key j k') : ℝ) : EReal) := by
  rw [kS, scoreR, Finset.sum_mul, coe_finset_sum]
  refine Finset.sum_congr rfl (fun e _ => ?_)
  rw [kq_coe, lin_coe, ← EReal.coe_mul]
  congr 1
  ring

theorem kV_coe (b : Fin 4) (d : Fin 1024) (j : Fin 4) (k' : Fin 512) :
    kV (fun i => (vr i : EReal)) (fun i => (wvr i : EReal)) b d j k' = ((linR vr wvr b (key j k') d : ℝ) : EReal) := by
  rw [kV, lin_coe]

/-- The row law for real arrays. -/
theorem row_eq_G_real (b : Fin 4) (i : Fin 2048) (d : Fin 1024) :
    Ideal.div
      (step (step (step (step ((⊥ : EReal), (0 : EReal), (0 : EReal))
        (kS (fun i => (qr i : EReal)) (fun i => (kr i : EReal)) (fun i => (wqr i : EReal)) (fun i => (wkr i : EReal)) b i 0)
        (kV (fun i => (vr i : EReal)) (fun i => (wvr i : EReal)) b d 0))
        (kS (fun i => (qr i : EReal)) (fun i => (kr i : EReal)) (fun i => (wqr i : EReal)) (fun i => (wkr i : EReal)) b i 1)
        (kV (fun i => (vr i : EReal)) (fun i => (wvr i : EReal)) b d 1))
        (kS (fun i => (qr i : EReal)) (fun i => (kr i : EReal)) (fun i => (wqr i : EReal)) (fun i => (wkr i : EReal)) b i 2)
        (kV (fun i => (vr i : EReal)) (fun i => (wvr i : EReal)) b d 2))
        (kS (fun i => (qr i : EReal)) (fun i => (kr i : EReal)) (fun i => (wqr i : EReal)) (fun i => (wkr i : EReal)) b i 3)
        (kV (fun i => (vr i : EReal)) (fun i => (wvr i : EReal)) b d 3)).2.2
      (step (step (step (step ((⊥ : EReal), (0 : EReal), (0 : EReal))
        (kS (fun i => (qr i : EReal)) (fun i => (kr i : EReal)) (fun i => (wqr i : EReal)) (fun i => (wkr i : EReal)) b i 0)
        (kV (fun i => (vr i : EReal)) (fun i => (wvr i : EReal)) b d 0))
        (kS (fun i => (qr i : EReal)) (fun i => (kr i : EReal)) (fun i => (wqr i : EReal)) (fun i => (wkr i : EReal)) b i 1)
        (kV (fun i => (vr i : EReal)) (fun i => (wvr i : EReal)) b d 1))
        (kS (fun i => (qr i : EReal)) (fun i => (kr i : EReal)) (fun i => (wqr i : EReal)) (fun i => (wkr i : EReal)) b i 2)
        (kV (fun i => (vr i : EReal)) (fun i => (wvr i : EReal)) b d 2))
        (kS (fun i => (qr i : EReal)) (fun i => (kr i : EReal)) (fun i => (wqr i : EReal)) (fun i => (wkr i : EReal)) b i 3)
        (kV (fun i => (vr i : EReal)) (fun i => (wvr i : EReal)) b d 3)).2.1
      = G (fun i => (qr i : EReal)) (fun i => (kr i : EReal)) (fun i => (vr i : EReal))
          (fun i => (wqr i : EReal)) (fun i => (wkr i : EReal)) (fun i => (wvr i : EReal)) (ix3 b i d) := by
  -- the blocks' scores and values as real numbers
  have hS : ∀ j : Fin 4,
      kS (fun i => (qr i : EReal)) (fun i => (kr i : EReal)) (fun i => (wqr i : EReal)) (fun i => (wkr i : EReal)) b i j
        = fun k' => ((scoreR qr kr wqr wkr b i (key j k') : ℝ) : EReal) :=
    fun j => funext fun k' => kS_coe qr kr wqr wkr b i j k'
  have hV : ∀ j : Fin 4,
      kV (fun i => (vr i : EReal)) (fun i => (wvr i : EReal)) b d j
        = fun k' => ((linR vr wvr b (key j k') d : ℝ) : EReal) :=
    fun j => funext fun k' => kV_coe vr wvr b d j k'
  rw [hS 0, hS 1, hS 2, hS 3, hV 0, hV 1, hV 2, hV 3]
  -- the one-pass law on the four blocks
  have h := online_eq_softmax_st (fun j k' => scoreR qr kr wqr wkr b i (key j k'))
    (fun j k' => linR vr wvr b (key j k') d) (by norm_num : 0 < 512)
  refine Eq.trans h ?_
  -- the specification's sums over the key positions, block by block
  show _ = ∑ κ : Fin 2048, Ideal.div
      (Ideal.exp (score (fun i => (qr i : EReal)) (fun i => (kr i : EReal)) (fun i => (wqr i : EReal)) (fun i => (wkr i : EReal)) b i κ))
      (denom (fun i => (qr i : EReal)) (fun i => (kr i : EReal)) (fun i => (wqr i : EReal)) (fun i => (wkr i : EReal)) b i)
      * lin (fun i => (vr i : EReal)) (fun i => (wvr i : EReal)) b κ d
  rw [sum_key, denom, Ideal.ofBits_zero_f32, sum_key]
  simp only [score_coe, lin_coe]

end Real

/-- The row law: four blocks of the one-pass computation on the folded-scale scores give the specification's output,
    when all six arrays hold real numbers. -/
theorem row_eq_G (q k v : Sx.Idx → EReal) (wq wk wv : Sw.Idx → EReal)
    (hq : ∀ i, ∃ r : ℝ, q i = (r : EReal)) (hk : ∀ i, ∃ r : ℝ, k i = (r : EReal)) (hv : ∀ i, ∃ r : ℝ, v i = (r : EReal))
    (hwq : ∀ i, ∃ r : ℝ, wq i = (r : EReal)) (hwk : ∀ i, ∃ r : ℝ, wk i = (r : EReal)) (hwv : ∀ i, ∃ r : ℝ, wv i = (r : EReal))
    (b : Fin 4) (i : Fin 2048) (d : Fin 1024) :
    Ideal.div (step (step (step (step ((⊥ : EReal), (0 : EReal), (0 : EReal)) (kS q k wq wk b i 0) (kV v wv b d 0)) (kS q k wq wk b i 1) (kV v wv b d 1)) (kS q k wq wk b i 2) (kV v wv b d 2)) (kS q k wq wk b i 3) (kV v wv b d 3)).2.2
              (step (step (step (step ((⊥ : EReal), (0 : EReal), (0 : EReal)) (kS q k wq wk b i 0) (kV v wv b d 0)) (kS q k wq wk b i 1) (kV v wv b d 1)) (kS q k wq wk b i 2) (kV v wv b d 2)) (kS q k wq wk b i 3) (kV v wv b d 3)).2.1
      = G q k v wq wk wv (ix3 b i d) := by
  obtain ⟨qr, rfl⟩ : ∃ qr : Sx.Idx → ℝ, q = fun i => (qr i : EReal) :=
    ⟨fun i => (hq i).choose, funext fun i => (hq i).choose_spec⟩
  obtain ⟨kr, rfl⟩ : ∃ kr : Sx.Idx → ℝ, k = fun i => (kr i : EReal) :=
    ⟨fun i => (hk i).choose, funext fun i => (hk i).choose_spec⟩
  obtain ⟨vr, rfl⟩ : ∃ vr : Sx.Idx → ℝ, v = fun i => (vr i : EReal) :=
    ⟨fun i => (hv i).choose, funext fun i => (hv i).choose_spec⟩
  obtain ⟨wqr, rfl⟩ : ∃ wqr : Sw.Idx → ℝ, wq = fun i => (wqr i : EReal) :=
    ⟨fun i => (hwq i).choose, funext fun i => (hwq i).choose_spec⟩
  obtain ⟨wkr, rfl⟩ : ∃ wkr : Sw.Idx → ℝ, wk = fun i => (wkr i : EReal) :=
    ⟨fun i => (hwk i).choose, funext fun i => (hwk i).choose_spec⟩
  obtain ⟨wvr, rfl⟩ : ∃ wvr : Sw.Idx → ℝ, wv = fun i => (wvr i : EReal) :=
    ⟨fun i => (hwv i).choose, funext fun i => (hwv i).choose_spec⟩
  exact row_eq_G_real qr kr vr wqr wkr wvr b i d

end Cert.Proof.RowLaw
-- ==== Proof.KIValue.lean ====
/-
  The idealized kernel's result array is the specification `G` of the six argument arrays, when these hold
  real numbers.

  At a grid point that writes the output back (the last key block of a row: batch b, query block qi), the
  entry (r, d) of the flushed block is the quotient after four online-softmax steps over the row's four key
  blocks. Read off the arrays the region is entered with, the scores of those steps are the scores of query
  position 512·qi + r against key positions 512·j + k' with the scale folded into the query projection, and
  the values are the projected values of those positions: by the row law the quotient is `G` at
  (b, 512·qi + r, d). The flushed blocks tile the result array, so the array is `G`.
-/
import proofs.«178921_j33646773797609_2_alg».proof.Proof.KITri
import proofs.«178921_j33646773797609_2_alg».proof.Proof.KIEntry
import proofs.«178921_j33646773797609_2_alg».proof.Proof.RowLaw

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Payloads Cert.Proof.OnlineSoftmax Cert.Proof.Spec Cert.Proof.RowLaw

variable (m : (ℓ : Loc nD τ sig) → Buf (Elt Ideal) ℓ)

/-- The six argument arrays at launch, as functions of an index. -/
abbrev aQ (c : Dev nD) : Sx.Idx → EReal := m ((c : Thread nD τ).loc main_arg0)
abbrev aK (c : Dev nD) : Sx.Idx → EReal := m ((c : Thread nD τ).loc main_arg1)
abbrev aV (c : Dev nD) : Sx.Idx → EReal := m ((c : Thread nD τ).loc main_arg2)
abbrev aWq (c : Dev nD) : Sw.Idx → EReal := m ((c : Thread nD τ).loc main_arg3)
abbrev aWk (c : Dev nD) : Sw.Idx → EReal := m ((c : Thread nD τ).loc main_arg4)
abbrev aWv (c : Dev nD) : Sw.Idx → EReal := m ((c : Thread nD τ).loc main_arg5)

/-- The projected queries of the row's first point, read off the entry arrays: the pre-scaled projection. -/
theorem qp_entry (c : Dev nD) (t0 : Fin cfg1.N) (r : Fin 512) (e : Fin 1024) (b : Fin 4) (i : Fin 2048)
    (hb : b.val = t0.val / 16) (hi : i.val = t0.val / 4 % 4 * 512 + r.val) :
    qpOf (iblk1 (Va3 m) c 0 t0) (iblk1 (Va3 m) c 1 t0) (ix2 r e) = kq (aQ m c) (aWq m c) b i e := by
  unfold qpOf
  rw [qpOf_apply]
  unfold kq
  refine Finset.sum_congr rfl fun d' _ => ?_
  rw [iblk1_0_apply (Va3 m) c t0 r d' b i hb hi, iblk1_1_apply (Va3 m) c t0 d' e, entry_q m c, entry_wq m c]
  rfl

/-- The scores of a point's block, read off the entry arrays. -/
theorem sc_entry (c : Dev nD) (t0 tj : Fin cfg1.N) (j : Fin 4) (r : Fin 512) (b : Fin 4) (i : Fin 2048)
    (hb0 : b.val = t0.val / 16) (hi : i.val = t0.val / 4 % 4 * 512 + r.val) (hbj : b.val = tj.val / 16) (hj : tj.val % 4 = j.val) :
    scAt (Va3 m) c (qpOf (iblk1 (Va3 m) c 0 t0) (iblk1 (Va3 m) c 1 t0)) tj r = kS (aQ m c) (aK m c) (aWq m c) (aWk m c) b i j := by
  funext k'
  show sc _ _ r k' = _
  unfold sc kS
  refine Finset.sum_congr rfl fun e _ => ?_
  rw [qp_entry m c t0 r e b i hb0 hi, iblk1_2_apply (Va3 m) c tj k' e b (key j k') hbj (by show 512 * j.val + k'.val = _; omega), entry_kp m c]
  rfl

/-- The values of a point's block, read off the entry arrays. -/
theorem v_entry (c : Dev nD) (tj : Fin cfg1.N) (j : Fin 4) (d : Fin 1024) (b : Fin 4)
    (hbj : b.val = tj.val / 16) (hj : tj.val % 4 = j.val) :
    vAt (Va3 m) c tj d = kV (aV m c) (aWv m c) b d j := by
  funext k'
  show iblk1 (Va3 m) c 3 tj (ix3 0 k' d) = _
  unfold kV
  rw [iblk1_3_apply (Va3 m) c tj k' d b (key j k') hbj (by show 512 * j.val + k'.val = _; omega), entry_vp m c]
  rfl

variable (hq : ∀ c i, ∃ r : ℝ, aQ m c i = (r : EReal)) (hk : ∀ c i, ∃ r : ℝ, aK m c i = (r : EReal)) (hv : ∀ c i, ∃ r : ℝ, aV m c i = (r : EReal))
  (hwq : ∀ c i, ∃ r : ℝ, aWq m c i = (r : EReal)) (hwk : ∀ c i, ∃ r : ℝ, aWk m c i = (r : EReal)) (hwv : ∀ c i, ∃ r : ℝ, aWv m c i = (r : EReal))

include hq hk hv hwq hwk hwv in
/-- An entry of the block flushed at a row's last point is `G` at its place in the result array. -/
theorem flush_eq_G (c : Dev nD) (t : Fin cfg1.N) (h3 : t.val % 4 = 3) (r : Fin 512) (d : Fin 1024) (b : Fin 4) (i : Fin 2048)
    (hb : b.val = t.val / 16) (hi : i.val = t.val / 4 % 4 * 512 + r.val) :
    stO (Va3 m) c t (ix3 0 r d) = G (aQ m c) (aK m c) (aV m c) (aWq m c) (aWk m c) (aWv m c) (ix3 b i d) := by
  have hN : t.val < 64 := lt_of_lt_of_eq t.isLt (show cfg1.N = 64 from N_1)
  have e3 : (prevPt t).val = t.val - 1 := rfl
  have e2 : (prevPt (prevPt t)).val = t.val - 1 - 1 := rfl
  have e1 : (prevPt (prevPt (prevPt t))).val = t.val - 1 - 1 - 1 := rfl
  rw [flush_apply (Va3 m) c t h3 r d]
  rw [sc_entry m c (prevPt (prevPt (prevPt t))) (prevPt (prevPt (prevPt t))) 0 r b i (by omega) (by omega) (by omega) (by show _ = 0; omega),
    sc_entry m c (prevPt (prevPt (prevPt t))) (prevPt (prevPt t)) 1 r b i (by omega) (by omega) (by omega) (by show _ = 1; omega),
    sc_entry m c (prevPt (prevPt (prevPt t))) (prevPt t) 2 r b i (by omega) (by omega) (by omega) (by show _ = 2; omega),
    sc_entry m c (prevPt (prevPt (prevPt t))) t 3 r b i (by omega) (by omega) (by omega) (by show _ = 3; omega),
    v_entry m c (prevPt (prevPt (prevPt t))) 0 d b (by omega) (by show _ = 0; omega),
    v_entry m c (prevPt (prevPt t)) 1 d b (by omega) (by show _ = 1; omega),
    v_entry m c (prevPt t) 2 d b (by omega) (by show _ = 2; omega),
    v_entry m c t 3 d b (by omega) (by show _ = 3; omega)]
  exact row_eq_G (aQ m c) (aK m c) (aV m c) (aWq m c) (aWk m c) (aWv m c) (hq c) (hk c) (hv c) (hwq c) (hwk c) (hwv c) b i d

include hq hk hv hwq hwk hwv in
/-- What a point that writes the output back writes is its block of `G`. -/
theorem flushed1_4_eq (c : Dev nD) (t : Fin cfg1.N) (hf : (cfg1.win 4).flush t = true) :
    (dat1 (Va3 m) c).flushed 4 t
      = ((cfg1.win 4).blk t).view.read (Elt Ideal) (G (aQ m c) (aK m c) (aV m c) (aWq m c) (aWk m c) (aWv m c) : S4x2048x1024.Idx → EReal) := by
  have h3 : t.val % 4 = 3 := (flush1_4 t).mp hf
  have hN : t.val < 64 := lt_of_lt_of_eq t.isLt (show cfg1.N = 64 from N_1)
  show (cfg1.win 4).cut (grid1.coords t) ((dat1 (Va3 m) c).after 4 t) = _
  rw [after1_4]
  funext y
  obtain ⟨z, r, d, rfl⟩ : ∃ (z : Fin 1) (r : Fin 512) (d : Fin 1024), y = ix3 z r d := ⟨y 0, y 1, y 2, eq_ix3 y⟩
  obtain rfl : z = 0 := Subsingleton.elim _ _
  rw [View.read_apply, emb1_4 t r d ⟨t.val / 16, by omega⟩ ⟨t.val / 4 % 4 * 512 + r.val, by omega⟩ rfl rfl]
  exact flush_eq_G m hq hk hv hwq hwk hwv c t h3 r d _ _ rfl rfl

include hq hk hv hwq hwk hwv in
/-- The result array after the run. -/
theorem final_v20 (c : Dev nD) :
    Wa4 m c (Proc.devRef .tc main_v20) = (G (aQ m c) (aK m c) (aV m c) (aWq m c) (aWk m c) (aWv m c) : S4x2048x1024.Idx → EReal) :=
  (Wa4_arr m c 4).trans ((dat1 (Va3 m) c).arrAt_eq_of_cover 4 _ (fun t hf => flushed1_4_eq m hq hk hv hwq hwk hwv c t hf) cover1_4)

include hq hk hv hwq hwk hwv in
/-- The idealized kernel's run, with its result named: it terminates without a fault, its result array is
    `G` of the argument arrays, and the argument arrays end as launched. -/
theorem run_value (ρ : Dev nD → PrngReg) :
    θ_run defs (onTc (τ := τ) (main (F := Ideal))) ⟨m, fun _ => 0, ρ⟩ (fun r => ∀ c : Dev nD,
      r.2.mem ((c.tc : Thread nD τ).loc main_v20) = (G (aQ m c) (aK m c) (aV m c) (aWq m c) (aWk m c) (aWv m c) : S4x2048x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v20 (by decide))).trans (final_v20 m hq hk hv hwq hwk hwv c),
     (h c _ (mem_uc main_arg0 (by decide))).trans (Wa4_main_arg0 m c),
     (h c _ (mem_uc main_arg1 (by decide))).trans (Wa4_main_arg1 m c),
     (h c _ (mem_uc main_arg2 (by decide))).trans (Wa4_main_arg2 m c),
     (h c _ (mem_uc main_arg3 (by decide))).trans (Wa4_main_arg3 m c),
     (h c _ (mem_uc main_arg4 (by decide))).trans (Wa4_main_arg4 m c),
     (h c _ (mem_uc main_arg5 (by decide))).trans (Wa4_main_arg5 m c)⟩) (run_all m ρ)

end Cert.KernelIdeal.Hand

end
-- ==== Proof.RefRun.lean ====
/-
  The reference program's side. Its run is the generated one: every execution ends with the result
  array at the composed term of its fourteen host operations over the argument arrays, and the
  arguments unchanged. The frame of the reference is that run with the result dropped.
-/
import proofs.«178921_j33646773797609_2_alg».proof.Defs
import proofs.«178921_j33646773797609_2_alg».proof.Proof.Gen.ReferenceIdeal.Run
import proofs.«178921_j33646773797609_2_alg».proof.Proof.Gen.ReferenceIdeal.Read

noncomputable section

open Idealize.ShloMosaic Idealize.ShloMosaic.TcCoe Idealize.SL.Sem

namespace Cert.Proof.RefSide

/-- The reference terminates without a fault and leaves its six argument arrays as launched. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.Proof.RefSide

end
-- ==== Proof.RefIsG.lean ====
/-
  The reference program's side of the certificate.

  (a) The array the reference program leaves in its result is, index by index, the specification G of
      the six argument arrays: three linear layers, the scaled scores, the exponentials normalized by
      their row sums, and the weighted sum of the projected values.
  (b) Under the precondition every entry of every argument array is a real number.
-/
import proofs.«178921_j33646773797609_2_alg».proof.Defs
import proofs.«178921_j33646773797609_2_alg».proof.Proof.Gen.ReferenceIdeal.Run
import proofs.«178921_j33646773797609_2_alg».proof.Proof.Gen.ReferenceIdeal.Read
import proofs.«178921_j33646773797609_2_alg».proof.Proof.Gen.Pre_finite_inputs
import proofs.«178921_j33646773797609_2_alg».proof.Proof.Spec
import proofs.«178921_j33646773797609_2_alg».proof.Proof.Consts
import Idealize.ShloMosaic.Lib.ValueIdx
import Idealize.ShloMosaic.PureOps.Ideal.Laws
import Idealize.ShloMosaic.Lib.ReduceAll

noncomputable section

namespace Cert.Proof.RefIsG

open Cert.ReferenceIdeal Cert.ReferenceIdeal.Gen Cert.ReferenceIdeal.Read Idealize.ShloMosaic
  Idealize.ShloMosaic.ValueIdx Cert.Proof.Spec

/-! ## (a) The reference computes G -/

/-- Two rank-3 indices with the same three coordinates are equal. -/
local macro "idx3" : tactic =>
  `(tactic| (funext a; match a with | ⟨0, _⟩ => rfl | ⟨1, _⟩ => rfl | ⟨2, _⟩ => rfl))
/-- Two rank-2 indices with the same two coordinates are equal. -/
local macro "idx2" : tactic =>
  `(tactic| (funext a; match a with | ⟨0, _⟩ => rfl | ⟨1, _⟩ => rfl))

/-- The query projection at `[b, s, e]` is the linear layer. -/
theorem v0_ix (x : Sx.Idx → EReal) (w : Sw.Idx → EReal) (b : Fin 4) (s : Fin 2048) (e : Fin 1024) :
    val_main_v0 (F := Ideal) x w (ix3 b s e) = lin x w b s e := by
  rw [val_main_v0_apply]
  unfold lin
  refine Finset.sum_congr rfl fun k _ => ?_
  rw [show lidx_main_v0 (ix3 b s e) k = ix3 b s k from by idx3,
    show ridx_main_v0 (ix3 b s e) k = ix2 e k from by idx2]

/-- The key projection at `[b, s, e]` is the linear layer. -/
theorem v1_ix (x : Sx.Idx → EReal) (w : Sw.Idx → EReal) (b : Fin 4) (s : Fin 2048) (e : Fin 1024) :
    val_main_v1 (F := Ideal) x w (ix3 b s e) = lin x w b s e := by
  rw [val_main_v1_apply]
  unfold lin
  refine Finset.sum_congr rfl fun k _ => ?_
  rw [show lidx_main_v1 (ix3 b s e) k = ix3 b s k from by idx3,
    show ridx_main_v1 (ix3 b s e) k = ix2 e k from by idx2]

/-- The value projection at `[b, s, e]` is the linear layer. -/
theorem v2_ix (x : Sx.Idx → EReal) (w : Sw.Idx → EReal) (b : Fin 4) (s : Fin 2048) (e : Fin 1024) :
    val_main_v2 (F := Ideal) x w (ix3 b s e) = lin x w b s e := by
  rw [val_main_v2_apply]
  unfold lin
  refine Finset.sum_congr rfl fun k _ => ?_
  rw [show lidx_main_v2 (ix3 b s e) k = ix3 b s k from by idx3,
    show ridx_main_v2 (ix3 b s e) k = ix2 e k from by idx2]

/-- The scalar the scores are multiplied by is `1 / √1024`, as the specification writes it. -/
theorem v4_eq (i : S_.Idx) : val_main_v4 (F := Ideal) i = scale := rfl

/-- The scaled score at `[b, i, j]`. -/
theorem v7_ix (q k : Sx.Idx → EReal) (wq wk : Sw.Idx → EReal) (b : Fin 4) (i j : Fin 2048) :
    val_main_v7 (F := Ideal) q k wq wk (ix3 b i j) = score q k wq wk b i j := by
  rw [val_main_v7_apply, val_main_v5_apply, val_main_v6_apply, v4_eq]
  unfold score
  refine congrArg (· * scale) (Finset.sum_congr rfl fun e _ => ?_)
  rw [show lidx_main_v5 (ix3 b i j) e = ix3 b i e from by idx3,
    show ridx_main_v5 (ix3 b i j) e = ix3 b j e from by idx3, v0_ix, v1_ix]

/-- The exponential of the scaled score at `[b, i, j]`. -/
theorem v8_ix (q k : Sx.Idx → EReal) (wq wk : Sw.Idx → EReal) (b : Fin 4) (i j : Fin 2048) :
    val_main_v8 (F := Ideal) q k wq wk (ix3 b i j) = Ideal.exp (score q k wq wk b i j) := by
  rw [val_main_v8_apply, v7_ix]
  rfl

/-- The row sum of the exponentials at `[b, i]` is the normalizer. -/
theorem v9_ix (q k : Sx.Idx → EReal) (wq wk : Sw.Idx → EReal) (b : Fin 4) (i : Fin 2048) :
    val_main_v9 (F := Ideal) q k wq wk (ix2 b i) = denom q k wq wk b i := by
  rw [val_main_v9_apply]
  unfold denom
  refine congrArg (Ideal.ofBits .f32 0x00000000#32 + ·) (Finset.sum_congr rfl fun j _ => ?_)
  rw [show idx_main_v9 (ix2 b i) j = ix3 b i j from by idx3, v8_ix]

/-- The normalizer, broadcast back along the key axis. -/
theorem v11_ix (q k : Sx.Idx → EReal) (wq wk : Sw.Idx → EReal) (b : Fin 4) (i j : Fin 2048) :
    val_main_v11 (F := Ideal) q k wq wk (ix3 b i j) = denom q k wq wk b i := by
  rw [val_main_v11_apply, val_main_v10_apply,
    show idx_main_v10 (idx_main_v11 (ix3 b i j)) = ix2 b i from by idx2, v9_ix]

/-- The attention weight at `[b, i, j]`. -/
theorem v12_ix (q k : Sx.Idx → EReal) (wq wk : Sw.Idx → EReal) (b : Fin 4) (i j : Fin 2048) :
    val_main_v12 (F := Ideal) q k wq wk (ix3 b i j)
      = Ideal.div (Ideal.exp (score q k wq wk b i j)) (denom q k wq wk b i) := by
  rw [val_main_v12_apply, v8_ix, v11_ix]
  rfl

/-- The reference's last stage is the specification. -/
theorem val13_eq_G (x0 x1 x2 : Sx.Idx → EReal) (x3 x4 x5 : Sw.Idx → EReal) :
    val_main_v13 (F := Ideal) x0 x1 x2 x3 x4 x5 = G x0 x1 x2 x3 x4 x5 := by
  funext i
  obtain ⟨b, s, d, rfl⟩ : ∃ (b : Fin 4) (s : Fin 2048) (d : Fin 1024), i = ix3 b s d :=
    ⟨i 0, i 1, i 2, eq_ix3 i⟩
  rw [val_main_v13_apply]
  unfold G
  refine Finset.sum_congr rfl fun j _ => ?_
  rw [show lidx_main_v13 (ix3 b s d) j = ix3 b s j from by idx3,
    show ridx_main_v13 (ix3 b s d) j = ix3 b j d from by idx3, v12_ix, v2_ix]

/-- The array the reference program's run leaves in its result, as the run theorem states it, is the
    specification of the six argument arrays. -/
theorem ref_eq_G (x0 x1 x2 : FVec Ideal S4x2048x1024 .f32) (x3 x4 x5 : FVec Ideal S1024x1024 .f32) :
    Host.dotGeneral (F := Ideal) dot_S4x2048x2048_S4x2048x1024_S4x2048x1024_2_1_1_2_0_0 none (Host.divf (F := Ideal) (Host.exp (F := Ideal) (mulf (F := Ideal) (Host.dotGeneral (F := Ideal) dot_S4x2048x1024_S4x2048x1024_S4x2048x2048_2_2_1_1_0_0 none (Host.dotGeneral (F := Ideal) dot_S4x2048x1024_S1024x1024_S4x2048x1024_2_1_01_0_n_n none (x0) (x3)) (Host.dotGeneral (F := Ideal) dot_S4x2048x1024_S1024x1024_S4x2048x1024_2_1_01_0_n_n none (x1) (x4))) (broadcastInDim S4x2048x2048 ![] bcast_S_S4x2048x2048 (Host.divf (F := Ideal) (constant (F := Ideal) S_ .f32 0x3F800000#32) (Host.sqrt (F := Ideal) (constant (F := Ideal) S_ .f32 0x44800000#32)))))) (broadcastInDim S4x2048x2048 ![0, 1, 2] bcast_S4x2048x1_S4x2048x2048_0_1_2 (broadcastInDim S4x2048x1 ![0, 1] bcast_S4x2048_S4x2048x1_0_1 (Host.reduceAdd (F := Ideal) (Host.exp (F := Ideal) (mulf (F := Ideal) (Host.dotGeneral (F := Ideal) dot_S4x2048x1024_S4x2048x1024_S4x2048x2048_2_2_1_1_0_0 none (Host.dotGeneral (F := Ideal) dot_S4x2048x1024_S1024x1024_S4x2048x1024_2_1_01_0_n_n none (x0) (x3)) (Host.dotGeneral (F := Ideal) dot_S4x2048x1024_S1024x1024_S4x2048x1024_2_1_01_0_n_n none (x1) (x4))) (broadcastInDim S4x2048x2048 ![] bcast_S_S4x2048x2048 (Host.divf (F := Ideal) (constant (F := Ideal) S_ .f32 0x3F800000#32) (Host.sqrt (F := Ideal) (constant (F := Ideal) S_ .f32 0x44800000#32)))))) (constant (F := Ideal) S_ .f32 0x00000000#32) reducesTo_S4x2048x2048_S4x2048_d2 h_S_)))) (Host.dotGeneral (F := Ideal) dot_S4x2048x1024_S1024x1024_S4x2048x1024_2_1_01_0_n_n none (x2) (x5))
      = G x0 x1 x2 x3 x4 x5 :=
  (val_main_v13_eq (F := Ideal) x0 x1 x2 x3 x4 x5).trans (val13_eq_G x0 x1 x2 x3 x4 x5)

/-! ## (b) Under the precondition every input entry is a real number -/

/-- The scalar shape has one index. -/
instance : Subsingleton Cert.Pre_finite_inputs.S_.Idx := ⟨fun a b => funext fun d => d.elim0⟩

/-- The f32 pattern with all exponent bits set and no significand bit is `+∞`. -/
theorem inf_eq_top : Ideal.ofBits .f32 0x7F800000#32 = ⊤ := Cert.Proof.Consts.ofBits_inf

/-- An extended real whose absolute value `max x (-x)` is strictly below `+∞` is a real number:
    at `⊥` and at `⊤` the absolute value is `⊤`. -/
theorem real_of_abs_lt (x : EReal)
    (h : Ideal.cmp .olt (max x (-x)) (Ideal.ofBits .f32 0x7F800000#32) = 1#1) :
    ∃ r : ℝ, x = (r : EReal) := by
  rw [inf_eq_top] at h
  induction x using EReal.rec with
  | bot => exact absurd h (by simp [Ideal.cmp])
  | coe r => exact ⟨r, rfl⟩
  | top => exact absurd h (by simp [Ideal.cmp])

/-- The precondition is the conjunction, over the six argument arrays, of "every entry has absolute
    value below `+∞`"; so every entry of every argument array is a real number. -/
theorem real_of_pre [Cert.Pre_finite_inputs.Facts]
    (x0 x1 x2 : FVec Ideal Cert.Pre_finite_inputs.S4x2048x1024 .f32)
    (x3 x4 x5 : FVec Ideal Cert.Pre_finite_inputs.S1024x1024 .f32)
    (h : Cert.Pre_finite_inputs.fn (F := Ideal) x0 x1 x2 x3 x4 x5 = fun _ => 1#1) :
    (∀ i, ∃ r : ℝ, x0 i = (r : EReal)) ∧ (∀ i, ∃ r : ℝ, x1 i = (r : EReal)) ∧
    (∀ i, ∃ r : ℝ, x2 i = (r : EReal)) ∧ (∀ i, ∃ r : ℝ, x3 i = (r : EReal)) ∧
    (∀ i, ∃ r : ℝ, x4 i = (r : EReal)) ∧ (∀ i, ∃ r : ℝ, x5 i = (r : EReal)) := by
  have h0 := congrFun h ix0
  dsimp only [Cert.Pre_finite_inputs.fn, Cert.Pre_finite_inputs.fn_part1] at h0
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨fun i => real_of_abs_lt (x0 i) (Host.reduce_andi_all _ _ _ _ ix0 e0 i),
    fun i => real_of_abs_lt (x1 i) (Host.reduce_andi_all _ _ _ _ ix0 e1 i),
    fun i => real_of_abs_lt (x2 i) (Host.reduce_andi_all _ _ _ _ ix0 e2 i),
    fun i => real_of_abs_lt (x3 i) (Host.reduce_andi_all _ _ _ _ ix0 e3 i),
    fun i => real_of_abs_lt (x4 i) (Host.reduce_andi_all _ _ _ _ ix0 e4 i),
    fun i => real_of_abs_lt (x5 i) (Host.reduce_andi_all _ _ _ _ ix0 e5 i)⟩

end Cert.Proof.RefIsG

end
-- ==== Proof.lean ====
/-
  A fused attention head — linear projections of q, k and v, scaled scores, a softmax over the keys, the
  weighted sum of the projected values — computed by two kernels against the plain formula.

  The kernel program first projects the keys and the values (one matrix product per 2048-row block), then, per
  batch and per block of 512 queries, projects the queries with the scale 1/32 folded into the weights and
  sweeps the keys in four blocks of 512, keeping for every query row a running maximum of the scores, a running
  sum of exponentials taken against that maximum and a running weighted sum of value rows, rescaled whenever
  the maximum grows; after the last block it divides. The reference projects, scales the scores by 1/√1024,
  exponentiates, normalizes by the row sum and multiplies by the projected values.

  On the extended reals, with every input a real number, the two agree entry by entry: 1/√1024 is 1/32; a
  scale folded into the query weights is the same scale applied to the scores (the sums are finite sums of
  reals); and a sum of exponentials taken against ANY real level M, divided by the same sum with the values
  dropped, does not depend on M, because exp (s − M) = exp (−M) · exp s and the positive factor exp (−M)
  cancels — so the running rescaling is invisible in the quotient. Changes of float format are the identity
  here, and a matrix product is a plain finite sum.

  The three frames: the reference is straight-line host code; each kernel program runs host operations, the
  projection region, host operations, the attention region, and no step writes an argument array. The
  attention region keeps four scratch buffers across the four points of a row; its invariant names their
  contents after every point. The idealization rewrote nothing, so `preserves` is trivial.
-/
import proofs.«178921_j33646773797609_2_alg».proof.Defs
import proofs.«178921_j33646773797609_2_alg».proof.Proof.Gen.Kernel
import proofs.«178921_j33646773797609_2_alg».proof.Proof.Gen.KernelIdeal
import proofs.«178921_j33646773797609_2_alg».proof.Proof.Gen.ReferenceIdeal
import proofs.«178921_j33646773797609_2_alg».proof.Proof.Gen.Pre_finite_inputs
import proofs.«178921_j33646773797609_2_alg».proof.Proof.KRun
import proofs.«178921_j33646773797609_2_alg».proof.Proof.KIValue
import proofs.«178921_j33646773797609_2_alg».proof.Proof.RefRun
import proofs.«178921_j33646773797609_2_alg».proof.Proof.RefIsG
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as launched. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The idealization rewrote no operation. -/
theorem preserves : Cert.preserves_Kernel_KernelIdeal := trivial

/-- From memories agreeing on the six arguments, real by the precondition, both idealized programs end with
    the result array at the specification `G` of the arguments. -/
theorem algebraic : Cert.algebraic_KernelIdeal_ReferenceIdeal := by
  intro m ρ m' ρ' hpre hagree
  have hr := fun c => Cert.Proof.RefIsG.real_of_pre _ _ _ _ _ _ (hpre c)
  refine ⟨fun c => (Cert.Proof.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) : Cert.KernelIdeal.S4x2048x1024.Idx → EReal), ?_, ?_⟩
  · exact Cert.KernelIdeal.Hand.run_value m (fun c => (hr c).1) (fun c => (hr c).2.1) (fun c => (hr c).2.2.1)
      (fun c => (hr c).2.2.2.1) (fun c => (hr c).2.2.2.2.1) (fun c => (hr c).2.2.2.2.2) ρ
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact Cert.Proof.RefIsG.ref_eq_G _ _ _ _ _ _

theorem claim : Cert.Claim := ⟨Cert.Kernel.Gen.facts, Cert.KernelIdeal.Gen.facts, Cert.ReferenceIdeal.Gen.facts, Cert.Pre_finite_inputs.Gen.facts,
  frame_k, frame_ki, Cert.Proof.RefSide.frame_ri, preserves, algebraic⟩

end Cert.Proof

end
